-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S256x64x64 : Shape := ⟨3, ![256, 64, 64]⟩
abbrev S4x64x64x512 : Shape := ⟨4, ![4, 64, 64, 512]⟩
abbrev S4x64x64x64x64 : Shape := ⟨5, ![4, 64, 64, 64, 64]⟩
abbrev S4x64x64 : Shape := ⟨3, ![4, 64, 64]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S256x64x64 : S_.BroadcastsInDim S256x64x64 (![] : Fin 0 → Fin S256x64x64.rank)
  reducesTo_S256x64x64_S_d0_1_2 : S256x64x64.ReducesTo [0, 1, 2] S_
  bcast_S_S4x64x64x512 : S_.BroadcastsInDim S4x64x64x512 (![] : Fin 0 → Fin S4x64x64x512.rank)
  reducesTo_S4x64x64x512_S_d0_1_2_3 : S4x64x64x512.ReducesTo [0, 1, 2, 3] S_
  bcast_S_S4x64x64x64x64 : S_.BroadcastsInDim S4x64x64x64x64 (![] : Fin 0 → Fin S4x64x64x64x64.rank)
  reducesTo_S4x64x64x64x64_S_d0_1_2_3_4 : S4x64x64x64x64.ReducesTo [0, 1, 2, 3, 4] S_
  bcast_S_S4x64x64 : S_.BroadcastsInDim S4x64x64 (![] : Fin 0 → Fin S4x64x64.rank)
  reducesTo_S4x64x64_S_d0_1_2 : S4x64x64.ReducesTo [0, 1, 2] S_

variable [Facts]

def fn_part2 {F : FTy → Type} [FloatOps F] (main_arg7 : FVec F S4x64x64 .f32) (main_arg8 : FVec F S4x64x64 .f32) (main_arg9 : FVec F S4x64x64 .f32) (main_v33 : IVec S_ 1) : IVec S_ 1 :=
  let main_v34 : FVec F S4x64x64 .f32 := Host.absf main_arg7
  let main_cst_12 : FVec F S_ .f32 := constant S_ .f32 0x7F800000#32
  let main_v35 : FVec F S4x64x64 .f32 := broadcastInDim S4x64x64 ![] bcast_S_S4x64x64 main_cst_12
  let main_v36 : IVec S4x64x64 1 := cmpf .olt main_v34 main_v35
  let main_c_13 : IVec S_ 1 := constantI S_ 1 1#1
  let main_v37 : IVec S_ 1 := (fun x v => Host.reduce IntOp.andi x v reducesTo_S4x64x64_S_d0_1_2 h_S_) main_v36 main_c_13
  let main_v38 : IVec S_ 1 := andi main_v33 main_v37
  let main_v39 : FVec F S4x64x64 .f32 := Host.absf main_arg8
  let main_cst_14 : FVec F S_ .f32 := constant S_ .f32 0x7F800000#32
  let main_v40 : FVec F S4x64x64 .f32 := broadcastInDim S4x64x64 ![] bcast_S_S4x64x64 main_cst_14
  let main_v41 : IVec S4x64x64 1 := cmpf .olt main_v39 main_v40
  let main_c_15 : IVec S_ 1 := constantI S_ 1 1#1
  let main_v42 : IVec S_ 1 := (fun x v => Host.reduce IntOp.andi x v reducesTo_S4x64x64_S_d0_1_2 h_S_) main_v41 main_c_15
  let main_v43 : IVec S_ 1 := andi main_v38 main_v42
  let main_v44 : FVec F S4x64x64 .f32 := Host.absf main_arg9
  let main_cst_16 : FVec F S_ .f32 := constant S_ .f32 0x7F800000#32
  let main_v45 : FVec F S4x64x64 .f32 := broadcastInDim S4x64x64 ![] bcast_S_S4x64x64 main_cst_16
  let main_v46 : IVec S4x64x64 1 := cmpf .olt main_v44 main_v45
  let main_c_17 : IVec S_ 1 := constantI S_ 1 1#1
  let main_v47 : IVec S_ 1 := (fun x v => Host.reduce IntOp.andi x v reducesTo_S4x64x64_S_d0_1_2 h_S_) main_v46 main_c_17
  let main_v48 : IVec S_ 1 := andi main_v43 main_v47
  main_v48

def fn_part1 {F : FTy → Type} [FloatOps F] (main_arg4 : FVec F S4x64x64x512 .f32) (main_arg5 : FVec F S4x64x64x64x64 .f32) (main_arg6 : FVec F S4x64x64x512 .f32) (main_arg7 : FVec F S4x64x64 .f32) (main_arg8 : FVec F S4x64x64 .f32) (main_arg9 : FVec F S4x64x64 .f32) (main_v13 : IVec S_ 1) (main_v16 : IVec S256x64x64 1) : IVec S_ 1 :=
  let main_c_5 : IVec S_ 1 := constantI S_ 1 1#1
  let main_v17 : IVec S_ 1 := (fun x v => Host.reduce IntOp.andi x v reducesTo_S256x64x64_S_d0_1_2 h_S_) main_v16 main_c_5
  let main_v18 : IVec S_ 1 := andi main_v13 main_v17
  let main_v19 : FVec F S4x64x64x512 .f32 := Host.absf main_arg4
  let main_cst_6 : FVec F S_ .f32 := constant S_ .f32 0x7F800000#32
  let main_v20 : FVec F S4x64x64x512 .f32 := broadcastInDim S4x64x64x512 ![] bcast_S_S4x64x64x512 main_cst_6
  let main_v21 : IVec S4x64x64x512 1 := cmpf .olt main_v19 main_v20
  let main_c_7 : IVec S_ 1 := constantI S_ 1 1#1
  let main_v22 : IVec S_ 1 := (fun x v => Host.reduce IntOp.andi x v reducesTo_S4x64x64x512_S_d0_1_2_3 h_S_) main_v21 main_c_7
  let main_v23 : IVec S_ 1 := andi main_v18 main_v22
  let main_v24 : FVec F S4x64x64x64x64 .f32 := Host.absf main_arg5
  let main_cst_8 : FVec F S_ .f32 := constant S_ .f32 0x7F800000#32
  let main_v25 : FVec F S4x64x64x64x64 .f32 := broadcastInDim S4x64x64x64x64 ![] bcast_S_S4x64x64x64x64 main_cst_8
  let main_v26 : IVec S4x64x64x64x64 1 := cmpf .olt main_v24 main_v25
  let main_c_9 : IVec S_ 1 := constantI S_ 1 1#1
  let main_v27 : IVec S_ 1 := (fun x v => Host.reduce IntOp.andi x v reducesTo_S4x64x64x64x64_S_d0_1_2_3_4 h_S_) main_v26 main_c_9
  let main_v28 : IVec S_ 1 := andi main_v23 main_v27
  let main_v29 : FVec F S4x64x64x512 .f32 := Host.absf main_arg6
  let main_cst_10 : FVec F S_ .f32 := constant S_ .f32 0x7F800000#32
  let main_v30 : FVec F S4x64x64x512 .f32 := broadcastInDim S4x64x64x512 ![] bcast_S_S4x64x64x512 main_cst_10
  let main_v31 : IVec S4x64x64x512 1 := cmpf .olt main_v29 main_v30
  let main_c_11 : IVec S_ 1 := constantI S_ 1 1#1
  let main_v32 : IVec S_ 1 := (fun x v => Host.reduce IntOp.andi x v reducesTo_S4x64x64x512_S_d0_1_2_3 h_S_) main_v31 main_c_11
  let main_v33 : IVec S_ 1 := andi main_v28 main_v32
  fn_part2 (F := F) main_arg7 main_arg8 main_arg9 main_v33

def fn {F : FTy → Type} [FloatOps F] (main_arg0 : FVec F S256x512 .f32) (main_arg1 : FVec F S256x64x64 .f32) (main_arg2 : FVec F S256x512 .f32) (main_arg3 : FVec F S256x64x64 .f32) (main_arg4 : FVec F S4x64x64x512 .f32) (main_arg5 : FVec F S4x64x64x64x64 .f32) (main_arg6 : FVec F S4x64x64x512 .f32) (main_arg7 : FVec F S4x64x64 .f32) (main_arg8 : FVec F S4x64x64 .f32) (main_arg9 : FVec F S4x64x64 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S256x64x64 .f32 := Host.absf main_arg1
  let main_cst_0 : FVec F S_ .f32 := constant S_ .f32 0x7F800000#32
  let main_v5 : FVec F S256x64x64 .f32 := broadcastInDim S256x64x64 ![] bcast_S_S256x64x64 main_cst_0
  let main_v6 : IVec S256x64x64 1 := cmpf .olt main_v4 main_v5
  let main_c_1 : IVec S_ 1 := constantI S_ 1 1#1
  let main_v7 : IVec S_ 1 := (fun x v => Host.reduce IntOp.andi x v reducesTo_S256x64x64_S_d0_1_2 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S256x64x64 .f32 := Host.absf main_arg3
  let main_cst_4 : FVec F S_ .f32 := constant S_ .f32 0x7F800000#32
  let main_v15 : FVec F S256x64x64 .f32 := broadcastInDim S256x64x64 ![] bcast_S_S256x64x64 main_cst_4
  let main_v16 : IVec S256x64x64 1 := cmpf .olt main_v14 main_v15
  fn_part1 (F := F) main_arg4 main_arg5 main_arg6 main_arg7 main_arg8 main_arg9 main_v13 main_v16
-- ==== Kernel.lean ====
abbrev S256x512 : Shape := ⟨2, ![256, 512]⟩
abbrev S256x64x64 : Shape := ⟨3, ![256, 64, 64]⟩
abbrev S4x64x64x512 : Shape := ⟨4, ![4, 64, 64, 512]⟩
abbrev S4x64x64x64x64 : Shape := ⟨5, ![4, 64, 64, 64, 64]⟩
abbrev S4x64x64 : Shape := ⟨3, ![4, 64, 64]⟩
abbrev S4x4096x512 : Shape := ⟨3, ![4, 4096, 512]⟩
abbrev S4x4096x4096 : Shape := ⟨3, ![4, 4096, 4096]⟩
abbrev S256x4096 : Shape := ⟨2, ![256, 4096]⟩
abbrev S4x1x4096 : Shape := ⟨3, ![4, 1, 4096]⟩
abbrev S1x256x512 : Shape := ⟨3, ![1, 256, 512]⟩
abbrev S1x256x4096 : Shape := ⟨3, ![1, 256, 4096]⟩
abbrev S1x1x256 : Shape := ⟨3, ![1, 1, 256]⟩
abbrev S256x256 : Shape := ⟨2, ![256, 256]⟩
abbrev S4x256x256 : Shape := ⟨3, ![4, 256, 256]⟩
abbrev S1x256 : Shape := ⟨2, ![1, 256]⟩
abbrev S1x256x256 : Shape := ⟨3, ![1, 256, 256]⟩

abbrev nBuf : Space → Nat
  | .hbm => 25
  | .vmem => 18
  | .smem => 0
  | _ => 0

abbrev bufTy : (tb : Table) → Fin (tcTables nBuf tb) → BufTy
  | .hbm, ⟨0, _⟩ => ⟨S256x512, .f32⟩
  | .hbm, ⟨1, _⟩ => ⟨S256x64x64, .f32⟩
  | .hbm, ⟨2, _⟩ => ⟨S256x512, .f32⟩
  | .hbm, ⟨3, _⟩ => ⟨S256x64x64, .f32⟩
  | .hbm, ⟨4, _⟩ => ⟨S4x64x64x512, .f32⟩
  | .hbm, ⟨5, _⟩ => ⟨S4x64x64x64x64, .f32⟩
  | .hbm, ⟨6, _⟩ => ⟨S4x64x64x512, .f32⟩
  | .hbm, ⟨7, _⟩ => ⟨S4x64x64, .f32⟩
  | .hbm, ⟨8, _⟩ => ⟨S4x64x64, .f32⟩
  | .hbm, ⟨9, _⟩ => ⟨S4x64x64, .f32⟩
  | .hbm, ⟨10, _⟩ => ⟨S4x4096x512, .f32⟩
  | .hbm, ⟨11, _⟩ => ⟨S4x4096x512, .f32⟩
  | .hbm, ⟨12, _⟩ => ⟨S4x4096x4096, .f32⟩
  | .hbm, ⟨13, _⟩ => ⟨S256x4096, .f32⟩
  | .hbm, ⟨14, _⟩ => ⟨S256x4096, .f32⟩
  | .hbm, ⟨15, _⟩ => ⟨S4x64x64, .f32⟩
  | .hbm, ⟨16, _⟩ => ⟨S4x64x64, .f32⟩
  | .hbm, ⟨17, _⟩ => ⟨S4x1x4096, .f32⟩
  | .hbm, ⟨18, _⟩ => ⟨S256x512, .bf16⟩
  | .hbm, ⟨19, _⟩ => ⟨S256x512, .bf16⟩
  | .hbm, ⟨20, _⟩ => ⟨S256x4096, .bf16⟩
  | .hbm, ⟨21, _⟩ => ⟨S256x4096, .f32⟩
  | .hbm, ⟨22, _⟩ => ⟨S256x4096, .f32⟩
  | .hbm, ⟨23, _⟩ => ⟨S256x64x64, .f32⟩
  | .hbm, ⟨24, _⟩ => ⟨S256x64x64, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x4096, .f32⟩
  | .local _ .vmem, ⟨5, _⟩ => ⟨S1x256x4096, .f32⟩
  | .local _ .vmem, ⟨6, _⟩ => ⟨S256x512, .bf16⟩
  | .local _ .vmem, ⟨7, _⟩ => ⟨S256x512, .bf16⟩
  | .local _ .vmem, ⟨8, _⟩ => ⟨S256x4096, .bf16⟩
  | .local _ .vmem, ⟨9, _⟩ => ⟨S1x1x256, .f32⟩
  | .local _ .vmem, ⟨10, _⟩ => ⟨S1x1x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S4x256x256, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![16, 4], ![false, false]⟩

def k0_off1 (i : grid0.Coords) : Fin 3 → Nat :=
  let arg1 : BitVec 32 := BitVec.ofNat 32 (i 1).val
  let v24 : Index := Scalar.indexCast arg1
  let c0_19 : Index := 0#32
  let c0_20 : Index := 0#32
  ![v24.toNat, 0, 0]
def k0_cond1 (i : grid0.Coords) : BitVec 1 :=
  let arg1 : BitVec 32 := BitVec.ofNat 32 (i 1).val
  let c3_i32 : BitVec 32 := 3#32
  let v28 : BitVec 1 := Scalar.cmpi .eq arg1 c3_i32
  let v29 : BitVec 32 := Scalar.extui v28
  let c0_i32 : BitVec 32 := 0#32
  let v30 : BitVec 1 := Scalar.cmpi .ne v29 c0_i32
  v30

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S256x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

class Facts₀ : Prop where
  shapeCasts_S4x64x64x512_S4x4096x512 : S4x64x64x512.ShapeCasts S4x4096x512
  shapeCasts_S4x64x64x64x64_S4x4096x4096 : S4x64x64x64x64.ShapeCasts S4x4096x4096
  shapeCasts_S256x64x64_S256x4096 : S256x64x64.ShapeCasts S256x4096
  shapeCasts_S4x64x64_S4x1x4096 : S4x64x64.ShapeCasts S4x1x4096
  bitsLt_bf16_f32 : FTy.bits .bf16 < FTy.bits .f32
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  broadcasts_S1x256_S256x256 : S1x256.Broadcasts S256x256
  h_S1x256x256 : 0 < S1x256x256.numel
  shapeCasts_S1x256x256_S256x256 : S1x256x256.ShapeCasts S256x256
  shapeCasts_S256x256_S1x256x256 : S256x256.ShapeCasts S1x256x256
  inb_S4x256x256_S1x256x256_0_0_0 : ∀ a, (![0, 0, 0] : Fin 3 → Nat) a + S1x256x256.size a ≤ S4x256x256.size a
  inb_S4x256x256_S1x256x256_1_0_0 : ∀ a, (![1, 0, 0] : Fin 3 → Nat) a + S1x256x256.size a ≤ S4x256x256.size a
  inb_S4x256x256_S1x256x256_2_0_0 : ∀ a, (![2, 0, 0] : Fin 3 → Nat) a + S1x256x256.size a ≤ S4x256x256.size a
  inb_S4x256x256_S1x256x256_3_0_0 : ∀ a, (![3, 0, 0] : Fin 3 → Nat) a + S1x256x256.size a ≤ S4x256x256.size a
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256x4096_S256x64x64 : S256x4096.ShapeCasts S256x64x64
  dot_S256x512_S256x512_S256x256_1_1_0_0_n_n_wf : DotDims.WF S256x512 S256x512 S256x256 [1] [1] [0] [0] [] []
  dot_S256x4096_S256x4096_S256x256_1_1_0_0_n_n_wf : DotDims.WF S256x4096 S256x4096 S256x256 [1] [1] [0] [0] [] []
  hrank0 : 0 < grid0.rank
  k0_off1_inb : ∀ i : grid0.Coords, ∀ a, (k0_off1 i) a + S1x256x256.size a ≤ S4x256x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S4x4096x512.size a
  hwx0_0 : ∀ i : grid0.Coords, EltTy.bits .f32 = 32 ∨ (Rect.block (s := S4x4096x512) S1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x512.size a ≤ S4x4096x512.size a
  hwx0_1 : ∀ i : grid0.Coords, EltTy.bits .f32 = 32 ∨ (Rect.block (s := S4x4096x512) S1x256x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x4096.size a ≤ S4x4096x4096.size a
  hwx0_2 : ∀ i : grid0.Coords, EltTy.bits .f32 = 32 ∨ (Rect.block (s := S4x4096x4096) S1x256x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x512.size a ≤ S256x512.size a
  hwx0_4 : ∀ i : grid0.Coords, EltTy.bits .bf16 = 32 ∨ (Rect.block (s := S256x512) S256x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x4096.size a ≤ S256x4096.size a
  hwx0_5 : ∀ i : grid0.Coords, EltTy.bits .bf16 = 32 ∨ (Rect.block (s := S256x4096) S256x4096.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x256.size a ≤ S4x1x4096.size a
  hwx0_6 : ∀ i : grid0.Coords, EltTy.bits .f32 = 32 ∨ (Rect.block (s := S4x1x4096) S1x1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x4096.size a
  hwx0_7 : ∀ i : grid0.Coords, EltTy.bits .f32 = 32 ∨ (Rect.block (s := S256x4096) S256x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x4096.size a
  hwx0_8 : ∀ i : grid0.Coords, EltTy.bits .f32 = 32 ∨ (Rect.block (s := S256x4096) S256x256.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x256.size a ≤ S256x4096.size a
  hwx0_9 : ∀ i : grid0.Coords, EltTy.bits .f32 = 32 ∨ (Rect.block (s := S256x4096) S256x256.size (cc0_transform_9 i) (hinb0_9 i)).WholeWords (EltTy.packing .f32)

variable [Facts₀]

def dot_S256x512_S256x512_S256x256_1_1_0_0_n_n : DotDims S256x512 S256x512 S256x256 where
  lhsContracting := [1]
  rhsContracting := [1]
  lhsNonContracting := [0]
  rhsNonContracting := [0]
  lhsBatch := []
  rhsBatch := []
  wf := dot_S256x512_S256x512_S256x256_1_1_0_0_n_n_wf
def dot_S256x4096_S256x4096_S256x256_1_1_0_0_n_n : DotDims S256x4096 S256x4096 S256x256 where
  lhsContracting := [1]
  rhsContracting := [1]
  lhsNonContracting := [0]
  rhsNonContracting := [0]
  lhsBatch := []
  rhsBatch := []
  wf := dot_S256x4096_S256x4096_S256x256_1_1_0_0_n_n_wf

abbrev win0_0 : Pipeline.Window sig grid0 :=
  Pipeline.Window.ofSpec (Memref.whole main_v1) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S256x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S256x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v4) S256x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11_0) S256x256.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v11_1) S256x256.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev idle0 : Fin 10 → grid0.Coords → Bool := fun | 0 => fun _ => false | 1 => fun _ => false | 2 => fun _ => false | 3 => fun _ => false | 4 => fun _ => false | 5 => fun _ => false | 6 => fun _ => false | 7 => fun _ => false | 8 => fun i => !(k0_cond1 i == 1#1) | 9 => fun i => !(k0_cond1 i == 1#1) | ⟨_ + 10, h⟩ => absurd h (Nat.not_lt.2 (Nat.le_add_left _ _))

class Facts : Prop extends Facts₀ where

variable [Facts]
-- ==== ReferenceIdeal.lean ====
abbrev S256x512 : Shape := ⟨2, ![256, 512]⟩
abbrev S256x64x64 : Shape := ⟨3, ![256, 64, 64]⟩
abbrev S4x64x64x512 : Shape := ⟨4, ![4, 64, 64, 512]⟩
abbrev S4x64x64x64x64 : Shape := ⟨5, ![4, 64, 64, 64, 64]⟩
abbrev S4x64x64 : Shape := ⟨3, ![4, 64, 64]⟩
abbrev S256x4x64x64 : Shape := ⟨4, ![256, 4, 64, 64]⟩
abbrev S4x256x64x64 : Shape := ⟨4, ![4, 256, 64, 64]⟩
abbrev S4x4096x4096 : Shape := ⟨3, ![4, 4096, 4096]⟩
abbrev S256x4096 : Shape := ⟨2, ![256, 4096]⟩
abbrev S256x4x4096 : Shape := ⟨3, ![256, 4, 4096]⟩
abbrev S4x256x4096 : Shape := ⟨3, ![4, 256, 4096]⟩
abbrev S4x1x64x64 : Shape := ⟨4, ![4, 1, 64, 64]⟩
abbrev S1x256x64x64 : Shape := ⟨4, ![1, 256, 64, 64]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x64x64, .f32⟩
  | .hbm, ⟨2, _⟩ => ⟨S256x512, .f32⟩
  | .hbm, ⟨3, _⟩ => ⟨S256x64x64, .f32⟩
  | .hbm, ⟨4, _⟩ => ⟨S4x64x64x512, .f32⟩
  | .hbm, ⟨5, _⟩ => ⟨S4x64x64x64x64, .f32⟩
  | .hbm, ⟨6, _⟩ => ⟨S4x64x64x512, .f32⟩
  | .hbm, ⟨7, _⟩ => ⟨S4x64x64, .f32⟩
  | .hbm, ⟨8, _⟩ => ⟨S4x64x64, .f32⟩
  | .hbm, ⟨9, _⟩ => ⟨S4x64x64, .f32⟩
  | .hbm, ⟨10, _⟩ => ⟨S256x4x64x64, .f32⟩
  | .hbm, ⟨11, _⟩ => ⟨S4x256x64x64, .f32⟩
  | .hbm, ⟨12, _⟩ => ⟨S256x4x64x64, .f32⟩
  | .hbm, ⟨13, _⟩ => ⟨S4x256x64x64, .f32⟩
  | .hbm, ⟨14, _⟩ => ⟨S4x4096x4096, .f32⟩
  | .hbm, ⟨15, _⟩ => ⟨S256x4096, .f32⟩
  | .hbm, ⟨16, _⟩ => ⟨S256x4x4096, .f32⟩
  | .hbm, ⟨17, _⟩ => ⟨S4x256x4096, .f32⟩
  | .hbm, ⟨18, _⟩ => ⟨S4x256x64x64, .f32⟩
  | .hbm, ⟨19, _⟩ => ⟨S4x256x64x64, .f32⟩
  | .hbm, ⟨20, _⟩ => ⟨S4x256x64x64, .f32⟩
  | .hbm, ⟨21, _⟩ => ⟨S4x64x64, .f32⟩
  | .hbm, ⟨22, _⟩ => ⟨S4x64x64, .f32⟩
  | .hbm, ⟨23, _⟩ => ⟨S4x1x64x64, .f32⟩
  | .hbm, ⟨24, _⟩ => ⟨S4x256x64x64, .f32⟩
  | .hbm, ⟨25, _⟩ => ⟨S4x256x64x64, .f32⟩
  | .hbm, ⟨26, _⟩ => ⟨S1x256x64x64, .f32⟩
  | .hbm, ⟨27, _⟩ => ⟨S256x64x64, .f32⟩
  | .hbm, ⟨28, _⟩ => ⟨S256x64x64, .f32⟩
  | .hbm, ⟨29, _⟩ => ⟨S256x64x64, .f32⟩
  | .hbm, ⟨30, _⟩ => ⟨S_, .f32⟩
  | .hbm, ⟨31, _⟩ => ⟨S256x64x64, .f32⟩
  | .hbm, ⟨32, _⟩ => ⟨S256x64x64, .f32⟩
  | .hbm, ⟨33, _⟩ => ⟨S_, .f32⟩
  | .hbm, ⟨34, _⟩ => ⟨S256x64x64, .f32⟩
  | .hbm, ⟨35, _⟩ => ⟨S256x64x64, .f32⟩
  | .hbm, ⟨36, _⟩ => ⟨S1x256x64x64, .f32⟩
  | .hbm, ⟨37, _⟩ => ⟨S256x64x64, .f32⟩
  | .hbm, ⟨38, _⟩ => ⟨S256x64x64, .f32⟩
  | .hbm, ⟨39, _⟩ => ⟨S256x64x64, .f32⟩
  | .hbm, ⟨40, _⟩ => ⟨S_, .f32⟩
  | .hbm, ⟨41, _⟩ => ⟨S256x64x64, .f32⟩
  | .hbm, ⟨42, _⟩ => ⟨S256x64x64, .f32⟩
  | .hbm, ⟨43, _⟩ => ⟨S_, .f32⟩
  | .hbm, ⟨44, _⟩ => ⟨S256x64x64, .f32⟩
  | .hbm, ⟨45, _⟩ => ⟨S256x64x64, .f32⟩
  | .hbm, ⟨46, _⟩ => ⟨S1x256x64x64, .f32⟩
  | .hbm, ⟨47, _⟩ => ⟨S256x64x64, .f32⟩
  | .hbm, ⟨48, _⟩ => ⟨S256x64x64, .f32⟩
  | .hbm, ⟨49, _⟩ => ⟨S256x64x64, .f32⟩
  | .hbm, ⟨50, _⟩ => ⟨S_, .f32⟩
  | .hbm, ⟨51, _⟩ => ⟨S256x64x64, .f32⟩
  | .hbm, ⟨52, _⟩ => ⟨S256x64x64, .f32⟩
  | .hbm, ⟨53, _⟩ => ⟨S_, .f32⟩
  | .hbm, ⟨54, _⟩ => ⟨S256x64x64, .f32⟩
  | .hbm, ⟨55, _⟩ => ⟨S256x64x64, .f32⟩
  | .hbm, ⟨56, _⟩ => ⟨S1x256x64x64, .f32⟩
  | .hbm, ⟨57, _⟩ => ⟨S256x64x64, .f32⟩
  | .hbm, ⟨58, _⟩ => ⟨S256x64x64, .f32⟩
  | .hbm, ⟨59, _⟩ => ⟨S256x64x64, .f32⟩
  | .hbm, ⟨60, _⟩ => ⟨S256x64x64, .f32⟩
  | .hbm, ⟨61, _⟩ => ⟨S256x64x64, .f32⟩
  | .hbm, ⟨62, _⟩ => ⟨S256x64x64, .f32⟩
  | .hbm, ⟨63, _⟩ => ⟨S256x64x64, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst : Ref sig .tc := ⟨.hbm, 30, rfl⟩
abbrev main_v20 : Ref sig .tc := ⟨.hbm, 31, rfl⟩
abbrev main_v21 : Ref sig .tc := ⟨.hbm, 32, rfl⟩
abbrev main_cst_0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_1 : Ref sig .tc := ⟨.hbm, 40, rfl⟩
abbrev main_v28 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_3 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩

abbrev nD : Nat := 1
abbrev τ : Topo := Topo.v7x

variable {F : FTy → Type} [FloatOps F]

class Facts₀ : Prop where
  transposes_S256x4x64x64_S4x256x64x64_1_0_2_3 : S256x4x64x64.Transposes [1, 0, 2, 3] S4x256x64x64
  shapeCasts_S4x64x64x64x64_S4x4096x4096 : S4x64x64x64x64.ShapeCasts S4x4096x4096
  shapeCasts_S256x64x64_S256x4096 : S256x64x64.ShapeCasts S256x4096
  transposes_S256x4x4096_S4x256x4096_1_0_2 : S256x4x4096.Transposes [1, 0, 2] S4x256x4096
  shapeCasts_S4x256x4096_S4x256x64x64 : S4x256x4096.ShapeCasts S4x256x64x64
  bcast_S4x64x64_S4x1x64x64_0_2_3 : S4x64x64.BroadcastsInDim S4x1x64x64 (![0, 2, 3] : Fin 3 → Fin S4x1x64x64.rank)
  bcast_S4x1x64x64_S4x256x64x64_0_1_2_3 : S4x1x64x64.BroadcastsInDim S4x256x64x64 (![0, 1, 2, 3] : Fin 4 → Fin S4x256x64x64.rank)
  slices_S4x256x64x64_S1x256x64x64_0_0_0_0 : S4x256x64x64.Slices ![0, 0, 0, 0] S1x256x64x64
  shapeCasts_S1x256x64x64_S256x64x64 : S1x256x64x64.ShapeCasts S256x64x64
  bcast_S_S256x64x64 : S_.BroadcastsInDim S256x64x64 (![] : Fin 0 → Fin S256x64x64.rank)
  slices_S4x256x64x64_S1x256x64x64_1_0_0_0 : S4x256x64x64.Slices ![1, 0, 0, 0] S1x256x64x64
  slices_S4x256x64x64_S1x256x64x64_2_0_0_0 : S4x256x64x64.Slices ![2, 0, 0, 0] S1x256x64x64
  slices_S4x256x64x64_S1x256x64x64_3_0_0_0 : S4x256x64x64.Slices ![3, 0, 0, 0] S1x256x64x64
  dot_S256x512_S4x64x64x512_S256x4x64x64_1_3_0_012_n_n_wf : DotDims.WF S256x512 S4x64x64x512 S256x4x64x64 [1] [3] [0] [0, 1, 2] [] []
  dot_S256x4096_S4x4096x4096_S256x4x4096_1_2_0_01_n_n_wf : DotDims.WF S256x4096 S4x4096x4096 S256x4x4096 [1] [2] [0] [0, 1] [] []

variable [Facts₀]

def dot_S256x512_S4x64x64x512_S256x4x64x64_1_3_0_012_n_n : DotDims S256x512 S4x64x64x512 S256x4x64x64 where
  lhsContracting := [1]
  rhsContracting := [3]
  lhsNonContracting := [0]
  rhsNonContracting := [0, 1, 2]
  lhsBatch := []
  rhsBatch := []
  wf := dot_S256x512_S4x64x64x512_S256x4x64x64_1_3_0_012_n_n_wf
def dot_S256x4096_S4x4096x4096_S256x4x4096_1_2_0_01_n_n : DotDims S256x4096 S4x4096x4096 S256x4x4096 where
  lhsContracting := [1]
  rhsContracting := [2]
  lhsNonContracting := [0]
  rhsNonContracting := [0, 1]
  lhsBatch := []
  rhsBatch := []
  wf := dot_S256x4096_S4x4096x4096_S256x4x4096_1_2_0_01_n_n_wf

class Facts : Prop extends Facts₀ where

variable [Facts]
-- ==== Proof.BitsPoints.lean ====
import proofs.«164890_j54468775248255_2_alg».proof.Proof.Gen.Kernel.Frame
import proofs.«164890_j54468775248255_2_alg».proof.Proof.Gen.Kernel.Skeleton

set_option maxRecDepth 16384

/-
  The 64 grid points are 16 column tiles × 4 gates, the gate index running fastest: point t works on gate t % 4 of
  tile t / 4.  At every point the body stores its gate's pre-activation into slab t % 4 of the scratch; only at the
  last gate of a tile (t % 4 = 3) does it read the four slabs back and store the two outputs, whose windows are
  written back exactly there and left untouched at the other points.  This file decides those facts over the grid
  and names the staging buffers the body is called with.
-/
noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: taken at the last gate of a tile. -/
abbrev lastGate (i : grid0.Coords) : Prop := k0_cond1 i = 1#1

theorem lastGate_iff : ∀ t : Fin cfg0.N, lastGate (grid0.coords t) ↔ t.val % 4 = 3 :=
  (by decide +kernel : ∀ t : Fin grid0.N, lastGate (grid0.coords t) ↔ t.val % 4 = 3)

/-- The slab of the scratch the body stores into at point `t`: the gate's. -/
theorem slab_off : ∀ t : Fin cfg0.N, k0_off1 (grid0.coords t) = ![t.val % 4, 0, 0] :=
  (by decide +kernel : ∀ t : Fin grid0.N, k0_off1 (grid0.coords t) = ![t.val % 4, 0, 0])

theorem N_eq : cfg0.N = 64 := N_0

/-- The inputs are staged at every point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
/-- The outputs are untouched, and not written back, except at a tile's last gate. -/
theorem idle_8 : ∀ t : Fin cfg0.N, ¬lastGate (grid0.coords t) → cfg0.idle 8 (grid0.coords t) = true := by decide +kernel
theorem noFlush_8 : ∀ t : Fin cfg0.N, ¬lastGate (grid0.coords t) → (cfg0.win 8).flush t = false := by decide +kernel
theorem live_8 : ∀ t : Fin cfg0.N, lastGate (grid0.coords t) → cfg0.idle 8 (grid0.coords t) = false := by decide +kernel
theorem idle_9 : ∀ t : Fin cfg0.N, ¬lastGate (grid0.coords t) → cfg0.idle 9 (grid0.coords t) = true := by decide +kernel
theorem noFlush_9 : ∀ t : Fin cfg0.N, ¬lastGate (grid0.coords t) → (cfg0.win 9).flush t = false := by decide +kernel
theorem live_9 : ∀ t : Fin cfg0.N, lastGate (grid0.coords t) → cfg0.idle 9 (grid0.coords t) = false := by decide +kernel

/-- Each window's current staging buffer at point `t`, as the pipeline passes it to the body. -/
abbrev ms0_0 (t : Fin cfg0.N) : Memref sig .tc .vmem S1x256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x256 .f32 := win0_9.stage (cfg0.slots t 9)
abbrev hs0_9 (t : Fin cfg0.N) : (ms0_9 t).IsWhole := hstage0_9 ((cfg0.slots t 9).cast nbuf0_9)
/-- The scratch: four slabs, one per gate, of the tile's pre-activations. -/
abbrev scM : Memref sig .tc .vmem S4x256x256 .f32 := Memref.whole cc0_scratch0
abbrev hscM : (scM).IsWhole := Memref.isWhole_whole _

/-- What the region holds besides the windows: the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Body

end
-- ==== Proof.BitsRunGate.lean ====
import proofs.«164890_j54468775248255_2_alg».proof.Proof.BitsPoints

set_option maxRecDepth 16384

/-
  The body at the last gate of a tile, run symbolically on arbitrary whole staging buffers: it stores the gate's
  pre-activation into its slab of the scratch, reads the four slabs back, and stores the new cell state and the new
  matrix state whole into the two output buffers.  The stores each buffer ends with are found by the run and are
  the witness of this definition.
-/
noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the cell-state buffer, the matrix-state buffer and the scratch at a tile's last
    gate, with the proof that from the inputs at their contents and the scratch at `xs0` it runs to them. -/
noncomputable def runGate (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x4096 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x4096 .bf16) (harg7 : arg7.IsWhole) (arg8 : Memref sig .tc .vmem S1x1x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S4x256x256 .f32) (harg12 : arg12.IsWhole) (hc0 : lastGate i)
    (x0 : Vec F S1x256x512 .f32) (x1 : Vec F S1x256x512 .f32) (x2 : Vec F S1x256x4096 .f32) (x3 : Vec F S256x512 .bf16) (x4 : Vec F S256x512 .bf16) (x5 : Vec F S256x4096 .bf16) (x6 : Vec F S1x1x256 .f32) (x7 : Vec F S256x256 .f32) (xs0 : Vec F S4x256x256 .f32) :
    Σ' (L8 : List (View.Piece (Elt F) S256x256 .f32)) (L9 : List (View.Piece (Elt F) S256x256 .f32)), { LS0 : List (View.Piece (Elt F) S4x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread xs0) LS0)) -∗ K ⟨⟩))
          ⊢ wp frame (wpE (defs₀ (F := F)) Variants.none c none) E (cc0__gate_lstm_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__gate_lstm_kernel_eq_skeleton]; unfold cc0__gate_lstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexact HS0

end Cert.Kernel.Body

end
-- ==== Proof.BitsRunStore.lean ====
import proofs.«164890_j54468775248255_2_alg».proof.Proof.BitsPoints

set_option maxRecDepth 16384

/-
  The body at a gate that is not a tile's last, run symbolically on arbitrary whole staging buffers: it stores the
  gate's pre-activation into its slab of the scratch and touches neither output buffer.
-/
noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the scratch at a gate that is not the last, with the proof that from the inputs at
    their contents, the output buffers at any contents (handed back untouched) and the scratch at `xs0` it runs to
    them. -/
noncomputable def runStore (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x4096 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x4096 .bf16) (harg7 : arg7.IsWhole) (arg8 : Memref sig .tc .vmem S1x1x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S4x256x256 .f32) (harg12 : arg12.IsWhole) (hc0 : ¬lastGate i)
    (x0 : Vec F S1x256x512 .f32) (x1 : Vec F S1x256x512 .f32) (x2 : Vec F S1x256x4096 .f32) (x3 : Vec F S256x512 .bf16) (x4 : Vec F S256x512 .bf16) (x5 : Vec F S256x4096 .bf16) (x6 : Vec F S1x1x256 .f32) (x7 : Vec F S256x256 .f32) (xs0 : Vec F S4x256x256 .f32) :
    { LS0 : List (View.Piece (Elt F) S4x256x256 .f32) //
      ∀ (xi8 xi9 : Vec F S256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (arg12.view.loc (c : Thread nD τ) ↦[arg12.view.set]{fullShare} arg12.view.writes (Elt F) (harg12.unread xs0) LS0)) -∗ K ⟨⟩))
          ⊢ wp frame (wpE (defs₀ (F := F)) Variants.none c none) E (cc0__gate_lstm_kernel i arg2 harg2 arg3 harg3 arg4 harg4 arg5 harg5 arg6 harg6 arg7 harg7 arg8 harg8 arg9 harg9 arg10 harg10 arg11 harg11 arg12 harg12) K } := by
  refine ⟨?_, fun xi8 xi9 E K => ?run⟩
  case run =>
    simp only [cc0__gate_lstm_kernel_eq_skeleton]; unfold cc0__gate_lstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexact HS0

end Cert.Kernel.Body

end
-- ==== Proof.BitsPieces.lean ====
import proofs.«164890_j54468775248255_2_alg».proof.Proof.BitsRunGate
import proofs.«164890_j54468775248255_2_alg».proof.Proof.BitsRunStore
import Idealize.ShloMosaic.Lib.WritesUnit
import Idealize.ShloMosaic.Lib.Pipeline.Value

set_option maxRecDepth 16384

/-
  The stores the two runs of the body found, written out.  At every point the scratch gets ONE store: the gate's
  pre-activation of the point's input blocks, into the gate's slab.  At a tile's last gate each output buffer gets
  one store of its whole block: the cell (matrix) state computed from the four slabs as they stand after that
  store.  Reading a slab of the scratch after the store gives the stored block if it is the gate's slab and what was
  there before otherwise.
-/
noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := funext fun a => by fin_cases a <;> rfl
theorem zero3 : (![0, 0, 0] : Fin 3 → Nat) = fun _ => 0 := funext fun a => by fin_cases a <;> rfl

/-- The four slabs of the scratch, one per gate. -/
abbrev slab0 : Rect S4x256x256 := Rect.unit (s := S4x256x256) ![0, 0, 0] S1x256x256.size inb_S4x256x256_S1x256x256_0_0_0
abbrev slab1 : Rect S4x256x256 := Rect.unit (s := S4x256x256) ![1, 0, 0] S1x256x256.size inb_S4x256x256_S1x256x256_1_0_0
abbrev slab2 : Rect S4x256x256 := Rect.unit (s := S4x256x256) ![2, 0, 0] S1x256x256.size inb_S4x256x256_S1x256x256_2_0_0
abbrev slab3 : Rect S4x256x256 := Rect.unit (s := S4x256x256) ![3, 0, 0] S1x256x256.size inb_S4x256x256_S1x256x256_3_0_0

/-- The one store into the scratch: the pre-activation of the input blocks, at the slab the grid point names. -/
abbrev slabPiece (i : grid0.Coords) (x0 : Vec F S1x256x512 .f32) (x1 : Vec F S1x256x512 .f32) (x2 : Vec F S1x256x4096 .f32) (x3 : Vec F S256x512 .bf16) (x4 : Vec F S256x512 .bf16) (x5 : Vec F S256x4096 .bf16) (x6 : Vec F S1x1x256 .f32) : View.Piece (Elt F) S4x256x256 .f32 :=
  ⟨Rect.unit (s := S4x256x256) (k0_off1 i) S1x256x256.size (k0_off1_inb i), k0_pay1 x0 x1 x2 x3 x4 x5 x6⟩

section Found

variable (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x4096 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x4096 .bf16) (harg7 : arg7.IsWhole) (arg8 : Memref sig .tc .vmem S1x1x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S4x256x256 .f32) (harg12 : arg12.IsWhole)
  (x0 : Vec F S1x256x512 .f32) (x1 : Vec F S1x256x512 .f32) (x2 : Vec F S1x256x4096 .f32) (x3 : Vec F S256x512 .bf16) (x4 : Vec F S256x512 .bf16) (x5 : Vec F S256x4096 .bf16) (x6 : Vec F S1x1x256 .f32) (x7 : Vec F S256x256 .f32) (xs0 : Vec F S4x256x256 .f32)

/-- The scratch's contents after the point's store, read through the body's memref. -/
abbrev scratchAfter : Vec F S4x256x256 .f32 :=
  arg12.view.read (Elt F) (arg12.view.writes (Elt F) (harg12.unread xs0) [slabPiece i x0 x1 x2 x3 x4 x5 x6])

theorem store_scratch (hc0 : ¬lastGate i) :
    (runStore c i arg2 harg2 arg3 harg3 arg4 harg4 arg5 harg5 arg6 harg6 arg7 harg7 arg8 harg8 arg9 harg9 arg10 harg10 arg11 harg11 arg12 harg12 hc0 x0 x1 x2 x3 x4 x5 x6 x7 xs0).1 = [slabPiece i x0 x1 x2 x3 x4 x5 x6] := by
  unfold runStore
  dsimp only
  sl_unfold_words
  simp only [View.readAt_eq_ld, harg2.read_unread, harg3.read_unread, harg4.read_unread, harg5.read_unread, harg6.read_unread, harg7.read_unread, harg8.read_unread, View.ld_unit_zero (S := S1x256x512) zero3, View.ld_unit_zero (S := S1x256x4096) zero3, View.ld_unit_zero (S := S256x512) zero2, View.ld_unit_zero (S := S256x4096) zero2, View.ld_unit_zero (S := S1x1x256) zero3]
  rfl

theorem gate_scratch (hc0 : lastGate i) :
    (runGate c i arg2 harg2 arg3 harg3 arg4 harg4 arg5 harg5 arg6 harg6 arg7 harg7 arg8 harg8 arg9 harg9 arg10 harg10 arg11 harg11 arg12 harg12 hc0 x0 x1 x2 x3 x4 x5 x6 x7 xs0).2.2.1 = [slabPiece i x0 x1 x2 x3 x4 x5 x6] := by
  unfold runGate
  dsimp only
  sl_unfold_words
  simp only [View.readAt_eq_ld, harg2.read_unread, harg3.read_unread, harg4.read_unread, harg5.read_unread, harg6.read_unread, harg7.read_unread, harg8.read_unread, View.ld_unit_zero (S := S1x256x512) zero3, View.ld_unit_zero (S := S1x256x4096) zero3, View.ld_unit_zero (S := S256x512) zero2, View.ld_unit_zero (S := S256x4096) zero2, View.ld_unit_zero (S := S1x1x256) zero3]
  rfl

theorem gate_cell (hc0 : lastGate i) :
    (runGate c i arg2 harg2 arg3 harg3 arg4 harg4 arg5 harg5 arg6 harg6 arg7 harg7 arg8 harg8 arg9 harg9 arg10 harg10 arg11 harg11 arg12 harg12 hc0 x0 x1 x2 x3 x4 x5 x6 x7 xs0).1
      = [⟨Rect.unit (s := S256x256) ![0, 0] S256x256.size inb_S256x256_S256x256_0_0,
          k0_pay2 (View.ld (scratchAfter i arg12 harg12 x0 x1 x2 x3 x4 x5 x6 xs0) slab0) (View.ld (scratchAfter i arg12 harg12 x0 x1 x2 x3 x4 x5 x6 xs0) slab1)
            (View.ld (scratchAfter i arg12 harg12 x0 x1 x2 x3 x4 x5 x6 xs0) slab3) x7⟩] := by
  unfold runGate
  dsimp only
  sl_unfold_words
  simp only [View.readAt_eq_ld, harg2.read_unread, harg3.read_unread, harg4.read_unread, harg5.read_unread, harg6.read_unread, harg7.read_unread, harg8.read_unread, harg9.read_unread, View.ld_unit_zero (S := S1x256x512) zero3, View.ld_unit_zero (S := S1x256x4096) zero3, View.ld_unit_zero (S := S256x512) zero2, View.ld_unit_zero (S := S256x4096) zero2, View.ld_unit_zero (S := S1x1x256) zero3, View.ld_unit_zero (S := S256x256) zero2]
  rfl

theorem gate_state (hc0 : lastGate i) :
    (runGate c i arg2 harg2 arg3 harg3 arg4 harg4 arg5 harg5 arg6 harg6 arg7 harg7 arg8 harg8 arg9 harg9 arg10 harg10 arg11 harg11 arg12 harg12 hc0 x0 x1 x2 x3 x4 x5 x6 x7 xs0).2.1
      = [⟨Rect.unit (s := S256x256) ![0, 0] S256x256.size inb_S256x256_S256x256_0_0,
          k0_pay3 (View.ld (scratchAfter i arg12 harg12 x0 x1 x2 x3 x4 x5 x6 xs0) slab0) (View.ld (scratchAfter i arg12 harg12 x0 x1 x2 x3 x4 x5 x6 xs0) slab1)
            (View.ld (scratchAfter i arg12 harg12 x0 x1 x2 x3 x4 x5 x6 xs0) slab2) (View.ld (scratchAfter i arg12 harg12 x0 x1 x2 x3 x4 x5 x6 xs0) slab3) x7⟩] := by
  unfold runGate
  dsimp only
  sl_unfold_words
  simp only [View.readAt_eq_ld, harg2.read_unread, harg3.read_unread, harg4.read_unread, harg5.read_unread, harg6.read_unread, harg7.read_unread, harg8.read_unread, harg9.read_unread, View.ld_unit_zero (S := S1x256x512) zero3, View.ld_unit_zero (S := S1x256x4096) zero3, View.ld_unit_zero (S := S256x512) zero2, View.ld_unit_zero (S := S256x4096) zero2, View.ld_unit_zero (S := S1x1x256) zero3, View.ld_unit_zero (S := S256x256) zero2]
  rfl

end Found

/-! ## Reading a slab after one store into a slab -/

section Slab

variable {κ : Kind} {sp : Space} (v : View sig κ sp S4x256x256 .f32) (f : v.ty.Contents (Elt F))
  (off : Fin 3 → ℕ) (inb : ∀ a, off a + S1x256x256.size a ≤ S4x256x256.size a)
  (w : (Rect.unit (s := S4x256x256) off S1x256x256.size inb).shape.Idx → Elt F .f32)

/-- The slab just stored reads the stored block. -/
theorem slab_hit (g : ℕ) (inbg : ∀ a, (![g, 0, 0] : Fin 3 → ℕ) a + S1x256x256.size a ≤ S4x256x256.size a) (heq : off = ![g, 0, 0]) :
    View.ld (v.read (Elt F) (v.writes (Elt F) f [(⟨Rect.unit (s := S4x256x256) off S1x256x256.size inb, w⟩ : View.Piece (Elt F) S4x256x256 .f32)]))
      (Rect.unit (s := S4x256x256) ![g, 0, 0] S1x256x256.size inbg) = w := by
  funext x
  exact View.read_writes_cons_unit_of_mem v f inb w [] _ x heq (fun a => by
    show (![g, 0, 0] : Fin 3 → ℕ) a + 1 * (x a).val = _
    rw [Nat.one_mul])

/-- Another slab reads what it held before. -/
theorem slab_miss (g g' : ℕ) (hne : g' ≠ g) (inbg : ∀ a, (![g', 0, 0] : Fin 3 → ℕ) a + S1x256x256.size a ≤ S4x256x256.size a) (heq : off = ![g, 0, 0]) :
    View.ld (v.read (Elt F) (v.writes (Elt F) f [(⟨Rect.unit (s := S4x256x256) off S1x256x256.size inb, w⟩ : View.Piece (Elt F) S4x256x256 .f32)]))
      (Rect.unit (s := S4x256x256) ![g', 0, 0] S1x256x256.size inbg)
      = View.ld (v.read (Elt F) f) (Rect.unit (s := S4x256x256) ![g', 0, 0] S1x256x256.size inbg) := by
  funext x
  refine (View.read_writes_cons_unit_of_not_mem v f inb w [] _ heq (0 : Fin 3) ?_).trans rfl
  have hx : (x (0 : Fin 3)).val = 0 := by have := (x (0 : Fin 3)).isLt; change _ < 1 at this; omega
  show (g' + 1 * (x (0 : Fin 3)).val < g) ∨ (g + 1 ≤ g' + 1 * (x (0 : Fin 3)).val)
  rw [hx]; omega

end Slab

end Cert.Kernel.Body

end
-- ==== Proof.BitsTile.lean ====
import proofs.«164890_j54468775248255_2_alg».proof.Proof.BitsPoints

set_option maxRecDepth 16384

/-
  What one column tile of the two results is, as a function of the blocks the pipeline stages: the pre-activation
  block of a grid point, the four points of a tile, and the tile's new cell state and new matrix state.
-/
noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The pre-activation block point `s` stores into its slab of the scratch: the three products of the point's
    activation and weight blocks, combined, plus the bias row. -/
def preAt (c : Dev nD) (s : Fin cfg0.N) : FVec F S1x256x256 .f32 :=
  k0_pay1 (iblk m c 0 s) (iblk m c 1 s) (iblk m c 2 s) (iblk m c 3 s) (iblk m c 4 s) (iblk m c 5 s) (iblk m c 6 s)

/-- Gate `g`'s point of the tile point `t` lies in. -/
def gp (t : Fin cfg0.N) (g : ℕ) (hg : g < 4) : Fin cfg0.N :=
  ⟨4 * (t.val / 4) + g, lt_of_lt_of_eq (b := 64) (by have := lt_of_lt_of_eq t.isLt N_eq; omega) N_eq.symm⟩

@[simp] theorem gp_val (t : Fin cfg0.N) (g : ℕ) (hg : g < 4) : (gp t g hg).val = 4 * (t.val / 4) + g := rfl

/-- The new cell state of the tile of `t`: forget gate times the old cell state plus input gate times candidate. -/
def cellAt (c : Dev nD) (t : Fin cfg0.N) : FVec F S256x256 .f32 :=
  k0_pay2 (preAt m c (gp t 0 (by omega))) (preAt m c (gp t 1 (by omega))) (preAt m c (gp t 3 (by omega))) (iblk m c 7 t)

/-- The new matrix state of the tile of `t`: output gate times the squashed new cell state. -/
def stateAt (c : Dev nD) (t : Fin cfg0.N) : FVec F S256x256 .f32 :=
  k0_pay3 (preAt m c (gp t 0 (by omega))) (preAt m c (gp t 1 (by omega))) (preAt m c (gp t 2 (by omega)))
    (preAt m c (gp t 3 (by omega))) (iblk m c 7 t)

end Cert.Kernel.Body

end
-- ==== Proof.BitsBody.lean ====
import proofs.«164890_j54468775248255_2_alg».proof.Proof.BitsPieces
import proofs.«164890_j54468775248255_2_alg».proof.Proof.BitsTile

set_option maxRecDepth 16384

/-
  The kernel's run over its 64 grid points.  Between points the region keeps, besides the staged windows, the scratch;
  the invariant before point t says that the slabs of the gates of t's tile already visited hold those gates'
  pre-activation blocks.  A point that is not a tile's last gate adds its slab; the last gate adds its slab, reads all
  four and leaves the tile's new cell state and new matrix state in the two output buffers, which the pipeline
  writes back exactly there.  From the body's two symbolic runs this gives the pipeline's obligation at every point,
  hence the run of the whole program with every output array named, and the frame.
-/
noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch between points -/

/-- Before point `n`: each gate of `n`'s tile already visited has left its pre-activation block in its slab. -/
def Filled (c : Dev nD) (n : ℕ) (d : Vec F S4x256x256 .f32) : Prop :=
  (∀ s : Fin cfg0.N, s.val / 4 = n / 4 → s.val < n → s.val % 4 = 0 → (View.ld d slab0 : S1x256x256.Idx → Elt F .f32) = preAt m c s)
  ∧ (∀ s : Fin cfg0.N, s.val / 4 = n / 4 → s.val < n → s.val % 4 = 1 → (View.ld d slab1 : S1x256x256.Idx → Elt F .f32) = preAt m c s)
  ∧ (∀ s : Fin cfg0.N, s.val / 4 = n / 4 → s.val < n → s.val % 4 = 2 → (View.ld d slab2 : S1x256x256.Idx → Elt F .f32) = preAt m c s)

theorem filled_zero (c : Dev nD) (d : Vec F S4x256x256 .f32) : Filled m c 0 d :=
  ⟨fun _ _ h _ => absurd h (Nat.not_lt_zero _), fun _ _ h _ => absurd h (Nat.not_lt_zero _), fun _ _ h _ => absurd h (Nat.not_lt_zero _)⟩

/-- The scratch after point `t`'s store, from its contents `d` before. -/
abbrev scratchAt (c : Dev nD) (t : Fin cfg0.N) (d : Vec F S4x256x256 .f32) : Vec F S4x256x256 .f32 :=
  scratchAfter (grid0.coords t) scM hscM (iblk m c 0 t) (iblk m c 1 t) (iblk m c 2 t) (iblk m c 3 t) (iblk m c 4 t) (iblk m c 5 t) (iblk m c 6 t) d

theorem scratchAt_hit (c : Dev nD) (t : Fin cfg0.N) (d : Vec F S4x256x256 .f32) (g : ℕ)
    (inbg : ∀ a, (![g, 0, 0] : Fin 3 → ℕ) a + S1x256x256.size a ≤ S4x256x256.size a) (hg : t.val % 4 = g) :
    (View.ld (scratchAt m c t d) (Rect.unit (s := S4x256x256) ![g, 0, 0] S1x256x256.size inbg) : S1x256x256.Idx → Elt F .f32) = preAt m c t :=
  slab_hit scM.view (hscM.unread d) _ _ _ g inbg ((slab_off t).trans (by rw [hg]))

theorem scratchAt_miss (c : Dev nD) (t : Fin cfg0.N) (d : Vec F S4x256x256 .f32) (g' : ℕ)
    (inbg : ∀ a, (![g', 0, 0] : Fin 3 → ℕ) a + S1x256x256.size a ≤ S4x256x256.size a) (hg : g' ≠ t.val % 4) :
    View.ld (scratchAt m c t d) (Rect.unit (s := S4x256x256) ![g', 0, 0] S1x256x256.size inbg)
      = View.ld d (Rect.unit (s := S4x256x256) ![g', 0, 0] S1x256x256.size inbg) := by
  refine (slab_miss scM.view (hscM.unread d) _ _ _ (t.val % 4) g' hg inbg (slab_off t)).trans ?_
  rw [hscM.read_unread]

/-- A point that is not its tile's last gate adds its slab. -/
theorem filled_store (c : Dev nD) (t : Fin cfg0.N) (h3 : ¬t.val % 4 = 3) (d : Vec F S4x256x256 .f32) (hd : Filled m c t.val d) :
    Filled m c (t.val + 1) (scratchAt m c t d) := by
  have hN : t.val < 64 := lt_of_lt_of_eq t.isLt N_eq
  refine ⟨fun s h1 h2 h4 => ?_, fun s h1 h2 h4 => ?_, fun s h1 h2 h4 => ?_⟩
  · by_cases hs : s = t
    · subst hs; exact scratchAt_hit m c s d 0 _ h4
    · have hlt : s.val < t.val := by have : s.val ≠ t.val := fun h => hs (Fin.ext h); omega
      rw [show View.ld (scratchAt m c t d) slab0 = View.ld d slab0 from scratchAt_miss m c t d 0 _ (by omega)]
      exact hd.1 s (by omega) hlt h4
  · by_cases hs : s = t
    · subst hs; exact scratchAt_hit m c s d 1 _ h4
    · have hlt : s.val < t.val := by have : s.val ≠ t.val := fun h => hs (Fin.ext h); omega
      rw [show View.ld (scratchAt m c t d) slab1 = View.ld d slab1 from scratchAt_miss m c t d 1 _ (by omega)]
      exact hd.2.1 s (by omega) hlt h4
  · by_cases hs : s = t
    · subst hs; exact scratchAt_hit m c s d 2 _ h4
    · have hlt : s.val < t.val := by have : s.val ≠ t.val := fun h => hs (Fin.ext h); omega
      rw [show View.ld (scratchAt m c t d) slab2 = View.ld d slab2 from scratchAt_miss m c t d 2 _ (by omega)]
      exact hd.2.2 s (by omega) hlt h4

/-- After a tile's last gate the next tile starts with nothing asked of the scratch. -/
theorem filled_gate (c : Dev nD) (t : Fin cfg0.N) (h3 : t.val % 4 = 3) (d : Vec F S4x256x256 .f32) : Filled m c (t.val + 1) d :=
  ⟨fun s h1 h2 _ => by exfalso; omega, fun s h1 h2 _ => by exfalso; omega, fun s h1 h2 _ => by exfalso; omega⟩

/-- At a tile's last gate the four slabs, after the point's store, are the tile's four pre-activation blocks. -/
theorem slabs_gate (c : Dev nD) (t : Fin cfg0.N) (h3 : t.val % 4 = 3) (d : Vec F S4x256x256 .f32) (hd : Filled m c t.val d) :
    (View.ld (scratchAt m c t d) slab0 : S1x256x256.Idx → Elt F .f32) = preAt m c (gp t 0 (by omega))
    ∧ (View.ld (scratchAt m c t d) slab1 : S1x256x256.Idx → Elt F .f32) = preAt m c (gp t 1 (by omega))
    ∧ (View.ld (scratchAt m c t d) slab2 : S1x256x256.Idx → Elt F .f32) = preAt m c (gp t 2 (by omega))
    ∧ (View.ld (scratchAt m c t d) slab3 : S1x256x256.Idx → Elt F .f32) = preAt m c (gp t 3 (by omega)) := by
  have hN : t.val < 64 := lt_of_lt_of_eq t.isLt N_eq
  refine ⟨?_, ?_, ?_, ?_⟩
  · rw [show View.ld (scratchAt m c t d) slab0 = View.ld d slab0 from scratchAt_miss m c t d 0 _ (by omega)]
    exact hd.1 (gp t 0 (by omega)) (by rw [gp_val]; omega) (by rw [gp_val]; omega) (by rw [gp_val]; omega)
  · rw [show View.ld (scratchAt m c t d) slab1 = View.ld d slab1 from scratchAt_miss m c t d 1 _ (by omega)]
    exact hd.2.1 (gp t 1 (by omega)) (by rw [gp_val]; omega) (by rw [gp_val]; omega) (by rw [gp_val]; omega)
  · rw [show View.ld (scratchAt m c t d) slab2 = View.ld d slab2 from scratchAt_miss m c t d 2 _ (by omega)]
    exact hd.2.2 (gp t 2 (by omega)) (by rw [gp_val]; omega) (by rw [gp_val]; omega) (by rw [gp_val]; omega)
  · have : gp t 3 (by omega) = t := Fin.ext (by rw [gp_val]; omega)
    rw [this]; exact scratchAt_hit m c t d 3 _ h3

/-! ## The pipeline's proof data -/

/-- The invariant before position `n`: the scratch at contents whose visited slabs are filled, and the generator
    register at some state. -/
def PhiT (c : Dev nD) (n : ℕ) : sProp 𝕄 :=
  iprop(iprop(∃ d, ⌜Filled m c n d⌝ ∗ owns (c : Thread nD τ) scM fullShare d) ∗ (∃ r, prngReg c r))

/-- The arrays as the region finds them; after the body at point `t` each input's buffer at its block and the two
    outputs' at the tile's new cell state and new matrix state; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => cellAt m c t
    | ⟨9, _⟩ => stateAt m c t
  Φ t := PhiT m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = cellAt m c t := by dsimp only [dats]
theorem after_9 (c : Dev nD) (t : Fin cfg0.N) : (dats m 0 c).after 9 t = stateAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = PhiT m c (t.val + 1) from rfl, show (dats m 0 c).Φ t.castSucc = PhiT m c t.val from rfl]
  unfold PhiT
  rw [show (dats m 0 c).leavesExact 0 t = owns (c : Thread nD τ) (ms0_0 t) fullShare ((dats m 0 c).after 0 t) from by
    unfold Dat.leavesExact; rw [live_0 t], after_0]
  rw [show (dats m 0 c).leavesExact 1 t = owns (c : Thread nD τ) (ms0_1 t) fullShare ((dats m 0 c).after 1 t) from by
    unfold Dat.leavesExact; rw [live_1 t], after_1]
  rw [show (dats m 0 c).leavesExact 2 t = owns (c : Thread nD τ) (ms0_2 t) fullShare ((dats m 0 c).after 2 t) from by
    unfold Dat.leavesExact; rw [live_2 t], after_2]
  rw [show (dats m 0 c).leavesExact 3 t = owns (c : Thread nD τ) (ms0_3 t) fullShare ((dats m 0 c).after 3 t) from by
    unfold Dat.leavesExact; rw [live_3 t], after_3]
  rw [show (dats m 0 c).leavesExact 4 t = owns (c : Thread nD τ) (ms0_4 t) fullShare ((dats m 0 c).after 4 t) from by
    unfold Dat.leavesExact; rw [live_4 t], after_4]
  rw [show (dats m 0 c).leavesExact 5 t = owns (c : Thread nD τ) (ms0_5 t) fullShare ((dats m 0 c).after 5 t) from by
    unfold Dat.leavesExact; rw [live_5 t], after_5]
  rw [show (dats m 0 c).leavesExact 6 t = owns (c : Thread nD τ) (ms0_6 t) fullShare ((dats m 0 c).after 6 t) from by
    unfold Dat.leavesExact; rw [live_6 t], after_6]
  rw [show (dats m 0 c).leavesExact 7 t = owns (c : Thread nD τ) (ms0_7 t) fullShare ((dats m 0 c).after 7 t) from by
    unfold Dat.leavesExact; rw [live_7 t], after_7]
  by_cases h3 : t.val % 4 = 3
  · have hc : lastGate (grid0.coords t) := (lastGate_iff t).mpr h3
    rw [show (dats m 0 c).leavesExact 8 t = owns (c : Thread nD τ) (ms0_8 t) fullShare ((dats m 0 c).after 8 t) from by
      unfold Dat.leavesExact; rw [live_8 t hc], after_8]
    rw [show (dats m 0 c).leavesExact 9 t = owns (c : Thread nD τ) (ms0_9 t) fullShare ((dats m 0 c).after 9 t) from by
      unfold Dat.leavesExact; rw [live_9 t hc], after_9]
    iintro ⟨⟨⟨%d, %hd, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runGate c (grid0.coords t) _ _ _ _ _ _ _ _ _ _ _ _ _ _ _ _ _ _ _ _ scM hscM hc (iblk m c 0 t) (iblk m c 1 t) (iblk m c 2 t) (iblk m c 3 t) (iblk m c 4 t) (iblk m c 5 t) (iblk m c 6 t) (iblk m c 7 t) d).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    iintro ⟨H0, H1, H2, H3, H4, H5, H6, H7, ⟨%e8, H8⟩, ⟨%e9, H9⟩, HS0⟩
    isplitl [HS0 Hg]
    · isplitl [HS0]
      · iexists _; isplitr
        swap
        · unfold owns; iexists _; isplitr
          swap; · iexact HS0
          ipureintro; rfl
        ipureintro; exact filled_gate m c t h3 _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro
      rw [gate_cell, View.read_writes_eq_canon _ _ _ (fun y => ⟨_, List.mem_singleton_self _, View.mem_set_unit_zero zero2 inb_S256x256_S256x256_0_0 y⟩), View.canon_unit_zero zero2]
      obtain ⟨s0, s1, -, s3⟩ := slabs_gate m c t h3 d hd
      show k0_pay2 _ _ _ _ = k0_pay2 _ _ _ _
      rw [s0, s1, s3]
    unfold owns; iexists _; isplitr
    swap; · iexact H9
    ipureintro
    rw [gate_state, View.read_writes_eq_canon _ _ _ (fun y => ⟨_, List.mem_singleton_self _, View.mem_set_unit_zero zero2 inb_S256x256_S256x256_0_0 y⟩), View.canon_unit_zero zero2]
    obtain ⟨s0, s1, s2, s3⟩ := slabs_gate m c t h3 d hd
    show k0_pay3 _ _ _ _ _ = k0_pay3 _ _ _ _ _
    rw [s0, s1, s2, s3]
  · have hc : ¬lastGate (grid0.coords t) := fun h => h3 ((lastGate_iff t).mp h)
    rw [Dat.leavesExact_idle (dats m 0 c) 8 t (idle_8 t hc) (noFlush_8 t hc)]
    rw [Dat.leavesExact_idle (dats m 0 c) 9 t (idle_9 t hc) (noFlush_9 t hc)]
    iintro ⟨⟨⟨%d, %hd, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runStore c (grid0.coords t) _ _ _ _ _ _ _ _ _ _ _ _ _ _ _ _ _ _ _ _ scM hscM hc (iblk m c 0 t) (iblk m c 1 t) (iblk m c 2 t) (iblk m c 3 t) (iblk m c 4 t) (iblk m c 5 t) (iblk m c 6 t) (iblk m c 7 t) d).2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    iintro ⟨H0, H1, H2, H3, H4, H5, H6, H7, H8, H9, HS0⟩
    isplitl [HS0 Hg]
    · isplitl [HS0]
      · iexists _; isplitr
        swap
        · unfold owns; iexists _; isplitr
          swap; · iexact HS0
          ipureintro; rfl
        ipureintro
        rw [store_scratch]
        exact filled_store m c t h3 d hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-- Entering the region nothing is asked of the scratch. -/
theorem hin (c : Dev nD) : Pipeline.ΦA spec0 c ⊢ (dats m 0 c).Φ 0 := by
  rw [show (dats m 0 c).Φ 0 = PhiT m c 0 from rfl, PhiA_eq]
  unfold PhiT
  iintro ⟨⟨%d, HS0⟩, Hg⟩
  isplitl [HS0]
  · iexists d; isplitr
    · ipureintro; exact filled_zero m c d
    iexact HS0
  iexact Hg

/-- Leaving it the scratch's contents are forgotten. -/
theorem hout (c : Dev nD) : (dats m 0 c).Φ (Fin.last cfg0.N) ⊢ Pipeline.ΦA spec0 c := by
  rw [show (dats m 0 c).Φ (Fin.last cfg0.N) = PhiT m c (Fin.last cfg0.N).val from rfl, PhiA_eq]
  unfold PhiT
  iintro ⟨⟨%d, -, HS0⟩, Hg⟩
  isplitl [HS0]
  · iexists d; iexact HS0
  iexact Hg

/-! ## The run and the frame -/

set_option backward.isDefEq.respectTransparency.types false in
/-- Every weakly fair execution of the program terminates, with every array of the pipeline at what the library
    computes from the proof data and every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Body

end
-- ==== Proof.IdealPoints.lean ====
import proofs.«164890_j54468775248255_2_alg».proof.Proof.Gen.KernelIdeal.Frame
import proofs.«164890_j54468775248255_2_alg».proof.Proof.Gen.KernelIdeal.Skeleton

set_option maxRecDepth 16384

/-
  The 64 grid points are 16 column tiles × 4 gates, the gate index running fastest: point t works on gate t % 4 of
  tile t / 4.  At every point the body stores its gate's pre-activation into slab t % 4 of the scratch; only at the
  last gate of a tile (t % 4 = 3) does it read the four slabs back and store the two outputs, whose windows are
  written back exactly there and left untouched at the other points.  This file decides those facts over the grid
  and names the staging buffers the body is called with.
-/
noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch: taken at the last gate of a tile. -/
abbrev lastGate (i : grid0.Coords) : Prop := k0_cond1 i = 1#1

theorem lastGate_iff : ∀ t : Fin cfg0.N, lastGate (grid0.coords t) ↔ t.val % 4 = 3 :=
  (by decide +kernel : ∀ t : Fin grid0.N, lastGate (grid0.coords t) ↔ t.val % 4 = 3)

/-- The slab of the scratch the body stores into at point `t`: the gate's. -/
theorem slab_off : ∀ t : Fin cfg0.N, k0_off1 (grid0.coords t) = ![t.val % 4, 0, 0] :=
  (by decide +kernel : ∀ t : Fin grid0.N, k0_off1 (grid0.coords t) = ![t.val % 4, 0, 0])

theorem N_eq : cfg0.N = 64 := N_0

/-- The inputs are staged at every point. -/
theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
theorem live_5 : ∀ t : Fin cfg0.N, cfg0.idle 5 (grid0.coords t) = false := by decide +kernel
theorem live_6 : ∀ t : Fin cfg0.N, cfg0.idle 6 (grid0.coords t) = false := by decide +kernel
theorem live_7 : ∀ t : Fin cfg0.N, cfg0.idle 7 (grid0.coords t) = false := by decide +kernel
/-- The outputs are untouched, and not written back, except at a tile's last gate. -/
theorem idle_8 : ∀ t : Fin cfg0.N, ¬lastGate (grid0.coords t) → cfg0.idle 8 (grid0.coords t) = true := by decide +kernel
theorem noFlush_8 : ∀ t : Fin cfg0.N, ¬lastGate (grid0.coords t) → (cfg0.win 8).flush t = false := by decide +kernel
theorem live_8 : ∀ t : Fin cfg0.N, lastGate (grid0.coords t) → cfg0.idle 8 (grid0.coords t) = false := by decide +kernel
theorem idle_9 : ∀ t : Fin cfg0.N, ¬lastGate (grid0.coords t) → cfg0.idle 9 (grid0.coords t) = true := by decide +kernel
theorem noFlush_9 : ∀ t : Fin cfg0.N, ¬lastGate (grid0.coords t) → (cfg0.win 9).flush t = false := by decide +kernel
theorem live_9 : ∀ t : Fin cfg0.N, lastGate (grid0.coords t) → cfg0.idle 9 (grid0.coords t) = false := by decide +kernel

/-- Each window's current staging buffer at point `t`, as the pipeline passes it to the body. -/
abbrev ms0_0 (t : Fin cfg0.N) : Memref sig .tc .vmem S1x256x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x256x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x512 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x512 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x4096 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S256x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x256 .f32 := win0_9.stage (cfg0.slots t 9)
abbrev hs0_9 (t : Fin cfg0.N) : (ms0_9 t).IsWhole := hstage0_9 ((cfg0.slots t 9).cast nbuf0_9)
/-- The scratch: four slabs, one per gate, of the tile's pre-activations. -/
abbrev scM : Memref sig .tc .vmem S4x256x256 .f32 := Memref.whole cc0_scratch0
abbrev hscM : (scM).IsWhole := Memref.isWhole_whole _

/-- What the region holds besides the windows: the scratch at some contents and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Body

end
-- ==== Proof.IdealRunGate.lean ====
import proofs.«164890_j54468775248255_2_alg».proof.Proof.IdealPoints

set_option maxRecDepth 16384

/-
  The body at the last gate of a tile, run symbolically on arbitrary whole staging buffers: it stores the gate's
  pre-activation into its slab of the scratch, reads the four slabs back, and stores the new cell state and the new
  matrix state whole into the two output buffers.  The stores each buffer ends with are found by the run and are
  the witness of this definition.
-/
noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the cell-state buffer, the matrix-state buffer and the scratch at a tile's last
    gate, with the proof that from the inputs at their contents and the scratch at `xs0` it runs to them. -/
noncomputable def runGate (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x4096 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x4096 .bf16) (harg7 : arg7.IsWhole) (arg8 : Memref sig .tc .vmem S1x1x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S4x256x256 .f32) (harg12 : arg12.IsWhole) (hc0 : lastGate i)
    (x0 : Vec F S1x256x512 .f32) (x1 : Vec F S1x256x512 .f32) (x2 : Vec F S1x256x4096 .f32) (x3 : Vec F S256x512 .bf16) (x4 : Vec F S256x512 .bf16) (x5 : Vec F S256x4096 .bf16) (x6 : Vec F S1x1x256 .f32) (x7 : Vec F S256x256 .f32) (xs0 : Vec F S4x256x256 .f32) :
    Σ' (L8 : List (View.Piece (Elt F) S256x256 .f32)) (L9 : List (View.Piece (Elt F) S256x256 .f32)), { LS0 : List (View.Piece (Elt F) S4x256x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (arg12.view.loc (c : Thread nD τ) ↦[arg12.view.set]{fullShare} arg12.view.writes (Elt F) (harg12.unread xs0) LS0)) -∗ K ⟨⟩))
          ⊢ wp frame (wpE (defs₀ (F := F)) Variants.none c none) E (cc0__gate_lstm_kernel i arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__gate_lstm_kernel_eq_skeleton]; unfold cc0__gate_lstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg12.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    iexact HS0

end Cert.KernelIdeal.Body

end
-- ==== Proof.IdealRunStore.lean ====
import proofs.«164890_j54468775248255_2_alg».proof.Proof.IdealPoints

set_option maxRecDepth 16384

/-
  The body at a gate that is not a tile's last, run symbolically on arbitrary whole staging buffers: it stores the
  gate's pre-activation into its slab of the scratch and touches neither output buffer.
-/
noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the scratch at a gate that is not the last, with the proof that from the inputs at
    their contents, the output buffers at any contents (handed back untouched) and the scratch at `xs0` it runs to
    them. -/
noncomputable def runStore (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x4096 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x4096 .bf16) (harg7 : arg7.IsWhole) (arg8 : Memref sig .tc .vmem S1x1x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S4x256x256 .f32) (harg12 : arg12.IsWhole) (hc0 : ¬lastGate i)
    (x0 : Vec F S1x256x512 .f32) (x1 : Vec F S1x256x512 .f32) (x2 : Vec F S1x256x4096 .f32) (x3 : Vec F S256x512 .bf16) (x4 : Vec F S256x512 .bf16) (x5 : Vec F S256x4096 .bf16) (x6 : Vec F S1x1x256 .f32) (x7 : Vec F S256x256 .f32) (xs0 : Vec F S4x256x256 .f32) :
    { LS0 : List (View.Piece (Elt F) S4x256x256 .f32) //
      ∀ (xi8 xi9 : Vec F S256x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ owns (c : Thread nD τ) arg12 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xi9 ∗ (arg12.view.loc (c : Thread nD τ) ↦[arg12.view.set]{fullShare} arg12.view.writes (Elt F) (harg12.unread xs0) LS0)) -∗ K ⟨⟩))
          ⊢ wp frame (wpE (defs₀ (F := F)) Variants.none c none) E (cc0__gate_lstm_kernel i arg2 harg2 arg3 harg3 arg4 harg4 arg5 harg5 arg6 harg6 arg7 harg7 arg8 harg8 arg9 harg9 arg10 harg10 arg11 harg11 arg12 harg12) K } := by
  refine ⟨?_, fun xi8 xi9 E K => ?run⟩
  case run =>
    simp only [cc0__gate_lstm_kernel_eq_skeleton]; unfold cc0__gate_lstm_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hfs0
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    iexact HS0

end Cert.KernelIdeal.Body

end
-- ==== Proof.IdealPieces.lean ====
import proofs.«164890_j54468775248255_2_alg».proof.Proof.IdealRunGate
import proofs.«164890_j54468775248255_2_alg».proof.Proof.IdealRunStore
import Idealize.ShloMosaic.Lib.WritesUnit
import Idealize.ShloMosaic.Lib.Pipeline.Value

set_option maxRecDepth 16384

/-
  The stores the two runs of the body found, written out.  At every point the scratch gets ONE store: the gate's
  pre-activation of the point's input blocks, into the gate's slab.  At a tile's last gate each output buffer gets
  one store of its whole block: the cell (matrix) state computed from the four slabs as they stand after that
  store.  Reading a slab of the scratch after the store gives the stored block if it is the gate's slab and what was
  there before otherwise.
-/
noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem zero2 : (![0, 0] : Fin 2 → Nat) = fun _ => 0 := funext fun a => by fin_cases a <;> rfl
theorem zero3 : (![0, 0, 0] : Fin 3 → Nat) = fun _ => 0 := funext fun a => by fin_cases a <;> rfl

/-- The four slabs of the scratch, one per gate. -/
abbrev slab0 : Rect S4x256x256 := Rect.unit (s := S4x256x256) ![0, 0, 0] S1x256x256.size inb_S4x256x256_S1x256x256_0_0_0
abbrev slab1 : Rect S4x256x256 := Rect.unit (s := S4x256x256) ![1, 0, 0] S1x256x256.size inb_S4x256x256_S1x256x256_1_0_0
abbrev slab2 : Rect S4x256x256 := Rect.unit (s := S4x256x256) ![2, 0, 0] S1x256x256.size inb_S4x256x256_S1x256x256_2_0_0
abbrev slab3 : Rect S4x256x256 := Rect.unit (s := S4x256x256) ![3, 0, 0] S1x256x256.size inb_S4x256x256_S1x256x256_3_0_0

/-- The one store into the scratch: the pre-activation of the input blocks, at the slab the grid point names. -/
abbrev slabPiece (i : grid0.Coords) (x0 : Vec F S1x256x512 .f32) (x1 : Vec F S1x256x512 .f32) (x2 : Vec F S1x256x4096 .f32) (x3 : Vec F S256x512 .bf16) (x4 : Vec F S256x512 .bf16) (x5 : Vec F S256x4096 .bf16) (x6 : Vec F S1x1x256 .f32) : View.Piece (Elt F) S4x256x256 .f32 :=
  ⟨Rect.unit (s := S4x256x256) (k0_off1 i) S1x256x256.size (k0_off1_inb i), k0_pay1 x0 x1 x2 x3 x4 x5 x6⟩

section Found

variable (c : Dev nD) (i : grid0.Coords) (arg2 : Memref sig .tc .vmem S1x256x512 .f32) (harg2 : arg2.IsWhole) (arg3 : Memref sig .tc .vmem S1x256x512 .f32) (harg3 : arg3.IsWhole) (arg4 : Memref sig .tc .vmem S1x256x4096 .f32) (harg4 : arg4.IsWhole) (arg5 : Memref sig .tc .vmem S256x512 .bf16) (harg5 : arg5.IsWhole) (arg6 : Memref sig .tc .vmem S256x512 .bf16) (harg6 : arg6.IsWhole) (arg7 : Memref sig .tc .vmem S256x4096 .bf16) (harg7 : arg7.IsWhole) (arg8 : Memref sig .tc .vmem S1x1x256 .f32) (harg8 : arg8.IsWhole) (arg9 : Memref sig .tc .vmem S256x256 .f32) (harg9 : arg9.IsWhole) (arg10 : Memref sig .tc .vmem S256x256 .f32) (harg10 : arg10.IsWhole) (arg11 : Memref sig .tc .vmem S256x256 .f32) (harg11 : arg11.IsWhole) (arg12 : Memref sig .tc .vmem S4x256x256 .f32) (harg12 : arg12.IsWhole)
  (x0 : Vec F S1x256x512 .f32) (x1 : Vec F S1x256x512 .f32) (x2 : Vec F S1x256x4096 .f32) (x3 : Vec F S256x512 .bf16) (x4 : Vec F S256x512 .bf16) (x5 : Vec F S256x4096 .bf16) (x6 : Vec F S1x1x256 .f32) (x7 : Vec F S256x256 .f32) (xs0 : Vec F S4x256x256 .f32)

/-- The scratch's contents after the point's store, read through the body's memref. -/
abbrev scratchAfter : Vec F S4x256x256 .f32 :=
  arg12.view.read (Elt F) (arg12.view.writes (Elt F) (harg12.unread xs0) [slabPiece i x0 x1 x2 x3 x4 x5 x6])

theorem store_scratch (hc0 : ¬lastGate i) :
    (runStore c i arg2 harg2 arg3 harg3 arg4 harg4 arg5 harg5 arg6 harg6 arg7 harg7 arg8 harg8 arg9 harg9 arg10 harg10 arg11 harg11 arg12 harg12 hc0 x0 x1 x2 x3 x4 x5 x6 x7 xs0).1 = [slabPiece i x0 x1 x2 x3 x4 x5 x6] := by
  unfold runStore
  dsimp only
  sl_unfold_words
  simp only [View.readAt_eq_ld, harg2.read_unread, harg3.read_unread, harg4.read_unread, harg5.read_unread, harg6.read_unread, harg7.read_unread, harg8.read_unread, View.ld_unit_zero (S := S1x256x512) zero3, View.ld_unit_zero (S := S1x256x4096) zero3, View.ld_unit_zero (S := S256x512) zero2, View.ld_unit_zero (S := S256x4096) zero2, View.ld_unit_zero (S := S1x1x256) zero3]
  rfl

theorem gate_scratch (hc0 : lastGate i) :
    (runGate c i arg2 harg2 arg3 harg3 arg4 harg4 arg5 harg5 arg6 harg6 arg7 harg7 arg8 harg8 arg9 harg9 arg10 harg10 arg11 harg11 arg12 harg12 hc0 x0 x1 x2 x3 x4 x5 x6 x7 xs0).2.2.1 = [slabPiece i x0 x1 x2 x3 x4 x5 x6] := by
  unfold runGate
  dsimp only
  sl_unfold_words
  simp only [View.readAt_eq_ld, harg2.read_unread, harg3.read_unread, harg4.read_unread, harg5.read_unread, harg6.read_unread, harg7.read_unread, harg8.read_unread, View.ld_unit_zero (S := S1x256x512) zero3, View.ld_unit_zero (S := S1x256x4096) zero3, View.ld_unit_zero (S := S256x512) zero2, View.ld_unit_zero (S := S256x4096) zero2, View.ld_unit_zero (S := S1x1x256) zero3]
  rfl

theorem gate_cell (hc0 : lastGate i) :
    (runGate c i arg2 harg2 arg3 harg3 arg4 harg4 arg5 harg5 arg6 harg6 arg7 harg7 arg8 harg8 arg9 harg9 arg10 harg10 arg11 harg11 arg12 harg12 hc0 x0 x1 x2 x3 x4 x5 x6 x7 xs0).1
      = [⟨Rect.unit (s := S256x256) ![0, 0] S256x256.size inb_S256x256_S256x256_0_0,
          k0_pay2 (View.ld (scratchAfter i arg12 harg12 x0 x1 x2 x3 x4 x5 x6 xs0) slab0) (View.ld (scratchAfter i arg12 harg12 x0 x1 x2 x3 x4 x5 x6 xs0) slab1)
            (View.ld (scratchAfter i arg12 harg12 x0 x1 x2 x3 x4 x5 x6 xs0) slab3) x7⟩] := by
  unfold runGate
  dsimp only
  sl_unfold_words
  simp only [View.readAt_eq_ld, harg2.read_unread, harg3.read_unread, harg4.read_unread, harg5.read_unread, harg6.read_unread, harg7.read_unread, harg8.read_unread, harg9.read_unread, View.ld_unit_zero (S := S1x256x512) zero3, View.ld_unit_zero (S := S1x256x4096) zero3, View.ld_unit_zero (S := S256x512) zero2, View.ld_unit_zero (S := S256x4096) zero2, View.ld_unit_zero (S := S1x1x256) zero3, View.ld_unit_zero (S := S256x256) zero2]
  rfl

theorem gate_state (hc0 : lastGate i) :
    (runGate c i arg2 harg2 arg3 harg3 arg4 harg4 arg5 harg5 arg6 harg6 arg7 harg7 arg8 harg8 arg9 harg9 arg10 harg10 arg11 harg11 arg12 harg12 hc0 x0 x1 x2 x3 x4 x5 x6 x7 xs0).2.1
      = [⟨Rect.unit (s := S256x256) ![0, 0] S256x256.size inb_S256x256_S256x256_0_0,
          k0_pay3 (View.ld (scratchAfter i arg12 harg12 x0 x1 x2 x3 x4 x5 x6 xs0) slab0) (View.ld (scratchAfter i arg12 harg12 x0 x1 x2 x3 x4 x5 x6 xs0) slab1)
            (View.ld (scratchAfter i arg12 harg12 x0 x1 x2 x3 x4 x5 x6 xs0) slab2) (View.ld (scratchAfter i arg12 harg12 x0 x1 x2 x3 x4 x5 x6 xs0) slab3) x7⟩] := by
  unfold runGate
  dsimp only
  sl_unfold_words
  simp only [View.readAt_eq_ld, harg2.read_unread, harg3.read_unread, harg4.read_unread, harg5.read_unread, harg6.read_unread, harg7.read_unread, harg8.read_unread, harg9.read_unread, View.ld_unit_zero (S := S1x256x512) zero3, View.ld_unit_zero (S := S1x256x4096) zero3, View.ld_unit_zero (S := S256x512) zero2, View.ld_unit_zero (S := S256x4096) zero2, View.ld_unit_zero (S := S1x1x256) zero3, View.ld_unit_zero (S := S256x256) zero2]
  rfl

end Found

/-! ## Reading a slab after one store into a slab -/

section Slab

variable {κ : Kind} {sp : Space} (v : View sig κ sp S4x256x256 .f32) (f : v.ty.Contents (Elt F))
  (off : Fin 3 → ℕ) (inb : ∀ a, off a + S1x256x256.size a ≤ S4x256x256.size a)
  (w : (Rect.unit (s := S4x256x256) off S1x256x256.size inb).shape.Idx → Elt F .f32)

/-- The slab just stored reads the stored block. -/
theorem slab_hit (g : ℕ) (inbg : ∀ a, (![g, 0, 0] : Fin 3 → ℕ) a + S1x256x256.size a ≤ S4x256x256.size a) (heq : off = ![g, 0, 0]) :
    View.ld (v.read (Elt F) (v.writes (Elt F) f [(⟨Rect.unit (s := S4x256x256) off S1x256x256.size inb, w⟩ : View.Piece (Elt F) S4x256x256 .f32)]))
      (Rect.unit (s := S4x256x256) ![g, 0, 0] S1x256x256.size inbg) = w := by
  funext x
  exact View.read_writes_cons_unit_of_mem v f inb w [] _ x heq (fun a => by
    show (![g, 0, 0] : Fin 3 → ℕ) a + 1 * (x a).val = _
    rw [Nat.one_mul])

/-- Another slab reads what it held before. -/
theorem slab_miss (g g' : ℕ) (hne : g' ≠ g) (inbg : ∀ a, (![g', 0, 0] : Fin 3 → ℕ) a + S1x256x256.size a ≤ S4x256x256.size a) (heq : off = ![g, 0, 0]) :
    View.ld (v.read (Elt F) (v.writes (Elt F) f [(⟨Rect.unit (s := S4x256x256) off S1x256x256.size inb, w⟩ : View.Piece (Elt F) S4x256x256 .f32)]))
      (Rect.unit (s := S4x256x256) ![g', 0, 0] S1x256x256.size inbg)
      = View.ld (v.read (Elt F) f) (Rect.unit (s := S4x256x256) ![g', 0, 0] S1x256x256.size inbg) := by
  funext x
  refine (View.read_writes_cons_unit_of_not_mem v f inb w [] _ heq (0 : Fin 3) ?_).trans rfl
  have hx : (x (0 : Fin 3)).val = 0 := by have := (x (0 : Fin 3)).isLt; change _ < 1 at this; omega
  show (g' + 1 * (x (0 : Fin 3)).val < g) ∨ (g + 1 ≤ g' + 1 * (x (0 : Fin 3)).val)
  rw [hx]; omega

end Slab

end Cert.KernelIdeal.Body

end
-- ==== Proof.IdealTile.lean ====
import proofs.«164890_j54468775248255_2_alg».proof.Proof.IdealPoints

set_option maxRecDepth 16384

/-
  What one column tile of the two results is, as a function of the blocks the pipeline stages: the pre-activation
  block of a grid point, the four points of a tile, and the tile's new cell state and new matrix state.
-/
noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The pre-activation block point `s` stores into its slab of the scratch: the three products of the point's
    activation and weight blocks, combined, plus the bias row. -/
def preAt (c : Dev nD) (s : Fin cfg0.N) : FVec F S1x256x256 .f32 :=
  k0_pay1 (iblk m c 0 s) (iblk m c 1 s) (iblk m c 2 s) (iblk m c 3 s) (iblk m c 4 s) (iblk m c 5 s) (iblk m c 6 s)

/-- Gate `g`'s point of the tile point `t` lies in. -/
def gp (t : Fin cfg0.N) (g : ℕ) (hg : g < 4) : Fin cfg0.N :=
  ⟨4 * (t.val / 4) + g, lt_of_lt_of_eq (b := 64) (by have := lt_of_lt_of_eq t.isLt N_eq; omega) N_eq.symm⟩

@[simp] theorem gp_val (t : Fin cfg0.N) (g : ℕ) (hg : g < 4) : (gp t g hg).val = 4 * (t.val / 4) + g := rfl

/-- The new cell state of the tile of `t`: forget gate times the old cell state plus input gate times candidate. -/
def cellAt (c : Dev nD) (t : Fin cfg0.N) : FVec F S256x256 .f32 :=
  k0_pay2 (preAt m c (gp t 0 (by omega))) (preAt m c (gp t 1 (by omega))) (preAt m c (gp t 3 (by omega))) (iblk m c 7 t)

/-- The new matrix state of the tile of `t`: output gate times the squashed new cell state. -/
def stateAt (c : Dev nD) (t : Fin cfg0.N) : FVec F S256x256 .f32 :=
  k0_pay3 (preAt m c (gp t 0 (by omega))) (preAt m c (gp t 1 (by omega))) (preAt m c (gp t 2 (by omega)))
    (preAt m c (gp t 3 (by omega))) (iblk m c 7 t)

end Cert.KernelIdeal.Body

end
-- ==== Proof.IdealBody.lean ====
import proofs.«164890_j54468775248255_2_alg».proof.Proof.IdealPieces
import proofs.«164890_j54468775248255_2_alg».proof.Proof.IdealTile

set_option maxRecDepth 16384

/-
  The kernel's run over its 64 grid points.  Between points the region keeps, besides the staged windows, the scratch;
  the invariant before point t says that the slabs of the gates of t's tile already visited hold those gates'
  pre-activation blocks.  A point that is not a tile's last gate adds its slab; the last gate adds its slab, reads all
  four and leaves the tile's new cell state and new matrix state in the two output buffers, which the pipeline
  writes back exactly there.  From the body's two symbolic runs this gives the pipeline's obligation at every point,
  hence the run of the whole program with every output array named, and the frame.
-/
noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The scratch between points -/

/-- Before point `n`: each gate of `n`'s tile already visited has left its pre-activation block in its slab. -/
def Filled (c : Dev nD) (n : ℕ) (d : Vec F S4x256x256 .f32) : Prop :=
  (∀ s : Fin cfg0.N, s.val / 4 = n / 4 → s.val < n → s.val % 4 = 0 → (View.ld d slab0 : S1x256x256.Idx → Elt F .f32) = preAt m c s)
  ∧ (∀ s : Fin cfg0.N, s.val / 4 = n / 4 → s.val < n → s.val % 4 = 1 → (View.ld d slab1 : S1x256x256.Idx → Elt F .f32) = preAt m c s)
  ∧ (∀ s : Fin cfg0.N, s.val / 4 = n / 4 → s.val < n → s.val % 4 = 2 → (View.ld d slab2 : S1x256x256.Idx → Elt F .f32) = preAt m c s)

theorem filled_zero (c : Dev nD) (d : Vec F S4x256x256 .f32) : Filled m c 0 d :=
  ⟨fun _ _ h _ => absurd h (Nat.not_lt_zero _), fun _ _ h _ => absurd h (Nat.not_lt_zero _), fun _ _ h _ => absurd h (Nat.not_lt_zero _)⟩

/-- The scratch after point `t`'s store, from its contents `d` before. -/
abbrev scratchAt (c : Dev nD) (t : Fin cfg0.N) (d : Vec F S4x256x256 .f32) : Vec F S4x256x256 .f32 :=
  scratchAfter (grid0.coords t) scM hscM (iblk m c 0 t) (iblk m c 1 t) (iblk m c 2 t) (iblk m c 3 t) (iblk m c 4 t) (iblk m c 5 t) (iblk m c 6 t) d

theorem scratchAt_hit (c : Dev nD) (t : Fin cfg0.N) (d : Vec F S4x256x256 .f32) (g : ℕ)
    (inbg : ∀ a, (![g, 0, 0] : Fin 3 → ℕ) a + S1x256x256.size a ≤ S4x256x256.size a) (hg : t.val % 4 = g) :
    (View.ld (scratchAt m c t d) (Rect.unit (s := S4x256x256) ![g, 0, 0] S1x256x256.size inbg) : S1x256x256.Idx → Elt F .f32) = preAt m c t :=
  slab_hit scM.view (hscM.unread d) _ _ _ g inbg ((slab_off t).trans (by rw [hg]))

theorem scratchAt_miss (c : Dev nD) (t : Fin cfg0.N) (d : Vec F S4x256x256 .f32) (g' : ℕ)
    (inbg : ∀ a, (![g', 0, 0] : Fin 3 → ℕ) a + S1x256x256.size a ≤ S4x256x256.size a) (hg : g' ≠ t.val % 4) :
    View.ld (scratchAt m c t d) (Rect.unit (s := S4x256x256) ![g', 0, 0] S1x256x256.size inbg)
      = View.ld d (Rect.unit (s := S4x256x256) ![g', 0, 0] S1x256x256.size inbg) := by
  refine (slab_miss scM.view (hscM.unread d) _ _ _ (t.val % 4) g' hg inbg (slab_off t)).trans ?_
  rw [hscM.read_unread]

/-- A point that is not its tile's last gate adds its slab. -/
theorem filled_store (c : Dev nD) (t : Fin cfg0.N) (h3 : ¬t.val % 4 = 3) (d : Vec F S4x256x256 .f32) (hd : Filled m c t.val d) :
    Filled m c (t.val + 1) (scratchAt m c t d) := by
  have hN : t.val < 64 := lt_of_lt_of_eq t.isLt N_eq
  refine ⟨fun s h1 h2 h4 => ?_, fun s h1 h2 h4 => ?_, fun s h1 h2 h4 => ?_⟩
  · by_cases hs : s = t
    · subst hs; exact scratchAt_hit m c s d 0 _ h4
    · have hlt : s.val < t.val := by have : s.val ≠ t.val := fun h => hs (Fin.ext h); omega
      rw [show View.ld (scratchAt m c t d) slab0 = View.ld d slab0 from scratchAt_miss m c t d 0 _ (by omega)]
      exact hd.1 s (by omega) hlt h4
  · by_cases hs : s = t
    · subst hs; exact scratchAt_hit m c s d 1 _ h4
    · have hlt : s.val < t.val := by have : s.val ≠ t.val := fun h => hs (Fin.ext h); omega
      rw [show View.ld (scratchAt m c t d) slab1 = View.ld d slab1 from scratchAt_miss m c t d 1 _ (by omega)]
      exact hd.2.1 s (by omega) hlt h4
  · by_cases hs : s = t
    · subst hs; exact scratchAt_hit m c s d 2 _ h4
    · have hlt : s.val < t.val := by have : s.val ≠ t.val := fun h => hs (Fin.ext h); omega
      rw [show View.ld (scratchAt m c t d) slab2 = View.ld d slab2 from scratchAt_miss m c t d 2 _ (by omega)]
      exact hd.2.2 s (by omega) hlt h4

/-- After a tile's last gate the next tile starts with nothing asked of the scratch. -/
theorem filled_gate (c : Dev nD) (t : Fin cfg0.N) (h3 : t.val % 4 = 3) (d : Vec F S4x256x256 .f32) : Filled m c (t.val + 1) d :=
  ⟨fun s h1 h2 _ => by exfalso; omega, fun s h1 h2 _ => by exfalso; omega, fun s h1 h2 _ => by exfalso; omega⟩

/-- At a tile's last gate the four slabs, after the point's store, are the tile's four pre-activation blocks. -/
theorem slabs_gate (c : Dev nD) (t : Fin cfg0.N) (h3 : t.val % 4 = 3) (d : Vec F S4x256x256 .f32) (hd : Filled m c t.val d) :
    (View.ld (scratchAt m c t d) slab0 : S1x256x256.Idx → Elt F .f32) = preAt m c (gp t 0 (by omega))
    ∧ (View.ld (scratchAt m c t d) slab1 : S1x256x256.Idx → Elt F .f32) = preAt m c (gp t 1 (by omega))
    ∧ (View.ld (scratchAt m c t d) slab2 : S1x256x256.Idx → Elt F .f32) = preAt m c (gp t 2 (by omega))
    ∧ (View.ld (scratchAt m c t d) slab3 : S1x256x256.Idx → Elt F .f32) = preAt m c (gp t 3 (by omega)) := by
  have hN : t.val < 64 := lt_of_lt_of_eq t.isLt N_eq
  refine ⟨?_, ?_, ?_, ?_⟩
  · rw [show View.ld (scratchAt m c t d) slab0 = View.ld d slab0 from scratchAt_miss m c t d 0 _ (by omega)]
    exact hd.1 (gp t 0 (by omega)) (by rw [gp_val]; omega) (by rw [gp_val]; omega) (by rw [gp_val]; omega)
  · rw [show View.ld (scratchAt m c t d) slab1 = View.ld d slab1 from scratchAt_miss m c t d 1 _ (by omega)]
    exact hd.2.1 (gp t 1 (by omega)) (by rw [gp_val]; omega) (by rw [gp_val]; omega) (by rw [gp_val]; omega)
  · rw [show View.ld (scratchAt m c t d) slab2 = View.ld d slab2 from scratchAt_miss m c t d 2 _ (by omega)]
    exact hd.2.2 (gp t 2 (by omega)) (by rw [gp_val]; omega) (by rw [gp_val]; omega) (by rw [gp_val]; omega)
  · have : gp t 3 (by omega) = t := Fin.ext (by rw [gp_val]; omega)
    rw [this]; exact scratchAt_hit m c t d 3 _ h3

/-! ## The pipeline's proof data -/

/-- The invariant before position `n`: the scratch at contents whose visited slabs are filled, and the generator
    register at some state. -/
def PhiT (c : Dev nD) (n : ℕ) : sProp 𝕄 :=
  iprop(iprop(∃ d, ⌜Filled m c n d⌝ ∗ owns (c : Thread nD τ) scM fullShare d) ∗ (∃ r, prngReg c r))

/-- The arrays as the region finds them; after the body at point `t` each input's buffer at its block and the two
    outputs' at the tile's new cell state and new matrix state; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => cellAt m c t
    | ⟨9, _⟩ => stateAt m c t
  Φ t := PhiT m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = cellAt m c t := by dsimp only [dats]
theorem after_9 (c : Dev nD) (t : Fin cfg0.N) : (dats m 0 c).after 9 t = stateAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7]
  rw [show (dats m 0 c).owesAt () t.succ = (dats m 0 c).owesAt () t.castSucc from rfl]
  rw [show (dats m 0 c).Φ t.succ = PhiT m c (t.val + 1) from rfl, show (dats m 0 c).Φ t.castSucc = PhiT m c t.val from rfl]
  unfold PhiT
  rw [show (dats m 0 c).leavesExact 0 t = owns (c : Thread nD τ) (ms0_0 t) fullShare ((dats m 0 c).after 0 t) from by
    unfold Dat.leavesExact; rw [live_0 t], after_0]
  rw [show (dats m 0 c).leavesExact 1 t = owns (c : Thread nD τ) (ms0_1 t) fullShare ((dats m 0 c).after 1 t) from by
    unfold Dat.leavesExact; rw [live_1 t], after_1]
  rw [show (dats m 0 c).leavesExact 2 t = owns (c : Thread nD τ) (ms0_2 t) fullShare ((dats m 0 c).after 2 t) from by
    unfold Dat.leavesExact; rw [live_2 t], after_2]
  rw [show (dats m 0 c).leavesExact 3 t = owns (c : Thread nD τ) (ms0_3 t) fullShare ((dats m 0 c).after 3 t) from by
    unfold Dat.leavesExact; rw [live_3 t], after_3]
  rw [show (dats m 0 c).leavesExact 4 t = owns (c : Thread nD τ) (ms0_4 t) fullShare ((dats m 0 c).after 4 t) from by
    unfold Dat.leavesExact; rw [live_4 t], after_4]
  rw [show (dats m 0 c).leavesExact 5 t = owns (c : Thread nD τ) (ms0_5 t) fullShare ((dats m 0 c).after 5 t) from by
    unfold Dat.leavesExact; rw [live_5 t], after_5]
  rw [show (dats m 0 c).leavesExact 6 t = owns (c : Thread nD τ) (ms0_6 t) fullShare ((dats m 0 c).after 6 t) from by
    unfold Dat.leavesExact; rw [live_6 t], after_6]
  rw [show (dats m 0 c).leavesExact 7 t = owns (c : Thread nD τ) (ms0_7 t) fullShare ((dats m 0 c).after 7 t) from by
    unfold Dat.leavesExact; rw [live_7 t], after_7]
  by_cases h3 : t.val % 4 = 3
  · have hc : lastGate (grid0.coords t) := (lastGate_iff t).mpr h3
    rw [show (dats m 0 c).leavesExact 8 t = owns (c : Thread nD τ) (ms0_8 t) fullShare ((dats m 0 c).after 8 t) from by
      unfold Dat.leavesExact; rw [live_8 t hc], after_8]
    rw [show (dats m 0 c).leavesExact 9 t = owns (c : Thread nD τ) (ms0_9 t) fullShare ((dats m 0 c).after 9 t) from by
      unfold Dat.leavesExact; rw [live_9 t hc], after_9]
    iintro ⟨⟨⟨%d, %hd, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runGate c (grid0.coords t) _ _ _ _ _ _ _ _ _ _ _ _ _ _ _ _ _ _ _ _ scM hscM hc (iblk m c 0 t) (iblk m c 1 t) (iblk m c 2 t) (iblk m c 3 t) (iblk m c 4 t) (iblk m c 5 t) (iblk m c 6 t) (iblk m c 7 t) d).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [HS0]; · iexact HS0
    iintro ⟨H0, H1, H2, H3, H4, H5, H6, H7, ⟨%e8, H8⟩, ⟨%e9, H9⟩, HS0⟩
    isplitl [HS0 Hg]
    · isplitl [HS0]
      · iexists _; isplitr
        swap
        · unfold owns; iexists _; isplitr
          swap; · iexact HS0
          ipureintro; rfl
        ipureintro; exact filled_gate m c t h3 _
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro
      rw [gate_cell, View.read_writes_eq_canon _ _ _ (fun y => ⟨_, List.mem_singleton_self _, View.mem_set_unit_zero zero2 inb_S256x256_S256x256_0_0 y⟩), View.canon_unit_zero zero2]
      obtain ⟨s0, s1, -, s3⟩ := slabs_gate m c t h3 d hd
      show k0_pay2 _ _ _ _ = k0_pay2 _ _ _ _
      rw [s0, s1, s3]
    unfold owns; iexists _; isplitr
    swap; · iexact H9
    ipureintro
    rw [gate_state, View.read_writes_eq_canon _ _ _ (fun y => ⟨_, List.mem_singleton_self _, View.mem_set_unit_zero zero2 inb_S256x256_S256x256_0_0 y⟩), View.canon_unit_zero zero2]
    obtain ⟨s0, s1, s2, s3⟩ := slabs_gate m c t h3 d hd
    show k0_pay3 _ _ _ _ _ = k0_pay3 _ _ _ _ _
    rw [s0, s1, s2, s3]
  · have hc : ¬lastGate (grid0.coords t) := fun h => h3 ((lastGate_iff t).mp h)
    rw [Dat.leavesExact_idle (dats m 0 c) 8 t (idle_8 t hc) (noFlush_8 t hc)]
    rw [Dat.leavesExact_idle (dats m 0 c) 9 t (idle_9 t hc) (noFlush_9 t hc)]
    iintro ⟨⟨⟨%d, %hd, HS0⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((runStore c (grid0.coords t) _ _ _ _ _ _ _ _ _ _ _ _ _ _ _ _ _ _ _ _ scM hscM hc (iblk m c 0 t) (iblk m c 1 t) (iblk m c 2 t) (iblk m c 3 t) (iblk m c 4 t) (iblk m c 5 t) (iblk m c 6 t) (iblk m c 7 t) d).2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HS0]; · iexact HS0
    iintro ⟨H0, H1, H2, H3, H4, H5, H6, H7, H8, H9, HS0⟩
    isplitl [HS0 Hg]
    · isplitl [HS0]
      · iexists _; isplitr
        swap
        · unfold owns; iexists _; isplitr
          swap; · iexact HS0
          ipureintro; rfl
        ipureintro
        rw [store_scratch]
        exact filled_store m c t h3 d hd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9

/-- The library's body obligation, at every point. -/
theorem body_obligation (c : Dev nD) : BodyObligation (dats (F := F) m 0 c) (defs₀ (F := F)) Variants.none () Set.univ := fun t => by
  rw [bigSep_W0, bigSep_W0]
  exact sound_body m c t

/-- Entering the region nothing is asked of the scratch. -/
theorem hin (c : Dev nD) : Pipeline.ΦA spec0 c ⊢ (dats m 0 c).Φ 0 := by
  rw [show (dats m 0 c).Φ 0 = PhiT m c 0 from rfl, PhiA_eq]
  unfold PhiT
  iintro ⟨⟨%d, HS0⟩, Hg⟩
  isplitl [HS0]
  · iexists d; isplitr
    · ipureintro; exact filled_zero m c d
    iexact HS0
  iexact Hg

/-- Leaving it the scratch's contents are forgotten. -/
theorem hout (c : Dev nD) : (dats m 0 c).Φ (Fin.last cfg0.N) ⊢ Pipeline.ΦA spec0 c := by
  rw [show (dats m 0 c).Φ (Fin.last cfg0.N) = PhiT m c (Fin.last cfg0.N).val from rfl, PhiA_eq]
  unfold PhiT
  iintro ⟨⟨%d, -, HS0⟩, Hg⟩
  isplitl [HS0]
  · iexists d; iexact HS0
  iexact Hg

/-! ## The run and the frame -/

set_option backward.isDefEq.respectTransparency.types false in
/-- Every weakly fair execution of the program terminates, with every array of the pipeline at what the library
    computes from the proof data and every other buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Body

end
-- ==== Proof.BlockReads.lean ====
import proofs.«164890_j54468775248255_2_alg».proof.Proof.IdealTile
import Idealize.ShloMosaic.Lib.ValueIdx
import Idealize.ShloMosaic.Lib.Pipeline.Value

set_option maxRecDepth 16384

/-
  Where each staged block sits in its array.  The 64 grid points are 16 column tiles × 4 gates, the gate running
  fastest: point t is gate t % 4 of tile t / 4.  The three weight windows hand the point slab (gate) of their array and,
  inside it, the 256 rows of the tile; the bias window the same 256 entries of the gate's row; the old cell state's
  window the tile's 256 columns; the three activation windows their whole array at every point.  Each statement reads
  a block at coordinates and names the array element it is.
-/
noncomputable section

namespace Cert.KernelIdeal.BlockReads

open Cert.KernelIdeal Cert.KernelIdeal.Gen Cert.KernelIdeal.Body

open Idealize.ShloMosaic Idealize.ShloMosaic.ValueIdx

variable {F : FTy → Type} [FloatOps F]

/-! ## The gate and the columns of a point -/

theorem val_lt (t : Fin cfg0.N) : t.val < 64 := lt_of_lt_of_eq t.isLt N_eq

/-- The gate of point `t`. -/
abbrev gate (t : Fin cfg0.N) : Fin 4 := ⟨t.val % 4, Nat.mod_lt _ (by decide)⟩

/-- Column `j` of the tile of point `t`, among all 4096 columns. -/
abbrev tcol (t : Fin cfg0.N) (j : Fin 256) : Fin 4096 :=
  ⟨256 * (t.val / 4) + j.val, by have := val_lt t; have := j.isLt; omega⟩

/-! ## The block indices, decided over the grid -/

/-- The weight windows: slab = the gate, row block = the tile, all columns. -/
theorem idx_0 : ∀ t : Fin cfg0.N, win0_0.index t (0 : Fin 3) = t.val % 4 ∧ win0_0.index t (1 : Fin 3) = t.val / 4
    ∧ win0_0.index t (2 : Fin 3) = 0 :=
  (by decide +kernel : ∀ t : Fin grid0.N, _)
theorem idx_1 : ∀ t : Fin cfg0.N, win0_1.index t (0 : Fin 3) = t.val % 4 ∧ win0_1.index t (1 : Fin 3) = t.val / 4
    ∧ win0_1.index t (2 : Fin 3) = 0 :=
  (by decide +kernel : ∀ t : Fin grid0.N, _)
theorem idx_2 : ∀ t : Fin cfg0.N, win0_2.index t (0 : Fin 3) = t.val % 4 ∧ win0_2.index t (1 : Fin 3) = t.val / 4
    ∧ win0_2.index t (2 : Fin 3) = 0 :=
  (by decide +kernel : ∀ t : Fin grid0.N, _)
/-- The activation windows: the whole array. -/
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
/-- The bias window: row = the gate, column block = the tile. -/
theorem idx_6 : ∀ t : Fin cfg0.N, win0_6.index t (0 : Fin 3) = t.val % 4 ∧ win0_6.index t (1 : Fin 3) = 0
    ∧ win0_6.index t (2 : Fin 3) = t.val / 4 :=
  (by decide +kernel : ∀ t : Fin grid0.N, _)
/-- The old cell state's window: all rows, column block = the tile. -/
theorem idx_7 : ∀ t : Fin cfg0.N, win0_7.index t (0 : Fin 2) = 0 ∧ win0_7.index t (1 : Fin 2) = t.val / 4 :=
  (by decide +kernel : ∀ t : Fin grid0.N, _)

/-! ## The blocks read at coordinates -/

variable (m : (ℓ : Loc nD τ sig) → Buf (Elt F) ℓ) (c : Dev nD)

/-- The first weight block: row `j`, column `k` is the gate's slab at row `256 · tile + j`, column `k`. -/
theorem blk0 (t : Fin cfg0.N) (z : Fin 1) (j : Fin 256) (k : Fin 512) :
    iblk m c 0 t (ix3 z j k) = (V m c main_v1 : S4x4096x512.Idx → Elt F .f32) (ix3 (gate t) (tcol t j) k) := by
  obtain ⟨e0, e1, e2⟩ := idx_0 t
  unfold iblk
  show (V m c main_v1 : S4x4096x512.Idx → Elt F .f32) (((cfg0.win 0).blk t).view.emb (ix3 z j k)) = _
  refine congrArg (V m c main_v1 : S4x4096x512.Idx → Elt F .f32) ?_
  funext a; apply Fin.ext
  match a with
  | ⟨0, _⟩ => show win0_0.index t (0 : Fin 3) * 1 + 1 * z.val = t.val % 4; have := z.isLt; omega
  | ⟨1, _⟩ => show win0_0.index t (1 : Fin 3) * 256 + 1 * j.val = 256 * (t.val / 4) + j.val; omega
  | ⟨2, _⟩ => show win0_0.index t (2 : Fin 3) * 512 + 1 * k.val = k.val; omega

/-- The second weight block, the same way. -/
theorem blk1 (t : Fin cfg0.N) (z : Fin 1) (j : Fin 256) (k : Fin 512) :
    iblk m c 1 t (ix3 z j k) = (V m c main_v0 : S4x4096x512.Idx → Elt F .f32) (ix3 (gate t) (tcol t j) k) := by
  obtain ⟨e0, e1, e2⟩ := idx_1 t
  unfold iblk
  show (V m c main_v0 : S4x4096x512.Idx → Elt F .f32) (((cfg0.win 1).blk t).view.emb (ix3 z j k)) = _
  refine congrArg (V m c main_v0 : S4x4096x512.Idx → Elt F .f32) ?_
  funext a; apply Fin.ext
  match a with
  | ⟨0, _⟩ => show win0_1.index t (0 : Fin 3) * 1 + 1 * z.val = t.val % 4; have := z.isLt; omega
  | ⟨1, _⟩ => show win0_1.index t (1 : Fin 3) * 256 + 1 * j.val = 256 * (t.val / 4) + j.val; omega
  | ⟨2, _⟩ => show win0_1.index t (2 : Fin 3) * 512 + 1 * k.val = k.val; omega

/-- The third weight block, `4096` columns wide. -/
theorem blk2 (t : Fin cfg0.N) (z : Fin 1) (j : Fin 256) (k : Fin 4096) :
    iblk m c 2 t (ix3 z j k) = (V m c main_v2 : S4x4096x4096.Idx → Elt F .f32) (ix3 (gate t) (tcol t j) k) := by
  obtain ⟨e0, e1, e2⟩ := idx_2 t
  unfold iblk
  show (V m c main_v2 : S4x4096x4096.Idx → Elt F .f32) (((cfg0.win 2).blk t).view.emb (ix3 z j k)) = _
  refine congrArg (V m c main_v2 : S4x4096x4096.Idx → Elt F .f32) ?_
  funext a; apply Fin.ext
  match a with
  | ⟨0, _⟩ => show win0_2.index t (0 : Fin 3) * 1 + 1 * z.val = t.val % 4; have := z.isLt; omega
  | ⟨1, _⟩ => show win0_2.index t (1 : Fin 3) * 256 + 1 * j.val = 256 * (t.val / 4) + j.val; omega
  | ⟨2, _⟩ => show win0_2.index t (2 : Fin 3) * 4096 + 1 * k.val = k.val; omega

/-- The first activation block is its whole array. -/
theorem blk3 (t : Fin cfg0.N) (n : Fin 256) (u : Fin 512) :
    iblk m c 3 t (ix2 n u) = (V m c main_v8 : S256x512.Idx → Elt F .bf16) (ix2 n u) := by
  obtain ⟨e0, e1⟩ := idx_3 t
  unfold iblk
  show (V m c main_v8 : S256x512.Idx → Elt F .bf16) (((cfg0.win 3).blk t).view.emb (ix2 n u)) = _
  refine congrArg (V m c main_v8 : S256x512.Idx → Elt F .bf16) ?_
  funext a; apply Fin.ext
  match a with
  | ⟨0, _⟩ => show win0_3.index t (0 : Fin 2) * 256 + 1 * n.val = n.val; omega
  | ⟨1, _⟩ => show win0_3.index t (1 : Fin 2) * 512 + 1 * u.val = u.val; omega

/-- The second activation block is its whole array. -/
theorem blk4 (t : Fin cfg0.N) (n : Fin 256) (u : Fin 512) :
    iblk m c 4 t (ix2 n u) = (V m c main_v9 : S256x512.Idx → Elt F .bf16) (ix2 n u) := by
  obtain ⟨e0, e1⟩ := idx_4 t
  unfold iblk
  show (V m c main_v9 : S256x512.Idx → Elt F .bf16) (((cfg0.win 4).blk t).view.emb (ix2 n u)) = _
  refine congrArg (V m c main_v9 : S256x512.Idx → Elt F .bf16) ?_
  funext a; apply Fin.ext
  match a with
  | ⟨0, _⟩ => show win0_4.index t (0 : Fin 2) * 256 + 1 * n.val = n.val; omega
  | ⟨1, _⟩ => show win0_4.index t (1 : Fin 2) * 512 + 1 * u.val = u.val; omega

/-- The third activation block is its whole array, `4096` columns wide. -/
theorem blk5 (t : Fin cfg0.N) (n : Fin 256) (q : Fin 4096) :
    iblk m c 5 t (ix2 n q) = (V m c main_v10 : S256x4096.Idx → Elt F .bf16) (ix2 n q) := by
  obtain ⟨e0, e1⟩ := idx_5 t
  unfold iblk
  show (V m c main_v10 : S256x4096.Idx → Elt F .bf16) (((cfg0.win 5).blk t).view.emb (ix2 n q)) = _
  refine congrArg (V m c main_v10 : S256x4096.Idx → Elt F .bf16) ?_
  funext a; apply Fin.ext
  match a with
  | ⟨0, _⟩ => show win0_5.index t (0 : Fin 2) * 256 + 1 * n.val = n.val; omega
  | ⟨1, _⟩ => show win0_5.index t (1 : Fin 2) * 4096 + 1 * q.val = q.val; omega

/-- The bias block: entry `j` is the gate's row at column `256 · tile + j`. -/
theorem blk6 (t : Fin cfg0.N) (z z' : Fin 1) (j : Fin 256) :
    iblk m c 6 t (ix3 z z' j) = (V m c main_v7 : S4x1x4096.Idx → Elt F .f32) (ix3 (gate t) (0 : Fin 1) (tcol t j)) := by
  obtain ⟨e0, e1, e2⟩ := idx_6 t
  unfold iblk
  show (V m c main_v7 : S4x1x4096.Idx → Elt F .f32) (((cfg0.win 6).blk t).view.emb (ix3 z z' j)) = _
  refine congrArg (V m c main_v7 : S4x1x4096.Idx → Elt F .f32) ?_
  funext a; apply Fin.ext
  match a with
  | ⟨0, _⟩ => show win0_6.index t (0 : Fin 3) * 1 + 1 * z.val = t.val % 4; have := z.isLt; omega
  | ⟨1, _⟩ => show win0_6.index t (1 : Fin 3) * 1 + 1 * z'.val = 0; have := z'.isLt; omega
  | ⟨2, _⟩ => show win0_6.index t (2 : Fin 3) * 256 + 1 * j.val = 256 * (t.val / 4) + j.val; omega

/-- The old cell state's block: row `n`, column `j` is the array at row `n`, column `256 · tile + j`. -/
theorem blk7 (t : Fin cfg0.N) (n : Fin 256) (j : Fin 256) :
    iblk m c 7 t (ix2 n j) = (V m c main_v4 : S256x4096.Idx → Elt F .f32) (ix2 n (tcol t j)) := by
  obtain ⟨e0, e1⟩ := idx_7 t
  unfold iblk
  show (V m c main_v4 : S256x4096.Idx → Elt F .f32) (((cfg0.win 7).blk t).view.emb (ix2 n j)) = _
  refine congrArg (V m c main_v4 : S256x4096.Idx → Elt F .f32) ?_
  funext a; apply Fin.ext
  match a with
  | ⟨0, _⟩ => show win0_7.index t (0 : Fin 2) * 256 + 1 * n.val = n.val; omega
  | ⟨1, _⟩ => show win0_7.index t (1 : Fin 2) * 256 + 1 * j.val = 256 * (t.val / 4) + j.val; omega

end Cert.KernelIdeal.BlockReads

end
-- ==== Proof.LibMatmulRows.lean ====
/-
  A matrix product that contracts the SECOND axis of both operands, an `[m, k]` matrix with the transpose of an
  `[n, k]` one, accumulated into the zero splat and read at an entry at the ideal values: entry `(p, j)` is the
  inner product of row `p` of the left operand with row `j` of the right one. General in the extents.
-/
import Idealize.ShloMosaic.Lib.Pipeline.Value
import Idealize.ShloMosaic.Lib.ValueIdx
import Idealize.ShloMosaic.PureOps.Ideal.Laws

noncomputable section

open scoped BigOperators

namespace Cert.LibMatmulRows

open Idealize.ShloMosaic Idealize.ShloMosaic.ValueIdx

variable {m k n : ℕ}

/-- The dimension numbers: each operand's second axis contracted, its first kept, no batch axes. -/
abbrev rowsDims (w : DotDims.WF ⟨2, ![m, k]⟩ ⟨2, ![n, k]⟩ ⟨2, ![m, n]⟩ [1] [1] [0] [0] [] []) :
    DotDims ⟨2, ![m, k]⟩ ⟨2, ![n, k]⟩ ⟨2, ![m, n]⟩ := ⟨[1], [1], [0], [0], [], [], w⟩

variable (w : DotDims.WF ⟨2, ![m, k]⟩ ⟨2, ![n, k]⟩ ⟨2, ![m, n]⟩ [1] [1] [0] [0] [] [])

/-- The left operand is read in the row the result's first coordinate names, -/
theorem lhs_row (i : (⟨2, ![m, n]⟩ : Shape).Idx) (q : (rowsDims w).contr.Idx) :
    ((rowsDims w).lhsIdx i q 0).val = (i 0).val := by
  unfold DotDims.lhsIdx
  rw [dif_neg (show ¬((0 : Fin 2) ∈ (rowsDims w).lhsBatch) from List.not_mem_nil),
    dif_pos (show (0 : Fin 2) ∈ (rowsDims w).lhsNonContracting from List.mem_singleton.mpr rfl)]
  rfl

/-- and the right operand in the row the result's second coordinate names. -/
theorem rhs_row (i : (⟨2, ![m, n]⟩ : Shape).Idx) (q : (rowsDims w).contr.Idx) :
    ((rowsDims w).rhsIdx i q 0).val = (i 1).val := by
  unfold DotDims.rhsIdx
  rw [dif_neg (show ¬((0 : Fin 2) ∈ (rowsDims w).rhsBatch) from List.not_mem_nil),
    dif_pos (show (0 : Fin 2) ∈ (rowsDims w).rhsNonContracting from List.mem_singleton.mpr rfl)]
  rfl

/-- The product of an `[m, k]` matrix with the transpose of an `[n, k]` matrix (each operand's second axis
    contracted, no batch axes) accumulated into the zero splat, read at `(p, j)`: the sum over the contracted
    coordinate `c` of `A (p, c) · B (j, c)`. -/
theorem matmul_rows_zero_apply {φ₁ φ₂ : FTy} (prec : Option ContractPrecision)
    (A : FVec Ideal ⟨2, ![m, k]⟩ φ₁) (B : FVec Ideal ⟨2, ![n, k]⟩ φ₂) (p : Fin m) (j : Fin n) :
    matmul (rowsDims w) prec A B (constant (F := Ideal) ⟨2, ![m, n]⟩ .f32 0x00000000#32) (ix2 p j)
      = ∑ c : Fin k, A (ix2 p c) * B (ix2 j c) := by
  show FloatOps.matmul _ prec A B _ (ix2 p j) = _
  rw [Ideal.matmul_constant_zero_apply, ← Equiv.sum_comp (contrEquiv1 (rowsDims w) k rfl rfl).symm]
  refine Finset.sum_congr rfl fun c _ => ?_
  have c2 := contrEquiv1_symm_val (rowsDims w) k rfl rfl c
  have l2 : (rowsDims w).lhsIdx (ix2 p j) ((contrEquiv1 (rowsDims w) k rfl rfl).symm c) = ix2 p c :=
    funext fun ax => Fin.ext (by
      match ax with
      | ⟨0, _⟩ => exact lhs_row w _ _
      | ⟨1, _⟩ => exact ((rowsDims w).lhsIdx_val_of_single rfl _ _).trans c2)
  have r2 : (rowsDims w).rhsIdx (ix2 p j) ((contrEquiv1 (rowsDims w) k rfl rfl).symm c) = ix2 j c :=
    funext fun ax => Fin.ext (by
      match ax with
      | ⟨0, _⟩ => exact rhs_row w _ _
      | ⟨1, _⟩ => exact ((rowsDims w).rhsIdx_val_of_single rfl _ _).trans c2)
  rw [l2, r2]

end Cert.LibMatmulRows

end
-- ==== Proof.LibRowForms.lean ====
/-
  Three layout forms of a kernel body read at an index given by coordinates, general in the extents: a one-row
  matrix repeated down the rows ([1, b] → [a, b]), one column cut out of a matrix ([a, b] → [a, 1] at a column
  offset), and a one-hot row built from a lane counter (the counter compared with a constant, widened, and converted
  to a float at the ideal values): one where the lane is the constant, zero elsewhere.
-/
import Idealize.ShloMosaic.Lib.Pipeline.Value
import Idealize.ShloMosaic.Lib.ValueIdx
import Idealize.ShloMosaic.Lib.KernelVsHost
import Idealize.ShloMosaic.PureOps.Ideal.Laws

noncomputable section

namespace Cert.LibRowForms

open Idealize.ShloMosaic Idealize.ShloMosaic.ValueIdx

variable {α : Type}

/-- A `[1, b]` row broadcast to `[a, b]` reads, at `(p, c)`, the row's entry of column `c` (its unit coordinate
    written `u`, whatever it is). -/
theorem broadcastTo_1b_ab_apply {a b : ℕ} (v : (⟨2, ![1, b]⟩ : Shape).Idx → α) (h : (⟨2, ![1, b]⟩ : Shape).Broadcasts ⟨2, ![a, b]⟩)
    (p : Fin a) (c : Fin b) (u : Fin 1) : broadcastTo ⟨2, ![a, b]⟩ v h (ix2 p c) = v (ix2 u c) := by
  refine broadcastTo_apply v h (ix2 p c) (ix2 u c) fun ax => ?_
  match ax with
  | ⟨0, _⟩ =>
    show u.val = if (1 : ℕ) = 1 then 0 else p.val
    rw [if_pos rfl]; omega
  | ⟨1, _⟩ =>
    show c.val = if b = 1 then 0 else c.val
    split
    · have := c.isLt; omega
    · rfl

/-- The column at offset `o` cut out of an `[a, b]` matrix reads, at `(p, u)`, the matrix at `(p, o)`. -/
theorem sliceColumn_apply {a b : ℕ} (o : ℕ) (ho : o < b) (x : (⟨2, ![a, b]⟩ : Shape).Idx → α)
    (h : (⟨2, ![a, b]⟩ : Shape).Slices ![0, o] ⟨2, ![a, 1]⟩) (p : Fin a) (u : Fin 1) :
    extractStridedSlice ⟨2, ![a, 1]⟩ ![0, o] x h (ix2 p u) = x (ix2 p ⟨o, ho⟩) := by
  refine extractStridedSlice_apply ![0, o] x h (ix2 p u) (ix2 p ⟨o, ho⟩) fun ax => ?_
  match ax with
  | ⟨0, _⟩ => show p.val = 0 + p.val; omega
  | ⟨1, _⟩ => show o = o + u.val; omega

/-- A lane counter below `n ≤ 2³²` compared with the constant `j < n`, widened to 32 bits and converted: one at
    lane `j`, zero elsewhere. -/
theorem oneHot_word (i j : ℕ) (hi : i < 2 ^ 32) (hj : j < 2 ^ 32) :
    FloatOps.sitofp (F := Ideal) .f32 ((IntOp.cmpi .eq (BitVec.ofNat 32 i) (BitVec.ofNat 32 j)).setWidth 32)
      = if i = j then (1 : EReal) else 0 := by
  show ((((BitVec.ofBool (BitVec.ofNat 32 i == BitVec.ofNat 32 j)).setWidth 32).toInt : ℝ) : EReal) = _
  rw [toInt_setWidth_bit]
  by_cases h : i = j
  · subst h
    rw [if_pos rfl, beq_self_eq_true]
    simp
  · have e : (BitVec.ofNat 32 i == BitVec.ofNat 32 j) = false := by
      rw [beq_eq_false_iff_ne]
      intro e
      apply h
      have := congrArg BitVec.toNat e
      rw [BitVec.toNat_ofNat, BitVec.toNat_ofNat, Nat.mod_eq_of_lt hi, Nat.mod_eq_of_lt hj] at this
      exact this
    rw [e, if_neg h]
    simp

end Cert.LibRowForms

end
-- ==== Proof.PayloadIdx.lean ====
/-
  The kernel body's three stored values read at an index, at the ideal values.

  The first is the gate pre-activation tile: row `r` of each of the three `[256, ·]` activation matrices against row
  `col` of the matching weight tile (its leading unit axis dropped), the first inner product minus the second plus the
  third, plus entry `col` of the bias row. The second is the new cell state, the forget gate times the old cell plus the
  input gate times the candidate; the third is the new hidden state, the output gate times the hyperbolic tangent of
  the new cell. Rounding to the narrower format is the identity on the extended reals, so each matrix product is the
  plain sum of products.
-/
import proofs.«164890_j54468775248255_2_alg».proof.Proof.Gen.KernelIdeal.Skeleton
import proofs.«164890_j54468775248255_2_alg».proof.Proof.LibMatmulRows
import proofs.«164890_j54468775248255_2_alg».proof.Proof.LibRowForms
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayloadIdx

open Cert.KernelIdeal Cert.KernelIdeal.Gen Idealize.ShloMosaic Idealize.ShloMosaic.ValueIdx

/-! ## The matrix products -/

/-- A `[256, 512]` matrix against the transpose of a `[256, 512]` one, accumulated into zero, at `(r, col)`: the inner
    product of row `r` of the first with row `col` of the second. -/
theorem matmul512_apply (A B : FVec Ideal S256x512 .bf16) (r col : Fin 256) :
    matmul dot_S256x512_S256x512_S256x256_1_1_0_0_n_n none A B (constant (F := Ideal) S256x256 .f32 0x00000000#32) (ix2 r col)
      = ∑ k : Fin 512, A (ix2 r k) * B (ix2 col k) :=
  LibMatmulRows.matmul_rows_zero_apply (m := 256) (k := 512) (n := 256)
    Facts₀.dot_S256x512_S256x512_S256x256_1_1_0_0_n_n_wf none A B r col

/-- The same with `4096` contracted columns. -/
theorem matmul4096_apply (A B : FVec Ideal S256x4096 .bf16) (r col : Fin 256) :
    matmul dot_S256x4096_S256x4096_S256x256_1_1_0_0_n_n none A B (constant (F := Ideal) S256x256 .f32 0x00000000#32) (ix2 r col)
      = ∑ k : Fin 4096, A (ix2 r k) * B (ix2 col k) :=
  LibMatmulRows.matmul_rows_zero_apply (m := 256) (k := 4096) (n := 256)
    Facts₀.dot_S256x4096_S256x4096_S256x256_1_1_0_0_n_n_wf none A B r col

/-- An activation matrix (through an identity cast) against a weight tile with its unit axis dropped and narrowed, at
    `(r, col)`: the inner product of row `r` of the activations with row `col` of the tile. -/
theorem gate512_apply (A : FVec Ideal S256x512 .bf16) (W : FVec Ideal S1x256x512 .f32)
    (hid : S256x512.ShapeCasts S256x512) (hdrop : S1x256x512.ShapeCasts S256x512) (hb : FTy.bits .bf16 < FTy.bits .f32)
    (r col : Fin 256) :
    matmul dot_S256x512_S256x512_S256x256_1_1_0_0_n_n none (shapeCast S256x512 A hid)
        (truncf .bf16 (shapeCast S256x512 W hdrop) hb) (constant (F := Ideal) S256x256 .f32 0x00000000#32) (ix2 r col)
      = ∑ k : Fin 512, A (ix2 r k) * W (ix3 (0 : Fin 1) col k) :=
  (matmul512_apply _ _ r col).trans (Finset.sum_congr rfl fun k _ => by
    rw [shapeCast_self, truncf_apply, shapeCast_1ab_ab_apply])

/-- The same with `4096` contracted columns. -/
theorem gate4096_apply (A : FVec Ideal S256x4096 .bf16) (W : FVec Ideal S1x256x4096 .f32)
    (hid : S256x4096.ShapeCasts S256x4096) (hdrop : S1x256x4096.ShapeCasts S256x4096) (hb : FTy.bits .bf16 < FTy.bits .f32)
    (r col : Fin 256) :
    matmul dot_S256x4096_S256x4096_S256x256_1_1_0_0_n_n none (shapeCast S256x4096 A hid)
        (truncf .bf16 (shapeCast S256x4096 W hdrop) hb) (constant (F := Ideal) S256x256 .f32 0x00000000#32) (ix2 r col)
      = ∑ k : Fin 4096, A (ix2 r k) * W (ix3 (0 : Fin 1) col k) :=
  (matmul4096_apply _ _ r col).trans (Finset.sum_congr rfl fun k _ => by
    rw [shapeCast_self, truncf_apply, shapeCast_1ab_ab_apply])

/-! ## The bias row -/

/-- The `[1, 1, 256]` bias with its leading unit axis dropped and repeated down `256` rows reads, at `(r, col)`, its
    entry of column `col`. -/
theorem bias_apply (b : FVec Ideal S1x1x256 .f32) (hdrop : S1x1x256.ShapeCasts S1x256) (hbc : S1x256.Broadcasts S256x256)
    (r col : Fin 256) :
    broadcastTo S256x256 (shapeCast S1x256 b hdrop) hbc (ix2 r col) = b (ix3 (0 : Fin 1) (0 : Fin 1) col) :=
  (LibRowForms.broadcastTo_1b_ab_apply (a := 256) (b := 256) _ hbc r col (0 : Fin 1)).trans
    (shapeCast_1ab_ab_apply (a := 1) (b := 256) b hdrop (0 : Fin 1) col)

/-! ## The three stored values -/

/-- The gate pre-activation tile at `(u, r, col)`. -/
theorem pay1_apply (v0 v3 : Vec Ideal S1x256x512 .f32) (v6 : Vec Ideal S1x256x4096 .f32) (v9 v11 : Vec Ideal S256x512 .bf16)
    (v13 : Vec Ideal S256x4096 .bf16) (v20 : Vec Ideal S1x1x256 .f32) (u : Fin 1) (r col : Fin 256) :
    k0_pay1 (F := Ideal) v0 v3 v6 v9 v11 v13 v20 (ix3 u r col)
      = ((∑ k : Fin 512, v9 (ix2 r k) * v0 (ix3 (0 : Fin 1) col k)) - (∑ k : Fin 512, v11 (ix2 r k) * v3 (ix3 (0 : Fin 1) col k))
          + ∑ k : Fin 4096, v13 (ix2 r k) * v6 (ix3 (0 : Fin 1) col k)) + v20 (ix3 (0 : Fin 1) (0 : Fin 1) col) := by
  unfold k0_pay1
  refine (shapeCast_ab_1ab_apply (a := 256) (b := 256) _ _ u r col).trans ?_
  rw [addf_apply, addf_apply, subf_apply]
  exact congrArg₂ (· + ·)
    (congrArg₂ (· + ·)
      (congrArg₂ (· - ·) (gate512_apply v9 v0 _ _ _ r col) (gate512_apply v11 v3 _ _ _ r col))
      (gate4096_apply v13 v6 _ _ _ r col))
    (bias_apply v20 _ _ r col)

/-- The new cell state at `(r, col)`. -/
theorem pay2_apply (v31 v34 v40 : Vec Ideal S1x256x256 .f32) (v43 : Vec Ideal S256x256 .f32) (r col : Fin 256) :
    k0_pay2 (F := Ideal) v31 v34 v40 v43 (ix2 r col)
      = Ideal.logistic (v31 (ix3 (0 : Fin 1) r col)) * v43 (ix2 r col)
          + Ideal.logistic (v34 (ix3 (0 : Fin 1) r col)) * Ideal.tanh (v40 (ix3 (0 : Fin 1) r col)) := by
  unfold k0_pay2
  rw [addf_apply, mulf_apply, mulf_apply]
  show Ideal.logistic (shapeCast S256x256 v31 _ (ix2 r col)) * shapeCast S256x256 v43 _ (ix2 r col)
      + Ideal.logistic (shapeCast S256x256 v34 _ (ix2 r col)) * Ideal.tanh (shapeCast S256x256 v40 _ (ix2 r col)) = _
  rw [shapeCast_self, shapeCast_1ab_ab_apply, shapeCast_1ab_ab_apply, shapeCast_1ab_ab_apply]

/-- The new hidden state at `(r, col)`. -/
theorem pay3_apply (v31 v34 v37 v40 : Vec Ideal S1x256x256 .f32) (v43 : Vec Ideal S256x256 .f32) (r col : Fin 256) :
    k0_pay3 (F := Ideal) v31 v34 v37 v40 v43 (ix2 r col)
      = Ideal.logistic (v37 (ix3 (0 : Fin 1) r col)) * Ideal.tanh (k0_pay2 (F := Ideal) v31 v34 v40 v43 (ix2 r col)) := by
  unfold k0_pay3
  rw [mulf_apply]
  show Ideal.logistic (shapeCast S256x256 v37 _ (ix2 r col)) * Ideal.tanh (k0_pay2 (F := Ideal) v31 v34 v40 v43 (ix2 r col)) = _
  rw [shapeCast_1ab_ab_apply]

end Cert.KernelIdeal.PayloadIdx

end
-- ==== Proof.GateSpec.lean ====
/-
  The gated matrix-state cell both programs compute, entry by entry over the extended reals.

  Inputs: an input row block `x` [256, 512], a hidden vector `hu` [256, 512], a matrix state `hs` and a cell state
  `hc` [256, 64, 64]; for each of four gates `g` three weight families `Wd`, `Ww` [4, 64, 64, 512] and
  `Wu` [4, 64, 64, 64, 64] and three biases [4, 64, 64].  For batch row `n` and state entry `(a, b)` the gate's
  pre-activation is

    pre g n a b = Σ_u hu(n,u)·Ww(g,a,b,u) − Σ_i x(n,i)·Wd(g,a,b,i) + Σ_q hs(n,q)·Wu(g,a,b,q) + bias(g,a,b),

  the last sum over the 4096 entries `q = (q / 64, q % 64)` of the matrix state in row-major order.  The new cell
  state is `σ(pre 0)·hc + σ(pre 1)·tanh(pre 3)` and the new matrix state `σ(pre 2)·tanh(cell)`, `σ` the logistic
  function.  The bias is a sum of three terms; the two programs add them in different orders (`bias_comm`).
-/
import Idealize.ShloMosaic.PureOps.Ideal
import Idealize.ShloMosaic.Lib.ValueIdx

noncomputable section

open scoped BigOperators

namespace Cert.GateSpec

open Idealize.ShloMosaic Idealize.ShloMosaic.ValueIdx

abbrev M2 : Shape := ⟨2, ![256, 512]⟩
abbrev M3 : Shape := ⟨3, ![256, 64, 64]⟩
abbrev W4 : Shape := ⟨4, ![4, 64, 64, 512]⟩
abbrev W5 : Shape := ⟨5, ![4, 64, 64, 64, 64]⟩
abbrev B3 : Shape := ⟨3, ![4, 64, 64]⟩

/-- Entry `q` of a 64 × 64 matrix listed row by row: its row and its column. -/
abbrev hi (q : Fin 4096) : Fin 64 := ⟨q.val / 64, by have := q.isLt; omega⟩
abbrev lo (q : Fin 4096) : Fin 64 := ⟨q.val % 64, by omega⟩

variable (x hu : FVec Ideal M2 .f32) (hs hc : FVec Ideal M3 .f32) (Wd Ww : FVec Ideal W4 .f32) (Wu : FVec Ideal W5 .f32)
  (Bd Bu Bw : FVec Ideal B3 .f32)

/-- The three contractions of gate `g` at batch row `n` and state entry `(a, b)`, combined. -/
def lin (g : Fin 4) (n : Fin 256) (a b : Fin 64) : EReal :=
  (∑ u : Fin 512, hu (ix2 n u) * Ww (ix4 g a b u)) - (∑ i : Fin 512, x (ix2 n i) * Wd (ix4 g a b i))
    + ∑ q : Fin 4096, hs (ix3 n (hi q) (lo q)) * Wu (ix5 g a b (hi q) (lo q))

/-- The gate's pre-activation: the contractions plus the three biases. -/
def pre (g : Fin 4) (n : Fin 256) (a b : Fin 64) : EReal :=
  lin x hu hs Wd Ww Wu g n a b + ((Bd (ix3 g a b) + Bu (ix3 g a b)) + Bw (ix3 g a b))

/-- The new cell state. -/
def cell (n : Fin 256) (a b : Fin 64) : EReal :=
  Ideal.logistic (pre x hu hs Wd Ww Wu Bd Bu Bw 0 n a b) * hc (ix3 n a b)
    + Ideal.logistic (pre x hu hs Wd Ww Wu Bd Bu Bw 1 n a b) * Ideal.tanh (pre x hu hs Wd Ww Wu Bd Bu Bw 3 n a b)

/-- The new matrix state. -/
def state (n : Fin 256) (a b : Fin 64) : EReal :=
  Ideal.logistic (pre x hu hs Wd Ww Wu Bd Bu Bw 2 n a b) * Ideal.tanh (cell x hu hs hc Wd Ww Wu Bd Bu Bw n a b)

/-- Three extended reals added in either of the two orders the programs use. -/
theorem bias_comm (d u w : EReal) : (w + d) + u = (d + u) + w := by
  rw [add_comm w d, add_assoc, add_comm w u, ← add_assoc]

end Cert.GateSpec

end
-- ==== Proof.HostStages.lean ====
/-
  The arrays the kernel's region finds, read entry by entry.  Before the region the host lists each weight family
  with its two state axes joined into one of 4096 entries (entry `p` is row `p / 64`, column `p % 64`), lists the
  matrix state and the cell state the same way, adds the three biases and lists the sum likewise, and narrows the
  input row, the hidden vector and the listed matrix state to a shorter float format, which changes no ideal value.
-/
import proofs.«164890_j54468775248255_2_alg».proof.Proof.Gen.KernelIdeal.Frame
import proofs.«164890_j54468775248255_2_alg».proof.Proof.GateSpec
import Idealize.ShloMosaic.Lib.StableHlo.Run
import Idealize.ShloMosaic.Lib.Pipeline.Value
import Idealize.ShloMosaic.Lib.ValueIdx

noncomputable section

namespace Cert.KernelIdeal.HostStages

open Cert.KernelIdeal Cert.KernelIdeal.Gen Idealize.ShloMosaic Idealize.ShloMosaic.ValueIdx
open Idealize.ShloMosaic.TcCoe Idealize.SL.Sem
open Cert.GateSpec (hi lo)

/-! ## A row-major listing read at an index -/

/-- A weight family `[4, 64, 64, 512]` listed as `[4, 4096, 512]`. -/
theorem cast_W4 (x : S4x64x64x512.Idx → EReal) (h : S4x64x64x512.ShapeCasts S4x4096x512) (g : Fin 4) (p : Fin 4096)
    (u : Fin 512) : shapeCast S4x4096x512 x h (ix3 g p u) = x (ix4 g (hi p) (lo p) u) :=
  shapeCast_apply x h _ _ (by
    have hp := p.isLt
    rw [Shape.rowMajor_val_four, Shape.rowMajor_val_three]
    show ((g.val * 64 + p.val / 64) * 64 + p.val % 64) * 512 + u.val = (g.val * 4096 + p.val) * 512 + u.val
    omega)

/-- The weight family `[4, 64, 64, 64, 64]` listed as `[4, 4096, 4096]`. -/
theorem cast_W5 (x : S4x64x64x64x64.Idx → EReal) (h : S4x64x64x64x64.ShapeCasts S4x4096x4096) (g : Fin 4)
    (p q : Fin 4096) : shapeCast S4x4096x4096 x h (ix3 g p q) = x (ix5 g (hi p) (lo p) (hi q) (lo q)) :=
  shapeCast_apply x h _ _ (by
    have hp := p.isLt; have hq := q.isLt
    rw [Shape.rowMajor_val_five, Shape.rowMajor_val_three]
    show (((g.val * 64 + p.val / 64) * 64 + p.val % 64) * 64 + q.val / 64) * 64 + q.val % 64
      = (g.val * 4096 + p.val) * 4096 + q.val
    omega)

/-- A state `[256, 64, 64]` listed as `[256, 4096]`. -/
theorem cast_M3 (x : S256x64x64.Idx → EReal) (h : S256x64x64.ShapeCasts S256x4096) (n : Fin 256) (p : Fin 4096) :
    shapeCast S256x4096 x h (ix2 n p) = x (ix3 n (hi p) (lo p)) :=
  shapeCast_apply x h _ _ (by
    have hp := p.isLt
    rw [Shape.rowMajor_val_three, Shape.rowMajor_val_two]
    show (n.val * 64 + p.val / 64) * 64 + p.val % 64 = n.val * 4096 + p.val
    omega)

/-- A bias `[4, 64, 64]` listed as `[4, 1, 4096]`. -/
theorem cast_B3 (x : S4x64x64.Idx → EReal) (h : S4x64x64.ShapeCasts S4x1x4096) (g : Fin 4) (z : Fin 1) (p : Fin 4096) :
    shapeCast S4x1x4096 x h (ix3 g z p) = x (ix3 g (hi p) (lo p)) :=
  shapeCast_apply x h _ _ (by
    have hp := p.isLt; have hz : z.val = 0 := by omega
    rw [Shape.rowMajor_val_three, Shape.rowMajor_val_three]
    show (g.val * 64 + p.val / 64) * 64 + p.val % 64 = (g.val * 1 + z.val) * 4096 + p.val
    omega)

/-! ## What the region finds -/

variable (m : (ℓ : Loc nD τ sig) → Buf (Elt Ideal) ℓ) (c : Dev nD)

set_option quotPrecheck false in
local notation "A0" => (m ((c : Thread nD τ).loc main_arg0) : S256x512.Idx → EReal)
set_option quotPrecheck false in
local notation "A1" => (m ((c : Thread nD τ).loc main_arg1) : S256x64x64.Idx → EReal)
set_option quotPrecheck false in
local notation "A2" => (m ((c : Thread nD τ).loc main_arg2) : S256x512.Idx → EReal)
set_option quotPrecheck false in
local notation "A3" => (m ((c : Thread nD τ).loc main_arg3) : S256x64x64.Idx → EReal)
set_option quotPrecheck false in
local notation "A4" => (m ((c : Thread nD τ).loc main_arg4) : S4x64x64x512.Idx → EReal)
set_option quotPrecheck false in
local notation "A5" => (m ((c : Thread nD τ).loc main_arg5) : S4x64x64x64x64.Idx → EReal)
set_option quotPrecheck false in
local notation "A6" => (m ((c : Thread nD τ).loc main_arg6) : S4x64x64x512.Idx → EReal)
set_option quotPrecheck false in
local notation "A7" => (m ((c : Thread nD τ).loc main_arg7) : S4x64x64.Idx → EReal)
set_option quotPrecheck false in
local notation "A8" => (m ((c : Thread nD τ).loc main_arg8) : S4x64x64.Idx → EReal)
set_option quotPrecheck false in
local notation "A9" => (m ((c : Thread nD τ).loc main_arg9) : S4x64x64.Idx → EReal)

/-- Addition of extended reals, written so that entries of the launch memory, whose element type is the extended reals
only after unfolding, can be added as they stand. -/
local infixl:65 " +ₑ " => @HAdd.hAdd EReal EReal EReal instHAdd

/-- The hidden vector's weights, listed: entry `(g, p, u)` is the weight of hidden entry `u` for state entry `p`. -/
theorem Ww_flat (g : Fin 4) (p : Fin 4096) (u : Fin 512) :
    (V m c main_v1 : S4x4096x512.Idx → EReal) (ix3 g p u) = A6 (ix4 g (hi p) (lo p) u) := by
  have e : (V m c main_v1 : S4x4096x512.Idx → EReal) = shapeCast S4x4096x512 A6 shapeCasts_S4x64x64x512_S4x4096x512 := by
    show StableHlo.after hostOps0 (fun b => m (c, b)) (Proc.devRef .tc main_v1) = _
    after_results; rfl
  rw [e]; exact cast_W4 _ _ g p u

/-- The input row's weights, listed. -/
theorem Wd_flat (g : Fin 4) (p : Fin 4096) (u : Fin 512) :
    (V m c main_v0 : S4x4096x512.Idx → EReal) (ix3 g p u) = A4 (ix4 g (hi p) (lo p) u) := by
  have e : (V m c main_v0 : S4x4096x512.Idx → EReal) = shapeCast S4x4096x512 A4 shapeCasts_S4x64x64x512_S4x4096x512 := by
    show StableHlo.after hostOps0 (fun b => m (c, b)) (Proc.devRef .tc main_v0) = _
    after_results; rfl
  rw [e]; exact cast_W4 _ _ g p u

/-- The matrix state's weights, listed: entry `(g, p, q)` is the weight of state entry `q` for state entry `p`. -/
theorem Wu_flat (g : Fin 4) (p q : Fin 4096) :
    (V m c main_v2 : S4x4096x4096.Idx → EReal) (ix3 g p q) = A5 (ix5 g (hi p) (lo p) (hi q) (lo q)) := by
  have e : (V m c main_v2 : S4x4096x4096.Idx → EReal)
      = shapeCast S4x4096x4096 A5 shapeCasts_S4x64x64x64x64_S4x4096x4096 := by
    show StableHlo.after hostOps0 (fun b => m (c, b)) (Proc.devRef .tc main_v2) = _
    after_results; rfl
  rw [e]; exact cast_W5 _ _ g p q

/-- The cell state, listed. -/
theorem hc_flat (n : Fin 256) (p : Fin 4096) :
    (V m c main_v4 : S256x4096.Idx → EReal) (ix2 n p) = A3 (ix3 n (hi p) (lo p)) := by
  have e : (V m c main_v4 : S256x4096.Idx → EReal) = shapeCast S256x4096 A3 shapeCasts_S256x64x64_S256x4096 := by
    show StableHlo.after hostOps0 (fun b => m (c, b)) (Proc.devRef .tc main_v4) = _
    after_results; rfl
  rw [e]; exact cast_M3 _ _ n p

/-- The three biases, added and listed. -/
theorem bias_flat (g : Fin 4) (z : Fin 1) (p : Fin 4096) :
    (V m c main_v7 : S4x1x4096.Idx → EReal) (ix3 g z p)
      = (A7 (ix3 g (hi p) (lo p)) +ₑ A8 (ix3 g (hi p) (lo p))) +ₑ A9 (ix3 g (hi p) (lo p)) := by
  have e : (V m c main_v7 : S4x1x4096.Idx → EReal)
      = shapeCast S4x1x4096 (fun i => (A7 i +ₑ A8 i) +ₑ A9 i) shapeCasts_S4x64x64_S4x1x4096 := by
    show StableHlo.after hostOps0 (fun b => m (c, b)) (Proc.devRef .tc main_v7) = _
    after_results; rfl
  rw [e]; exact cast_B3 _ _ g z p

/-- The hidden vector, narrowed: the same ideal values. -/
theorem hu_trunc (n : Fin 256) (u : Fin 512) : (V m c main_v8 : S256x512.Idx → EReal) (ix2 n u) = A2 (ix2 n u) := by
  have e : (V m c main_v8 : S256x512.Idx → EReal) = A2 := by
    show StableHlo.after hostOps0 (fun b => m (c, b)) (Proc.devRef .tc main_v8) = _
    after_results; rfl
  rw [e]

/-- The input row, narrowed: the same ideal values. -/
theorem x_trunc (n : Fin 256) (i : Fin 512) : (V m c main_v9 : S256x512.Idx → EReal) (ix2 n i) = A0 (ix2 n i) := by
  have e : (V m c main_v9 : S256x512.Idx → EReal) = A0 := by
    show StableHlo.after hostOps0 (fun b => m (c, b)) (Proc.devRef .tc main_v9) = _
    after_results; rfl
  rw [e]

/-- The matrix state, listed and narrowed. -/
theorem hs_trunc (n : Fin 256) (q : Fin 4096) :
    (V m c main_v10 : S256x4096.Idx → EReal) (ix2 n q) = A1 (ix3 n (hi q) (lo q)) := by
  have e : (V m c main_v10 : S256x4096.Idx → EReal) = shapeCast S256x4096 A1 shapeCasts_S256x64x64_S256x4096 := by
    show StableHlo.after hostOps0 (fun b => m (c, b)) (Proc.devRef .tc main_v10) = _
    after_results; rfl
  rw [e]; exact cast_M3 _ _ n q

end Cert.KernelIdeal.HostStages

end
-- ==== Proof.TileValue.lean ====
import proofs.«164890_j54468775248255_2_alg».proof.Proof.BlockReads
import proofs.«164890_j54468775248255_2_alg».proof.Proof.PayloadIdx
import proofs.«164890_j54468775248255_2_alg».proof.Proof.GateSpec
import proofs.«164890_j54468775248255_2_alg».proof.Proof.HostStages

set_option maxRecDepth 16384

/-
  One column tile of the two results, entry by entry, as the gated cell of the argument arrays.

  At a grid point the stored pre-activation block is the three products of the point's activation and weight blocks,
  combined, plus the bias row.  Each block entry is an entry of the array the region finds, and each such array is an
  argument array listed row by row; so entry (r, col) of the block of gate g and tile T is the gate's pre-activation
  at batch row r and state entry p = 256 · T + col, read as row p / 64, column p % 64.  The four points of a tile share
  the tile and run through the four gates, so the tile's new cell state and new matrix state are the cell's at the
  same entries.
-/
noncomputable section

open scoped BigOperators

namespace Cert.KernelIdeal.TileValue

open Cert.KernelIdeal Cert.KernelIdeal.Gen Cert.KernelIdeal.Body Cert.KernelIdeal.BlockReads

open Idealize.ShloMosaic Idealize.ShloMosaic.ValueIdx Idealize.ShloMosaic.TcCoe

open Cert.GateSpec (hi lo)

/-! ## The four points of a tile -/

/-- Gate `g`'s point of the tile of `t` has gate `g` … -/
theorem gate_gp (t : Fin cfg0.N) (g : ℕ) (hg : g < 4) : gate (gp t g hg) = ⟨g, hg⟩ :=
  Fin.ext (by show (4 * (t.val / 4) + g) % 4 = g; omega)

/-- … and the tile's columns. -/
theorem tcol_gp (t : Fin cfg0.N) (g : ℕ) (hg : g < 4) (j : Fin 256) : tcol (gp t g hg) j = tcol t j :=
  Fin.ext (by show 256 * ((4 * (t.val / 4) + g) / 4) + j.val = 256 * (t.val / 4) + j.val; omega)

/-! ## The pre-activation block -/

/-- Entry `(r, col)` of the block point `s` stores: the pre-activation of the point's gate at batch row `r` and the
    state entry the tile's column `col` lists. -/
theorem preAt_apply (m : (ℓ : Loc nD τ sig) → Buf (Elt Ideal) ℓ) (c : Dev nD) (s : Fin cfg0.N) (z : Fin 1) (r col : Fin 256) :
    Body.preAt m c s (ix3 z r col)
      = GateSpec.pre (m ((c : Thread nD τ).loc main_arg0)) (m ((c : Thread nD τ).loc main_arg2)) (m ((c : Thread nD τ).loc main_arg1)) (m ((c : Thread nD τ).loc main_arg4)) (m ((c : Thread nD τ).loc main_arg6)) (m ((c : Thread nD τ).loc main_arg5)) (m ((c : Thread nD τ).loc main_arg7)) (m ((c : Thread nD τ).loc main_arg8)) (m ((c : Thread nD τ).loc main_arg9))
          (gate s) r (hi (tcol s col)) (lo (tcol s col)) := by
  unfold Body.preAt
  refine (PayloadIdx.pay1_apply _ _ _ _ _ _ _ z r col).trans ?_
  unfold GateSpec.pre GateSpec.lin
  exact congrArg₂ (fun a b : EReal => a + b)
    (congrArg₂ (fun a b : EReal => a + b)
      (congrArg₂ (fun a b : EReal => a - b)
        (Finset.sum_congr rfl fun u _ => congrArg₂ (fun a b : EReal => a * b)
          ((blk3 m c s r u).trans (HostStages.hu_trunc m c r u))
          ((blk0 m c s (0 : Fin 1) col u).trans (HostStages.Ww_flat m c (gate s) (tcol s col) u)))
        (Finset.sum_congr rfl fun i _ => congrArg₂ (fun a b : EReal => a * b)
          ((blk4 m c s r i).trans (HostStages.x_trunc m c r i))
          ((blk1 m c s (0 : Fin 1) col i).trans (HostStages.Wd_flat m c (gate s) (tcol s col) i))))
      (Finset.sum_congr rfl fun q _ => congrArg₂ (fun a b : EReal => a * b)
        ((blk5 m c s r q).trans (HostStages.hs_trunc m c r q))
        ((blk2 m c s (0 : Fin 1) col q).trans (HostStages.Wu_flat m c (gate s) (tcol s col) q))))
    ((blk6 m c s (0 : Fin 1) (0 : Fin 1) col).trans (HostStages.bias_flat m c (gate s) (0 : Fin 1) (tcol s col)))

/-- The same at gate `g`'s point of the tile of `t`: gate `g`, the tile's entries. -/
theorem preAt_gp (m : (ℓ : Loc nD τ sig) → Buf (Elt Ideal) ℓ) (c : Dev nD) (t : Fin cfg0.N) (g : ℕ) (hg : g < 4)
    (z : Fin 1) (r col : Fin 256) :
    Body.preAt m c (gp t g hg) (ix3 z r col)
      = GateSpec.pre (m ((c : Thread nD τ).loc main_arg0)) (m ((c : Thread nD τ).loc main_arg2)) (m ((c : Thread nD τ).loc main_arg1)) (m ((c : Thread nD τ).loc main_arg4)) (m ((c : Thread nD τ).loc main_arg6)) (m ((c : Thread nD τ).loc main_arg5)) (m ((c : Thread nD τ).loc main_arg7)) (m ((c : Thread nD τ).loc main_arg8)) (m ((c : Thread nD τ).loc main_arg9))
          ⟨g, hg⟩ r (hi (tcol t col)) (lo (tcol t col)) := by
  refine (preAt_apply m c (gp t g hg) z r col).trans ?_
  rw [gate_gp, tcol_gp]

/-! ## The two results -/

/-- Entry `(r, col)` of the tile's new cell state. -/
theorem cellAt_apply (m : (ℓ : Loc nD τ sig) → Buf (Elt Ideal) ℓ) (c : Dev nD) (t : Fin cfg0.N) (r col : Fin 256) :
    Body.cellAt m c t (ix2 r col) = GateSpec.cell (m ((c : Thread nD τ).loc main_arg0)) (m ((c : Thread nD τ).loc main_arg2)) (m ((c : Thread nD τ).loc main_arg1)) (m ((c : Thread nD τ).loc main_arg3)) (m ((c : Thread nD τ).loc main_arg4)) (m ((c : Thread nD τ).loc main_arg6)) (m ((c : Thread nD τ).loc main_arg5)) (m ((c : Thread nD τ).loc main_arg7)) (m ((c : Thread nD τ).loc main_arg8)) (m ((c : Thread nD τ).loc main_arg9)) r (GateSpec.hi (BlockReads.tcol t col)) (GateSpec.lo (BlockReads.tcol t col)) := by
  unfold Body.cellAt
  refine (PayloadIdx.pay2_apply _ _ _ _ r col).trans ?_
  unfold GateSpec.cell
  exact congrArg₂ (fun a b : EReal => a + b)
    (congrArg₂ (fun a b : EReal => a * b)
      (congrArg Ideal.logistic (preAt_gp m c t 0 _ (0 : Fin 1) r col))
      ((blk7 m c t r col).trans (HostStages.hc_flat m c r (tcol t col))))
    (congrArg₂ (fun a b : EReal => a * b)
      (congrArg Ideal.logistic (preAt_gp m c t 1 _ (0 : Fin 1) r col))
      (congrArg Ideal.tanh (preAt_gp m c t 3 _ (0 : Fin 1) r col)))

/-- Entry `(r, col)` of the tile's new matrix state. -/
theorem stateAt_apply (m : (ℓ : Loc nD τ sig) → Buf (Elt Ideal) ℓ) (c : Dev nD) (t : Fin cfg0.N) (r col : Fin 256) :
    Body.stateAt m c t (ix2 r col) = GateSpec.state (m ((c : Thread nD τ).loc main_arg0)) (m ((c : Thread nD τ).loc main_arg2)) (m ((c : Thread nD τ).loc main_arg1)) (m ((c : Thread nD τ).loc main_arg3)) (m ((c : Thread nD τ).loc main_arg4)) (m ((c : Thread nD τ).loc main_arg6)) (m ((c : Thread nD τ).loc main_arg5)) (m ((c : Thread nD τ).loc main_arg7)) (m ((c : Thread nD τ).loc main_arg8)) (m ((c : Thread nD τ).loc main_arg9)) r (GateSpec.hi (BlockReads.tcol t col)) (GateSpec.lo (BlockReads.tcol t col)) := by
  unfold Body.stateAt
  refine (PayloadIdx.pay3_apply _ _ _ _ _ r col).trans ?_
  unfold GateSpec.state
  exact congrArg₂ (fun a b : EReal => a * b)
    (congrArg Ideal.logistic (preAt_gp m c t 2 _ (0 : Fin 1) r col))
    (congrArg Ideal.tanh (cellAt_apply m c t r col))

end Cert.KernelIdeal.TileValue

end
-- ==== Proof.IdealFinal.lean ====
import proofs.«164890_j54468775248255_2_alg».proof.Proof.IdealBody
import proofs.«164890_j54468775248255_2_alg».proof.Proof.TileValue
import Idealize.ShloMosaic.Lib.StableHlo.Run

set_option maxRecDepth 16384

/-
  From tiles to arrays.  Each of the two output windows is written back once per column tile, at the tile's last gate,
  with the tile's 256 columns of the new cell (matrix) state; the 16 tiles cover the 4096 columns, so each output
  array ends as the whole [256, 4096] state, entry (n, p) being the specification's entry (n, p / 64, p % 64).  The two
  lines after the region only re-read these arrays as [256, 64, 64], entry (n, a, b) from column a·64 + b.
-/
noncomputable section

namespace Cert.KernelIdeal.Final

open Cert.KernelIdeal Cert.KernelIdeal.Gen Cert.KernelIdeal.Body

open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The new cell state of core `c`'s arguments as a [256, 4096] array. -/
def cellFlat (c : Dev nD) : S256x4096.Idx → EReal := fun i =>
  GateSpec.cell (m ((c : Thread nD τ).loc main_arg0)) (m ((c : Thread nD τ).loc main_arg2)) (m ((c : Thread nD τ).loc main_arg1))
    (m ((c : Thread nD τ).loc main_arg3)) (m ((c : Thread nD τ).loc main_arg4)) (m ((c : Thread nD τ).loc main_arg6))
    (m ((c : Thread nD τ).loc main_arg5)) (m ((c : Thread nD τ).loc main_arg7)) (m ((c : Thread nD τ).loc main_arg8))
    (m ((c : Thread nD τ).loc main_arg9)) (i 0) (GateSpec.hi (i 1)) (GateSpec.lo (i 1))

/-- The new matrix state as a [256, 4096] array. -/
def stateFlat (c : Dev nD) : S256x4096.Idx → EReal := fun i =>
  GateSpec.state (m ((c : Thread nD τ).loc main_arg0)) (m ((c : Thread nD τ).loc main_arg2)) (m ((c : Thread nD τ).loc main_arg1))
    (m ((c : Thread nD τ).loc main_arg3)) (m ((c : Thread nD τ).loc main_arg4)) (m ((c : Thread nD τ).loc main_arg6))
    (m ((c : Thread nD τ).loc main_arg5)) (m ((c : Thread nD τ).loc main_arg7)) (m ((c : Thread nD τ).loc main_arg8))
    (m ((c : Thread nD τ).loc main_arg9)) (i 0) (GateSpec.hi (i 1)) (GateSpec.lo (i 1))

/-- Both output windows: all 256 rows, the tile's column block. -/
theorem idx_8 : ∀ t : Fin cfg0.N, win0_8.index t (0 : Fin 2) = 0 ∧ win0_8.index t (1 : Fin 2) = t.val / 4 :=
  (by decide +kernel : ∀ t : Fin grid0.N, _)
theorem idx_9 : ∀ t : Fin cfg0.N, win0_9.index t (0 : Fin 2) = 0 ∧ win0_9.index t (1 : Fin 2) = t.val / 4 :=
  (by decide +kernel : ∀ t : Fin grid0.N, _)

/-- What a point writes back of the cell state is its tile's block of the whole array. -/
theorem flushed8_eq (c : Dev nD) (t : Fin cfg0.N) :
    (dats m 0 c).flushed 8 t = ((cfg0.win 8).blk t).view.read (Elt Ideal) (cellFlat m c) := by
  show (cfg0.win 8).cut (grid0.coords t) ((dats m 0 c).after 8 t) = _
  rw [after_8]
  obtain ⟨e0, e1⟩ := idx_8 t
  funext j
  obtain ⟨r, col, rfl⟩ : ∃ (r col : Fin 256), j = ix2 r col := ⟨j 0, j 1, eq_ix2 j⟩
  show cellAt m c t (ix2 r col) = cellFlat m c (((cfg0.win 8).blk t).view.emb (ix2 r col))
  have hi : ((cfg0.win 8).blk t).view.emb (ix2 r col) = ix2 r (BlockReads.tcol t col) := by
    funext a; apply Fin.ext
    match a with
    | ⟨0, _⟩ => show win0_8.index t (0 : Fin 2) * 256 + 1 * r.val = r.val; omega
    | ⟨1, _⟩ => show win0_8.index t (1 : Fin 2) * 256 + 1 * col.val = 256 * (t.val / 4) + col.val; omega
  rw [hi, TileValue.cellAt_apply]
  rfl

theorem flushed9_eq (c : Dev nD) (t : Fin cfg0.N) :
    (dats m 0 c).flushed 9 t = ((cfg0.win 9).blk t).view.read (Elt Ideal) (stateFlat m c) := by
  show (cfg0.win 9).cut (grid0.coords t) ((dats m 0 c).after 9 t) = _
  rw [after_9]
  obtain ⟨e0, e1⟩ := idx_9 t
  funext j
  obtain ⟨r, col, rfl⟩ : ∃ (r col : Fin 256), j = ix2 r col := ⟨j 0, j 1, eq_ix2 j⟩
  show stateAt m c t (ix2 r col) = stateFlat m c (((cfg0.win 9).blk t).view.emb (ix2 r col))
  have hi : ((cfg0.win 9).blk t).view.emb (ix2 r col) = ix2 r (BlockReads.tcol t col) := by
    funext a; apply Fin.ext
    match a with
    | ⟨0, _⟩ => show win0_9.index t (0 : Fin 2) * 256 + 1 * r.val = r.val; omega
    | ⟨1, _⟩ => show win0_9.index t (1 : Fin 2) * 256 + 1 * col.val = 256 * (t.val / 4) + col.val; omega
  rw [hi, TileValue.stateAt_apply]
  rfl

theorem mem_blk8 (t : Fin cfg0.N) (i : S256x4096.Idx) :
    i ∈ ((cfg0.win 8).blk t).view.set ↔ ∀ a : Fin 2, win0_8.index t a * S256x256.size a ≤ (i a).val ∧ (i a).val < win0_8.index t a * S256x256.size a + S256x256.size a := by
  show i ∈ ((View.whole main_v11_0).slice (win0_8.rect t)).set ↔ _
  rw [View.set_slice_whole, Rect.mem_set_unit]
  exact Iff.rfl

theorem mem_blk9 (t : Fin cfg0.N) (i : S256x4096.Idx) :
    i ∈ ((cfg0.win 9).blk t).view.set ↔ ∀ a : Fin 2, win0_9.index t a * S256x256.size a ≤ (i a).val ∧ (i a).val < win0_9.index t a * S256x256.size a + S256x256.size a := by
  show i ∈ ((View.whole main_v11_1).slice (win0_9.rect t)).set ↔ _
  rw [View.set_slice_whole, Rect.mem_set_unit]
  exact Iff.rfl

/-- The last gate of the tile that holds column `p`. -/
def tileGate (p : ℕ) (hp : p < 4096) : Fin cfg0.N := ⟨4 * (p / 256) + 3, lt_of_lt_of_eq (b := 64) (by omega) N_eq.symm⟩

/-- Every entry of the cell-state array lies in the block some tile's last gate writes back. -/
theorem cover8 (i : S256x4096.Idx) : ∃ t : Fin cfg0.N, (cfg0.win 8).flush t = true ∧ i ∈ ((cfg0.win 8).blk t).view.set := by
  have h0 : (i 0).val < 256 := (i 0).isLt
  have h1 : (i 1).val < 4096 := (i 1).isLt
  refine ⟨tileGate (i 1).val h1, (flush0_8 _).mpr (by show (4 * ((i 1).val / 256) + 3) % 4 = 3; omega), ?_⟩
  rw [mem_blk8]
  obtain ⟨e0, e1⟩ := idx_8 (tileGate (i 1).val h1)
  have e1' : win0_8.index (tileGate (i 1).val h1) (1 : Fin 2) = (i 1).val / 256 := by rw [e1]; show (4 * ((i 1).val / 256) + 3) / 4 = _; omega
  intro a
  match a with
  | ⟨0, _⟩ => show win0_8.index (tileGate (i 1).val h1) (0 : Fin 2) * 256 ≤ (i 0).val ∧ (i 0).val < win0_8.index (tileGate (i 1).val h1) (0 : Fin 2) * 256 + 256; omega
  | ⟨1, _⟩ => show win0_8.index (tileGate (i 1).val h1) (1 : Fin 2) * 256 ≤ (i 1).val ∧ (i 1).val < win0_8.index (tileGate (i 1).val h1) (1 : Fin 2) * 256 + 256; omega

theorem cover9 (i : S256x4096.Idx) : ∃ t : Fin cfg0.N, (cfg0.win 9).flush t = true ∧ i ∈ ((cfg0.win 9).blk t).view.set := by
  have h0 : (i 0).val < 256 := (i 0).isLt
  have h1 : (i 1).val < 4096 := (i 1).isLt
  refine ⟨tileGate (i 1).val h1, (flush0_9 _).mpr (by show (4 * ((i 1).val / 256) + 3) % 4 = 3; omega), ?_⟩
  rw [mem_blk9]
  obtain ⟨e0, e1⟩ := idx_9 (tileGate (i 1).val h1)
  have e1' : win0_9.index (tileGate (i 1).val h1) (1 : Fin 2) = (i 1).val / 256 := by rw [e1]; show (4 * ((i 1).val / 256) + 3) / 4 = _; omega
  intro a
  match a with
  | ⟨0, _⟩ => show win0_9.index (tileGate (i 1).val h1) (0 : Fin 2) * 256 ≤ (i 0).val ∧ (i 0).val < win0_9.index (tileGate (i 1).val h1) (0 : Fin 2) * 256 + 256; omega
  | ⟨1, _⟩ => show win0_9.index (tileGate (i 1).val h1) (1 : Fin 2) * 256 ≤ (i 1).val ∧ (i 1).val < win0_9.index (tileGate (i 1).val h1) (1 : Fin 2) * 256 + 256; omega

/-- The two output arrays after the region. -/
theorem final8 (c : Dev nD) : (dats m 0 c).arrAt 8 cfg0.N = cellFlat m c :=
  (dats m 0 c).arrAt_eq_of_cover 8 (cellFlat m c) (fun t _ => flushed8_eq m c t) cover8

theorem final9 (c : Dev nD) : (dats m 0 c).arrAt 9 cfg0.N = stateFlat m c :=
  (dats m 0 c).arrAt_eq_of_cover 9 (stateFlat m c) (fun t _ => flushed9_eq m c t) cover9

/-! ## The two lines after the region -/

/-- Column a·64 + b is entry (a, b) of the 64 × 64 matrix. -/
theorem hi_lo (a b : Fin 64) (hp : a.val * 64 + b.val < 4096) : GateSpec.hi ⟨a.val * 64 + b.val, hp⟩ = a ∧ GateSpec.lo ⟨a.val * 64 + b.val, hp⟩ = b :=
  ⟨Fin.ext (by show (a.val * 64 + b.val) / 64 = a.val; have := b.isLt; omega), Fin.ext (by show (a.val * 64 + b.val) % 64 = b.val; have := b.isLt; omega)⟩

/-- The first result: the matrix-state array re-read as [256, 64, 64]. -/
theorem tail_state (c : Dev nD) :
    (Pipeline.afterTail₀ cfgs (dats m) 0 (V0 m) [hostOps1] c main_v12 : S256x64x64.Idx → EReal)
      = fun i => GateSpec.state (m ((c : Thread nD τ).loc main_arg0)) (m ((c : Thread nD τ).loc main_arg2)) (m ((c : Thread nD τ).loc main_arg1))
          (m ((c : Thread nD τ).loc main_arg3)) (m ((c : Thread nD τ).loc main_arg4)) (m ((c : Thread nD τ).loc main_arg6))
          (m ((c : Thread nD τ).loc main_arg5)) (m ((c : Thread nD τ).loc main_arg7)) (m ((c : Thread nD τ).loc main_arg8))
          (m ((c : Thread nD τ).loc main_arg9)) (i 0) (i 1) (i 2) := by
  have e : (Pipeline.afterTail₀ cfgs (dats m) 0 (V0 m) [hostOps1] c main_v12 : S256x64x64.Idx → EReal)
      = shapeCast S256x64x64 (stateFlat m c) shapeCasts_S256x4096_S256x64x64 := by
    unfold Pipeline.afterTail₀
    show StableHlo.after hostOps1 _ (Proc.devRef .tc main_v12) = _
    after_results
    exact congrArg (fun x => shapeCast S256x64x64 x shapeCasts_S256x4096_S256x64x64)
      ((Pipeline.withArrays_arr spec0 launch0.win.arr_inj c _ _ 9).trans (final9 m c))
  rw [e]
  funext i
  obtain ⟨n, a, b, rfl⟩ : ∃ (n : Fin 256) (a b : Fin 64), i = ix3 n a b := ⟨i 0, i 1, i 2, eq_ix3 i⟩
  have hp : a.val * 64 + b.val < 4096 := by have := a.isLt; have := b.isLt; omega
  rw [shapeCast_apply (stateFlat m c) shapeCasts_S256x4096_S256x64x64 (ix3 n a b) (ix2 n ⟨a.val * 64 + b.val, hp⟩) (by
    rw [Shape.rowMajor_val_three, Shape.rowMajor_val_two]
    show n.val * 4096 + (a.val * 64 + b.val) = (n.val * 64 + a.val) * 64 + b.val
    ring)]
  unfold stateFlat
  obtain ⟨h1, h2⟩ := hi_lo a b hp
  show GateSpec.state _ _ _ _ _ _ _ _ _ _ n (GateSpec.hi ⟨a.val * 64 + b.val, hp⟩) (GateSpec.lo ⟨a.val * 64 + b.val, hp⟩) = GateSpec.state _ _ _ _ _ _ _ _ _ _ n a b
  rw [h1, h2]

/-- The second result: the cell-state array re-read as [256, 64, 64]. -/
theorem tail_cell (c : Dev nD) :
    (Pipeline.afterTail₀ cfgs (dats m) 0 (V0 m) [hostOps1] c main_v13 : S256x64x64.Idx → EReal)
      = fun i => GateSpec.cell (m ((c : Thread nD τ).loc main_arg0)) (m ((c : Thread nD τ).loc main_arg2)) (m ((c : Thread nD τ).loc main_arg1))
          (m ((c : Thread nD τ).loc main_arg3)) (m ((c : Thread nD τ).loc main_arg4)) (m ((c : Thread nD τ).loc main_arg6))
          (m ((c : Thread nD τ).loc main_arg5)) (m ((c : Thread nD τ).loc main_arg7)) (m ((c : Thread nD τ).loc main_arg8))
          (m ((c : Thread nD τ).loc main_arg9)) (i 0) (i 1) (i 2) := by
  have e : (Pipeline.afterTail₀ cfgs (dats m) 0 (V0 m) [hostOps1] c main_v13 : S256x64x64.Idx → EReal)
      = shapeCast S256x64x64 (cellFlat m c) shapeCasts_S256x4096_S256x64x64 := by
    unfold Pipeline.afterTail₀
    show StableHlo.after hostOps1 _ (Proc.devRef .tc main_v13) = _
    after_results
    exact congrArg (fun x => shapeCast S256x64x64 x shapeCasts_S256x4096_S256x64x64)
      ((Pipeline.withArrays_arr spec0 launch0.win.arr_inj c _ _ 8).trans (final8 m c))
  rw [e]
  funext i
  obtain ⟨n, a, b, rfl⟩ : ∃ (n : Fin 256) (a b : Fin 64), i = ix3 n a b := ⟨i 0, i 1, i 2, eq_ix3 i⟩
  have hp : a.val * 64 + b.val < 4096 := by have := a.isLt; have := b.isLt; omega
  rw [shapeCast_apply (cellFlat m c) shapeCasts_S256x4096_S256x64x64 (ix3 n a b) (ix2 n ⟨a.val * 64 + b.val, hp⟩) (by
    rw [Shape.rowMajor_val_three, Shape.rowMajor_val_two]
    show n.val * 4096 + (a.val * 64 + b.val) = (n.val * 64 + a.val) * 64 + b.val
    ring)]
  unfold cellFlat
  obtain ⟨h1, h2⟩ := hi_lo a b hp
  show GateSpec.cell _ _ _ _ _ _ _ _ _ _ n (GateSpec.hi ⟨a.val * 64 + b.val, hp⟩) (GateSpec.lo ⟨a.val * 64 + b.val, hp⟩) = GateSpec.cell _ _ _ _ _ _ _ _ _ _ n a b
  rw [h1, h2]

/-! ## The run, read -/

/-- Every weakly fair execution of the idealized kernel terminates with its two results at the specification's new
    matrix state and new cell state of the argument arrays, the arguments unchanged. -/
theorem run : θ_run defs (onTc (τ := τ) (main (F := Ideal))) ⟨m, fun _ => 0, ρ⟩ fun r => ∀ c : Dev nD,
      r.2.mem ((c.tc : Thread nD τ).loc main_v12) = (fun i => GateSpec.state (m ((c : Thread nD τ).loc main_arg0)) (m ((c : Thread nD τ).loc main_arg2)) (m ((c : Thread nD τ).loc main_arg1))
          (m ((c : Thread nD τ).loc main_arg3)) (m ((c : Thread nD τ).loc main_arg4)) (m ((c : Thread nD τ).loc main_arg6))
          (m ((c : Thread nD τ).loc main_arg5)) (m ((c : Thread nD τ).loc main_arg7)) (m ((c : Thread nD τ).loc main_arg8))
          (m ((c : Thread nD τ).loc main_arg9)) (i 0) (i 1) (i 2) : S256x64x64.Idx → EReal)
      ∧ r.2.mem ((c.tc : Thread nD τ).loc main_v13) = (fun i => GateSpec.cell (m ((c : Thread nD τ).loc main_arg0)) (m ((c : Thread nD τ).loc main_arg2)) (m ((c : Thread nD τ).loc main_arg1))
          (m ((c : Thread nD τ).loc main_arg3)) (m ((c : Thread nD τ).loc main_arg4)) (m ((c : Thread nD τ).loc main_arg6))
          (m ((c : Thread nD τ).loc main_arg5)) (m ((c : Thread nD τ).loc main_arg7)) (m ((c : Thread nD τ).loc main_arg8))
          (m ((c : Thread nD τ).loc main_arg9)) (i 0) (i 1) (i 2) : S256x64x64.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨
      ((h c).2 main_v12 (Pipeline.mem_restRefs_of main_v12 (by decide) (by decide))).trans (tail_state m c),
      ((h c).2 main_v13 (Pipeline.mem_restRefs_of main_v13 (by decide) (by decide))).trans (tail_cell m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Final

end
-- ==== Proof.RefStages.lean ====
/-
  The reference program, read entry by entry: its two results are the gated matrix-state cell of the shared
  specification.  Each gate's pre-activation is assembled from three contractions and a bias; the four gates are
  slices of one array; the logistic function is spelt as a quotient.
-/
import proofs.«164890_j54468775248255_2_alg».proof.Proof.Gen.ReferenceIdeal.Read
import proofs.«164890_j54468775248255_2_alg».proof.Proof.GateSpec
import Idealize.ShloMosaic.Lib.IdealHost

noncomputable section

open scoped BigOperators

namespace Cert.ReferenceIdeal.RefStages

open Cert.ReferenceIdeal Cert.ReferenceIdeal.Read Idealize.ShloMosaic Idealize.ShloMosaic.ValueIdx

/-- The hidden vector against its weights, in gate-major order, at an index: a sum over the 512 hidden entries. -/
theorem dotW (v : FVec Ideal S256x512 .f32) (W : FVec Ideal S4x64x64x512 .f32) (g : Fin 4) (n : Fin 256) (a b : Fin 64) :
    val_main_v1 (F := Ideal) v W (ix4 g n a b) = ∑ u : Fin 512, v (ix2 n u) * W (ix4 g a b u) := by
  rw [val_main_v1_apply, val_main_v0_apply]
  refine Finset.sum_congr rfl fun k _ => ?_
  have el : lidx_main_v0 (idx_main_v1 (ix4 g n a b)) k = ix2 n k := funext fun d => Fin.ext (by
    match d with
    | ⟨0, _⟩ => rfl
    | ⟨1, _⟩ => rfl)
  have er : ridx_main_v0 (idx_main_v1 (ix4 g n a b)) k = ix4 g a b k := funext fun d => Fin.ext (by
    match d with
    | ⟨0, _⟩ => rfl
    | ⟨1, _⟩ => rfl
    | ⟨2, _⟩ => rfl
    | ⟨3, _⟩ => rfl)
  rw [el, er]

/-- The input row against its weights, in gate-major order, at an index: a sum over the 512 input entries. -/
theorem dotD (v : FVec Ideal S256x512 .f32) (W : FVec Ideal S4x64x64x512 .f32) (g : Fin 4) (n : Fin 256) (a b : Fin 64) :
    val_main_v3 (F := Ideal) v W (ix4 g n a b) = ∑ u : Fin 512, v (ix2 n u) * W (ix4 g a b u) := by
  rw [val_main_v3_apply, val_main_v2_apply]
  refine Finset.sum_congr rfl fun k _ => ?_
  have el : lidx_main_v2 (idx_main_v3 (ix4 g n a b)) k = ix2 n k := funext fun d => Fin.ext (by
    match d with
    | ⟨0, _⟩ => rfl
    | ⟨1, _⟩ => rfl)
  have er : ridx_main_v2 (idx_main_v3 (ix4 g n a b)) k = ix4 g a b k := funext fun d => Fin.ext (by
    match d with
    | ⟨0, _⟩ => rfl
    | ⟨1, _⟩ => rfl
    | ⟨2, _⟩ => rfl
    | ⟨3, _⟩ => rfl)
  rw [el, er]

/-- Entry `(a, b)` of a 64 × 64 matrix in the row-by-row listing. -/
abbrev flat (a b : Fin 64) : Fin 4096 := ⟨a.val * 64 + b.val, by have := a.isLt; have := b.isLt; omega⟩

/-- The last reshape of the matrix-state contraction joins the two state axes into one of 4096. -/
theorem idx8_eq (g : Fin 4) (n : Fin 256) (a b : Fin 64) : idx_main_v8 (ix4 g n a b) = ix3 g n (flat a b) :=
  funext fun d => Fin.ext (by
    have hg := g.isLt; have hn := n.isLt; have ha := a.isLt; have hb := b.isLt
    match d with
    | ⟨0, _⟩ => show (((g.val * 256 + n.val) * 64 + a.val) * 64 + b.val) / 1048576 = g.val; omega
    | ⟨1, _⟩ => show (((g.val * 256 + n.val) * 64 + a.val) * 64 + b.val) / 4096 % 256 = n.val; omega
    | ⟨2, _⟩ => show (((g.val * 256 + n.val) * 64 + a.val) * 64 + b.val) % 4096 = a.val * 64 + b.val; omega)

/-- The flattened matrix state at `(n, q)` is the matrix state at row `q / 64`, column `q % 64`. -/
theorem idx5_eq (n : Fin 256) (q : Fin 4096) : idx_main_v5 (ix2 n q) = ix3 n (GateSpec.hi q) (GateSpec.lo q) :=
  funext fun d => Fin.ext (by
    have hn := n.isLt; have hq := q.isLt
    match d with
    | ⟨0, _⟩ => show (n.val * 4096 + q.val) / 4096 = n.val; omega
    | ⟨1, _⟩ => show (n.val * 4096 + q.val) / 64 % 64 = q.val / 64; omega
    | ⟨2, _⟩ => show (n.val * 4096 + q.val) % 64 = q.val % 64; omega)

/-- The flattened weights at `(g, p, q)` are the weights at output entry `p` and input entry `q`, each split into row
and column. -/
theorem idx4_eq (g : Fin 4) (a b : Fin 64) (q : Fin 4096) :
    idx_main_v4 (ix3 g (flat a b) q) = ix5 g a b (GateSpec.hi q) (GateSpec.lo q) :=
  funext fun d => Fin.ext (by
    have hg := g.isLt; have ha := a.isLt; have hb := b.isLt; have hq := q.isLt
    match d with
    | ⟨0, _⟩ => show ((g.val * 4096 + (a.val * 64 + b.val)) * 4096 + q.val) / 16777216 = g.val; omega
    | ⟨1, _⟩ => show ((g.val * 4096 + (a.val * 64 + b.val)) * 4096 + q.val) / 262144 % 64 = a.val; omega
    | ⟨2, _⟩ => show ((g.val * 4096 + (a.val * 64 + b.val)) * 4096 + q.val) / 4096 % 64 = b.val; omega
    | ⟨3, _⟩ => show ((g.val * 4096 + (a.val * 64 + b.val)) * 4096 + q.val) / 64 % 64 = q.val / 64; omega
    | ⟨4, _⟩ => show ((g.val * 4096 + (a.val * 64 + b.val)) * 4096 + q.val) % 64 = q.val % 64; omega)

/-- The flattened matrix state against its flattened weights, reshaped back, at an index: a sum over the 4096 state
entries in row-major order. -/
theorem dotU (h : FVec Ideal S256x64x64 .f32) (W : FVec Ideal S4x64x64x64x64 .f32) (g : Fin 4) (n : Fin 256) (a b : Fin 64) :
    val_main_v8 (F := Ideal) h W (ix4 g n a b)
      = ∑ q : Fin 4096, h (ix3 n (GateSpec.hi q) (GateSpec.lo q)) * W (ix5 g a b (GateSpec.hi q) (GateSpec.lo q)) := by
  rw [val_main_v8_apply, idx8_eq, val_main_v7_apply, val_main_v6_apply]
  refine Finset.sum_congr rfl fun k _ => ?_
  have el : lidx_main_v6 (idx_main_v7 (ix3 g n (flat a b))) k = ix2 n k := funext fun d => Fin.ext (by
    match d with
    | ⟨0, _⟩ => rfl
    | ⟨1, _⟩ => rfl)
  have er : ridx_main_v6 (idx_main_v7 (ix3 g n (flat a b))) k = ix3 g (flat a b) k := funext fun d => Fin.ext (by
    match d with
    | ⟨0, _⟩ => rfl
    | ⟨1, _⟩ => rfl
    | ⟨2, _⟩ => rfl)
  rw [el, er, val_main_v5_apply, val_main_v4_apply, idx5_eq, idx4_eq]

/-- The three biases, added in the reference's order and broadcast over the batch, at an index. -/
theorem bias_eq (Bd Bu Bw : FVec Ideal S4x64x64 .f32) (g : Fin 4) (n : Fin 256) (a b : Fin 64) :
    val_main_v14 (F := Ideal) Bd Bu Bw (ix4 g n a b) = (Bw (ix3 g a b) + Bd (ix3 g a b)) + Bu (ix3 g a b) := by
  rw [val_main_v14_apply, val_main_v13_apply, val_main_v12_apply, val_main_v11_apply]
  have e : idx_main_v13 (idx_main_v14 (ix4 g n a b)) = ix3 g a b := funext fun d => Fin.ext (by
    match d with
    | ⟨0, _⟩ => rfl
    | ⟨1, _⟩ => rfl
    | ⟨2, _⟩ => rfl)
  rw [e]
  rfl

/-- The reference's pre-activation array at gate `g`, batch row `n` and state entry `(a, b)` is the specification's. -/
theorem pre_eq (a0 a2 : FVec Ideal S256x512 .f32) (a1 : FVec Ideal S256x64x64 .f32) (a4 a6 : FVec Ideal S4x64x64x512 .f32)
    (a5 : FVec Ideal S4x64x64x64x64 .f32) (a7 a8 a9 : FVec Ideal S4x64x64 .f32) (g : Fin 4) (n : Fin 256) (a b : Fin 64) :
    val_main_v15 (F := Ideal) a0 a1 a2 a4 a5 a6 a7 a8 a9 (ix4 g n a b) = GateSpec.pre a0 a2 a1 a4 a6 a5 a7 a8 a9 g n a b := by
  rw [val_main_v15_apply, val_main_v10_apply, val_main_v9_apply, dotW, dotD, dotU, bias_eq, GateSpec.bias_comm]
  rfl

/-- Dropping the unit gate axis of a slice: entry `(n, a, b)` comes from `(0, n, a, b)`. -/
theorem idx17_eq (n : Fin 256) (a b : Fin 64) : idx_main_v17 (ix3 n a b) = ix4 (0 : Fin 1) n a b :=
  funext fun d => Fin.ext (by
    have hn := n.isLt; have ha := a.isLt; have hb := b.isLt
    match d with
    | ⟨0, _⟩ => rfl
    | ⟨1, _⟩ => show ((n.val * 64 + a.val) * 64 + b.val) / 4096 % 256 = n.val; omega
    | ⟨2, _⟩ => show ((n.val * 64 + a.val) * 64 + b.val) / 64 % 64 = a.val; omega
    | ⟨3, _⟩ => show ((n.val * 64 + a.val) * 64 + b.val) % 64 = b.val; omega)

/-- Gate 0's slice with its unit axis dropped reads the pre-activation array at gate 0. -/
theorem slice0 (n : Fin 256) (a b : Fin 64) : idx_main_v16 (idx_main_v17 (ix3 n a b)) = ix4 (0 : Fin 4) n a b := by
  rw [idx17_eq]
  exact funext fun d => Fin.ext (by
    match d with
    | ⟨0, _⟩ => rfl
    | ⟨1, _⟩ => rfl
    | ⟨2, _⟩ => rfl
    | ⟨3, _⟩ => rfl)

/-- Gate 1's slice with its unit axis dropped reads the pre-activation array at gate 1. -/
theorem slice1 (n : Fin 256) (a b : Fin 64) : idx_main_v24 (idx_main_v25 (ix3 n a b)) = ix4 (1 : Fin 4) n a b := by
  rw [show idx_main_v25 (ix3 n a b) = ix4 (0 : Fin 1) n a b from idx17_eq n a b]
  exact funext fun d => Fin.ext (by
    match d with
    | ⟨0, _⟩ => rfl
    | ⟨1, _⟩ => rfl
    | ⟨2, _⟩ => rfl
    | ⟨3, _⟩ => rfl)

/-- Gate 2's slice with its unit axis dropped reads the pre-activation array at gate 2. -/
theorem slice2 (n : Fin 256) (a b : Fin 64) : idx_main_v32 (idx_main_v33 (ix3 n a b)) = ix4 (2 : Fin 4) n a b := by
  rw [show idx_main_v33 (ix3 n a b) = ix4 (0 : Fin 1) n a b from idx17_eq n a b]
  exact funext fun d => Fin.ext (by
    match d with
    | ⟨0, _⟩ => rfl
    | ⟨1, _⟩ => rfl
    | ⟨2, _⟩ => rfl
    | ⟨3, _⟩ => rfl)

/-- Gate 3's slice with its unit axis dropped reads the pre-activation array at gate 3. -/
theorem slice3 (n : Fin 256) (a b : Fin 64) : idx_main_v40 (idx_main_v41 (ix3 n a b)) = ix4 (3 : Fin 4) n a b := by
  rw [show idx_main_v41 (ix3 n a b) = ix4 (0 : Fin 1) n a b from idx17_eq n a b]
  exact funext fun d => Fin.ext (by
    match d with
    | ⟨0, _⟩ => rfl
    | ⟨1, _⟩ => rfl
    | ⟨2, _⟩ => rfl
    | ⟨3, _⟩ => rfl)

/-- The quotient `1 / (1 + e^(-x))`, its two ones written as the bit pattern of the float one, is the logistic
function. -/
theorem logistic_spelt (x : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf x)))
      = Ideal.logistic x := by
  simp only [Ideal.hostDivf_def, Ideal.ofBits_def, Ideal.ofBits_one_f32, Ideal.addf_def, Ideal.hostUnary_exp_def,
    Ideal.hostNegf_def, Ideal.negf_def, Ideal.logistic]

section Gates

variable (a0 a2 : FVec Ideal S256x512 .f32) (a1 a3 : FVec Ideal S256x64x64 .f32) (a4 a6 : FVec Ideal S4x64x64x512 .f32)
  (a5 : FVec Ideal S4x64x64x64x64 .f32) (a7 a8 a9 : FVec Ideal S4x64x64 .f32) (n : Fin 256) (a b : Fin 64)

/-- The forget gate: the logistic function of pre-activation 0. -/
theorem gate0_eq : val_main_v23 (F := Ideal) a0 a1 a2 a4 a5 a6 a7 a8 a9 (ix3 n a b)
    = Ideal.logistic (GateSpec.pre a0 a2 a1 a4 a6 a5 a7 a8 a9 0 n a b) := by
  rw [val_main_v23_apply, val_main_v22_apply, val_main_cst_0_apply, val_main_v21_apply, val_main_v20_apply,
    val_main_cst_apply, val_main_v19_apply, val_main_v18_apply, val_main_v17_apply, val_main_v16_apply, slice0, pre_eq]
  exact logistic_spelt _

/-- The input gate: the logistic function of pre-activation 1. -/
theorem gate1_eq : val_main_v31 (F := Ideal) a0 a1 a2 a4 a5 a6 a7 a8 a9 (ix3 n a b)
    = Ideal.logistic (GateSpec.pre a0 a2 a1 a4 a6 a5 a7 a8 a9 1 n a b) := by
  rw [val_main_v31_apply, val_main_v30_apply, val_main_cst_2_apply, val_main_v29_apply, val_main_v28_apply,
    val_main_cst_1_apply, val_main_v27_apply, val_main_v26_apply, val_main_v25_apply, val_main_v24_apply, slice1, pre_eq]
  exact logistic_spelt _

/-- The output gate: the logistic function of pre-activation 2. -/
theorem gate2_eq : val_main_v39 (F := Ideal) a0 a1 a2 a4 a5 a6 a7 a8 a9 (ix3 n a b)
    = Ideal.logistic (GateSpec.pre a0 a2 a1 a4 a6 a5 a7 a8 a9 2 n a b) := by
  rw [val_main_v39_apply, val_main_v38_apply, val_main_cst_4_apply, val_main_v37_apply, val_main_v36_apply,
    val_main_cst_3_apply, val_main_v35_apply, val_main_v34_apply, val_main_v33_apply, val_main_v32_apply, slice2, pre_eq]
  exact logistic_spelt _

/-- The candidate: the hyperbolic tangent of pre-activation 3. -/
theorem gate3_eq : val_main_v42 (F := Ideal) a0 a1 a2 a4 a5 a6 a7 a8 a9 (ix3 n a b)
    = Ideal.tanh (GateSpec.pre a0 a2 a1 a4 a6 a5 a7 a8 a9 3 n a b) := by
  rw [val_main_v42_apply, val_main_v41_apply, val_main_v40_apply, slice3, pre_eq]
  rfl

/-- The reference's new cell state at an entry is the specification's. -/
theorem cell_at : val_main_v45 (F := Ideal) a0 a1 a2 a3 a4 a5 a6 a7 a8 a9 (ix3 n a b)
    = GateSpec.cell a0 a2 a1 a3 a4 a6 a5 a7 a8 a9 n a b := by
  rw [val_main_v45_apply, val_main_v43_apply, val_main_v44_apply, gate0_eq, gate1_eq, gate3_eq]
  rfl

/-- The reference's new matrix state at an entry is the specification's. -/
theorem state_at : val_main_v47 (F := Ideal) a0 a1 a2 a3 a4 a5 a6 a7 a8 a9 (ix3 n a b)
    = GateSpec.state a0 a2 a1 a3 a4 a6 a5 a7 a8 a9 n a b := by
  rw [val_main_v47_apply, val_main_v46_apply, gate2_eq, cell_at]
  rfl

end Gates

/-- The reference's first result, the new matrix state, is the specification's at every index. -/
theorem state_eq (a0 a2 : FVec Ideal S256x512 .f32) (a1 a3 : FVec Ideal S256x64x64 .f32) (a4 a6 : FVec Ideal S4x64x64x512 .f32)
    (a5 : FVec Ideal S4x64x64x64x64 .f32) (a7 a8 a9 : FVec Ideal S4x64x64 .f32) :
    val_main_v47 (F := Ideal) a0 a1 a2 a3 a4 a5 a6 a7 a8 a9
      = fun i => GateSpec.state a0 a2 a1 a3 a4 a6 a5 a7 a8 a9 (i 0) (i 1) (i 2) := by
  funext i
  obtain ⟨n, a, b, rfl⟩ : ∃ (n : Fin 256) (a b : Fin 64), i = ix3 n a b := ⟨i 0, i 1, i 2, eq_ix3 i⟩
  exact state_at a0 a2 a1 a3 a4 a6 a5 a7 a8 a9 n a b

/-- The reference's second result, the new cell state, is the specification's at every index. -/
theorem cell_eq (a0 a2 : FVec Ideal S256x512 .f32) (a1 a3 : FVec Ideal S256x64x64 .f32) (a4 a6 : FVec Ideal S4x64x64x512 .f32)
    (a5 : FVec Ideal S4x64x64x64x64 .f32) (a7 a8 a9 : FVec Ideal S4x64x64 .f32) :
    val_main_v45 (F := Ideal) a0 a1 a2 a3 a4 a5 a6 a7 a8 a9
      = fun i => GateSpec.cell a0 a2 a1 a3 a4 a6 a5 a7 a8 a9 (i 0) (i 1) (i 2) := by
  funext i
  obtain ⟨n, a, b, rfl⟩ : ∃ (n : Fin 256) (a b : Fin 64), i = ix3 n a b := ⟨i 0, i 1, i 2, eq_ix3 i⟩
  exact cell_at a0 a2 a1 a3 a4 a6 a5 a7 a8 a9 n a b

end Cert.ReferenceIdeal.RefStages

end
-- ==== Proof.Pairing.lean ====
/-
  The two programs' runs, paired.  The reference ends with the specification's new matrix state and new cell state of
  its own arguments; when the kernel ends with the same two functions of its arguments, and the arguments agree, the
  results are equal entry by entry, and both programs leave their arguments as they found them.
-/
import proofs.«164890_j54468775248255_2_alg».proof.Defs
import proofs.«164890_j54468775248255_2_alg».proof.Proof.Gen.Kernel
import proofs.«164890_j54468775248255_2_alg».proof.Proof.Gen.KernelIdeal
import proofs.«164890_j54468775248255_2_alg».proof.Proof.Gen.ReferenceIdeal
import proofs.«164890_j54468775248255_2_alg».proof.Proof.Gen.Pre_finite_inputs
import proofs.«164890_j54468775248255_2_alg».proof.Proof.RefStages
import proofs.«164890_j54468775248255_2_alg».proof.Proof.GateSpec

noncomputable section

namespace Cert.Proof.Pairing

open Idealize.ShloMosaic Idealize.SL.Sem

/-- The specification's new matrix state of the kernel's ten argument arrays on core `c`. -/
abbrev stateOf (m : (ℓ : Loc Cert.KernelIdeal.nD Cert.KernelIdeal.τ Cert.KernelIdeal.sig) → Buf (Elt Ideal) ℓ)
    (c : Dev Cert.KernelIdeal.nD) : Cert.KernelIdeal.S256x64x64.Idx → EReal :=
  fun i => Cert.GateSpec.state
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (i 0) (i 1) (i 2)

/-- The specification's new cell state of the kernel's ten argument arrays on core `c`. -/
abbrev cellOf (m : (ℓ : Loc Cert.KernelIdeal.nD Cert.KernelIdeal.τ Cert.KernelIdeal.sig) → Buf (Elt Ideal) ℓ)
    (c : Dev Cert.KernelIdeal.nD) : Cert.KernelIdeal.S256x64x64.Idx → EReal :=
  fun i => Cert.GateSpec.cell
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (i 0) (i 1) (i 2)

/-- The reference runs and leaves its ten arguments as it found them: its run's two results come first and are
dropped here. -/
theorem frame_ref : Cert.frame_ReferenceIdeal (hReferenceIdeal := Cert.ReferenceIdeal.Gen.facts)
    (hPre_finite_inputs := Cert.Pre_finite_inputs.Gen.facts) :=
  fun m ρ _ => (θ_run Cert.ReferenceIdeal.defs _ _).mono (fun _ h c => (h c).2.2)
    (Cert.ReferenceIdeal.Value.run (F := Ideal) m ρ)

/-- If the kernel ends with the specification's new matrix state and new cell state of its arguments, and its
arguments unchanged, then from agreeing arguments the two programs end with equal results. -/
theorem algebraic_of_run
    (hk : ∀ (m : (ℓ : Loc Cert.KernelIdeal.nD Cert.KernelIdeal.τ Cert.KernelIdeal.sig) → Buf (Elt Ideal) ℓ)
        (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ fun r => ∀ c : Dev Cert.KernelIdeal.nD,
          r.2.mem ((c.tc : Thread Cert.KernelIdeal.nD Cert.KernelIdeal.τ).loc Cert.KernelIdeal.main_v12) = stateOf m c
          ∧ r.2.mem ((c.tc : Thread Cert.KernelIdeal.nD Cert.KernelIdeal.τ).loc Cert.KernelIdeal.main_v13) = cellOf m c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' _ hagree
  refine ⟨fun c => stateOf m c, fun c => cellOf m c, hk m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · refine (Cert.ReferenceIdeal.Read.val_main_v47_eq m' c).trans ?_
    refine (Cert.ReferenceIdeal.RefStages.state_eq _ _ _ _ _ _ _ _ _ _).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  · refine (Cert.ReferenceIdeal.Read.val_main_v45_eq m' c).trans ?_
    refine (Cert.ReferenceIdeal.RefStages.cell_eq _ _ _ _ _ _ _ _ _ _).trans ?_
    rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]

end Cert.Proof.Pairing

end
-- ==== Proof.lean ====
/-
  The kernel and its reference compute the same gated matrix-state cell.

  The kernel walks 16 column tiles × 4 gates.  At every grid point it forms one gate's pre-activation for the tile —
  three matrix products of the activations with the tile's rows of the gate's weights, combined, plus the bias row —
  and keeps it in a slab of a scratch buffer; at the tile's fourth gate it reads the four slabs back and writes the
  tile's new cell state, σ(f)·c + σ(i)·tanh(g), and new matrix state, σ(o)·tanh(new cell), whole.  The reference forms
  all four pre-activations at once by three contractions over the unflattened weights, adds the three biases in
  another order, and applies the same gates with the logistic function spelt 1 / (1 + e⁻ˣ).  Over the extended reals
  the two agree entry by entry: the products and sums are the same sums in the same order, a change of float format is
  the identity, the two spellings of the logistic function are one function, and three terms added in either order
  give one sum.  No finiteness of the inputs is used.

  The frames of the kernel (as printed, and read at the ideal values) come from running its body symbolically at a
  grid point of either kind and threading the scratch's contents through the 64 points; the reference's frame is its
  run with the results dropped; the idealization rewrote nothing, so it preserves the kernel trivially.
-/
import proofs.«164890_j54468775248255_2_alg».proof.Defs
import proofs.«164890_j54468775248255_2_alg».proof.Proof.Gen.Kernel
import proofs.«164890_j54468775248255_2_alg».proof.Proof.Gen.KernelIdeal
import proofs.«164890_j54468775248255_2_alg».proof.Proof.Gen.ReferenceIdeal
import proofs.«164890_j54468775248255_2_alg».proof.Proof.Gen.Pre_finite_inputs
import proofs.«164890_j54468775248255_2_alg».proof.Proof.BitsBody
import proofs.«164890_j54468775248255_2_alg».proof.Proof.IdealBody
import proofs.«164890_j54468775248255_2_alg».proof.Proof.IdealFinal
import proofs.«164890_j54468775248255_2_alg».proof.Proof.Pairing

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Body.frame m ρ,
  fun m ρ _ => Cert.KernelIdeal.Body.frame m ρ,
  Cert.Proof.Pairing.frame_ref,
  trivial,
  Cert.Proof.Pairing.algebraic_of_run Cert.KernelIdeal.Final.run⟩

end Cert.Proof

end
